-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1000x481x2 : Shape := ⟨5, ![32, 1, 1000, 481, 2]⟩
abbrev S32x1000x5x96x2 : Shape := ⟨5, ![32, 1000, 5, 96, 2]⟩
abbrev S32x1000x1 : Shape := ⟨3, ![32, 1000, 1]⟩
abbrev S_ : Shape := ⟨0, ![]⟩

class Facts : Prop where
  bcast_S_S32x1x1000x481x2 : S_.BroadcastsInDim S32x1x1000x481x2 (![] : Fin 0 → Fin S32x1x1000x481x2.rank)
  reducesTo_S32x1x1000x481x2_S_d0_1_2_3_4 : S32x1x1000x481x2.ReducesTo [0, 1, 2, 3, 4] S_
  h_S_ : 0 < S_.numel
  bcast_S_S32x1000x5x96x2 : S_.BroadcastsInDim S32x1000x5x96x2 (![] : Fin 0 → Fin S32x1000x5x96x2.rank)
  reducesTo_S32x1000x5x96x2_S_d0_1_2_3_4 : S32x1000x5x96x2.ReducesTo [0, 1, 2, 3, 4] S_
  bcast_S_S32x1000x1 : S_.BroadcastsInDim S32x1000x1 (![] : Fin 0 → Fin S32x1000x1.rank)
  reducesTo_S32x1000x1_S_d0_1_2 : S32x1000x1.ReducesTo [0, 1, 2] S_

variable [Facts]

def fn {F : FTy → Type} [FloatOps F] (main_arg0 : FVec F S32x1x1000x481x2 .f32) (main_arg1 : FVec F S32x1000x5x96x2 .f32) (main_arg2 : FVec F S32x1000x1 .f32) : IVec S_ 1 :=
  let main_v0 : FVec F S32x1x1000x481x2 .f32 := Host.absf main_arg0
  let main_cst : FVec F S_ .f32 := constant S_ .f32 0x7F800000#32
  let main_v1 : FVec F S32x1x1000x481x2 .f32 := broadcastInDim S32x1x1000x481x2 ![] bcast_S_S32x1x1000x481x2 main_cst
  let main_v2 : IVec S32x1x1000x481x2 1 := cmpf .olt main_v0 main_v1
  let main_c : IVec S_ 1 := constantI S_ 1 1#1
  let main_v3 : IVec S_ 1 := (fun x v => Host.reduce IntOp.andi x v reducesTo_S32x1x1000x481x2_S_d0_1_2_3_4 h_S_) main_v2 main_c
  let main_v4 : FVec F S32x1000x5x96x2 .f32 := Host.absf main_arg1
  let main_cst_0 : FVec F S_ .f32 := constant S_ .f32 0x7F800000#32
  let main_v5 : FVec F S32x1000x5x96x2 .f32 := broadcastInDim S32x1000x5x96x2 ![] bcast_S_S32x1000x5x96x2 main_cst_0
  let main_v6 : IVec S32x1000x5x96x2 1 := cmpf .olt main_v4 main_v5
  let main_c_1 : IVec S_ 1 := constantI S_ 1 1#1
  let main_v7 : IVec S_ 1 := (fun x v => Host.reduce IntOp.andi x v reducesTo_S32x1000x5x96x2_S_d0_1_2_3_4 h_S_) main_v6 main_c_1
  let main_v8 : IVec S_ 1 := andi main_v3 main_v7
  let main_v9 : FVec F S32x1000x1 .f32 := Host.absf main_arg2
  let main_cst_2 : FVec F S_ .f32 := constant S_ .f32 0x7F800000#32
  let main_v10 : FVec F S32x1000x1 .f32 := broadcastInDim S32x1000x1 ![] bcast_S_S32x1000x1 main_cst_2
  let main_v11 : IVec S32x1000x1 1 := cmpf .olt main_v9 main_v10
  let main_c_3 : IVec S_ 1 := constantI S_ 1 1#1
  let main_v12 : IVec S_ 1 := (fun x v => Host.reduce IntOp.andi x v reducesTo_S32x1000x1_S_d0_1_2 h_S_) main_v11 main_c_3
  let main_v13 : IVec S_ 1 := andi main_v8 main_v12
  main_v13
-- ==== Kernel.lean ====
abbrev S32x1x1000x481x2 : Shape := ⟨5, ![32, 1, 1000, 481, 2]⟩
abbrev S32x1000x5x96x2 : Shape := ⟨5, ![32, 1000, 5, 96, 2]⟩
abbrev S32x1000x1 : Shape := ⟨3, ![32, 1000, 1]⟩
abbrev S32x1x1000x96x1 : Shape := ⟨5, ![32, 1, 1000, 96, 1]⟩
abbrev S32x1000x96 : Shape := ⟨3, ![32, 1000, 96]⟩
abbrev S_ : Shape := ⟨0, ![]⟩
abbrev S32x1004x96 : Shape := ⟨3, ![32, 1004, 96]⟩
abbrev S32x1000x5x96x1 : Shape := ⟨5, ![32, 1000, 5, 96, 1]⟩
abbrev S32x1000x5x96 : Shape := ⟨4, ![32, 1000, 5, 96]⟩
abbrev S1x1004x96 : Shape := ⟨3, ![1, 1004, 96]⟩
abbrev S1x1000x5x96 : Shape := ⟨4, ![1, 1000, 5, 96]⟩
abbrev S1x1000x1 : Shape := ⟨3, ![1, 1000, 1]⟩
abbrev S1x1000x96 : Shape := ⟨3, ![1, 1000, 96]⟩
abbrev S1000x1 : Shape := ⟨2, ![1000, 1]⟩
abbrev S1000x96 : Shape := ⟨2, ![1000, 96]⟩
abbrev S1x1000x1x96 : Shape := ⟨4, ![1, 1000, 1, 96]⟩
abbrev S32x1000x96x1 : Shape := ⟨4, ![32, 1000, 96, 1]⟩
abbrev S32x1000x96x2 : Shape := ⟨4, ![32, 1000, 96, 2]⟩
abbrev S1 : Shape := ⟨1, ![1]⟩
abbrev S2 : Shape := ⟨1, ![2]⟩

abbrev nBuf : Space → Nat
  | .hbm => 28
  | .vmem => 14
  | .smem => 0
  | _ => 0

abbrev bufTy : (tb : Table) → Fin (tcTables nBuf tb) → BufTy
  | .hbm, ⟨0, _⟩ => ⟨S32x1x1000x481x2, .f32⟩
  | .hbm, ⟨1, _⟩ => ⟨S32x1000x5x96x2, .f32⟩
  | .hbm, ⟨2, _⟩ => ⟨S32x1000x1, .f32⟩
  | .hbm, ⟨3, _⟩ => ⟨S32x1x1000x96x1, .f32⟩
  | .hbm, ⟨4, _⟩ => ⟨S32x1000x96, .f32⟩
  | .hbm, ⟨5, _⟩ => ⟨S32x1x1000x96x1, .f32⟩
  | .hbm, ⟨6, _⟩ => ⟨S32x1000x96, .f32⟩
  | .hbm, ⟨7, _⟩ => ⟨S_, .i32⟩
  | .hbm, ⟨8, _⟩ => ⟨S_, .f32⟩
  | .hbm, ⟨9, _⟩ => ⟨S32x1004x96, .f32⟩
  | .hbm, ⟨10, _⟩ => ⟨S_, .i32⟩
  | .hbm, ⟨11, _⟩ => ⟨S_, .f32⟩
  | .hbm, ⟨12, _⟩ => ⟨S32x1004x96, .f32⟩
  | .hbm, ⟨13, _⟩ => ⟨S32x1000x5x96x1, .f32⟩
  | .hbm, ⟨14, _⟩ => ⟨S32x1000x5x96, .f32⟩
  | .hbm, ⟨15, _⟩ => ⟨S32x1000x5x96x1, .f32⟩
  | .hbm, ⟨16, _⟩ => ⟨S32x1000x5x96, .f32⟩
  | .hbm, ⟨17, _⟩ => ⟨S32x1000x96, .f32⟩
  | .hbm, ⟨18, _⟩ => ⟨S32x1000x96, .f32⟩
  | .hbm, ⟨19, _⟩ => ⟨S32x1000x96x1, .f32⟩
  | .hbm, ⟨20, _⟩ => ⟨S32x1000x96x1, .f32⟩
  | .hbm, ⟨21, _⟩ => ⟨S32x1000x96x2, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S32x1x1000x481x2, .f32⟩
  | .local _ .vmem, ⟨0, _⟩ => ⟨S1x1004x96, .f32⟩
  | .local _ .vmem, ⟨1, _⟩ => ⟨S1x1004x96, .f32⟩
  | .local _ .vmem, ⟨2, _⟩ => ⟨S1x1004x96, .f32⟩
  | .local _ .vmem, ⟨3, _⟩ => ⟨S1x1004x96, .f32⟩
  | .local _ .vmem, ⟨4, _⟩ => ⟨S1x1000x5x96, .f32⟩
  | .local _ .vmem, ⟨5, _⟩ => ⟨S1x1000x5x96, .f32⟩
  | .local _ .vmem, ⟨6, _⟩ => ⟨S1x1000x5x96, .f32⟩
  | .local _ .vmem, ⟨7, _⟩ => ⟨S1x1000x5x96, .f32⟩
  | .local _ .vmem, ⟨8, _⟩ => ⟨S1x1000x1, .f32⟩
  | .local _ .vmem, ⟨9, _⟩ => ⟨S1x1000x1, .f32⟩
  | .local _ .vmem, ⟨10, _⟩ => ⟨S1x1000x96, .f32⟩
  | .local _ .vmem, ⟨11, _⟩ => ⟨S1x1000x96, .f32⟩
  | .local _ .vmem, ⟨12, _⟩ => ⟨S1x1000x96, .f32⟩
  | .local _ .vmem, ⟨13, _⟩ => ⟨S1x1000x96, .f32⟩
  | _, _ => ⟨S32x1x1000x481x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1004x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1004x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1000x5x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1000x5x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1000x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1000x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S32x1x1000x481x2_S32x1x1000x96x1_0_0_0_0_0 : S32x1x1000x481x2.Slices ![0, 0, 0, 0, 0] S32x1x1000x96x1
  shapeCasts_S32x1x1000x96x1_S32x1000x96 : S32x1x1000x96x1.ShapeCasts S32x1000x96
  slices_S32x1x1000x481x2_S32x1x1000x96x1_0_0_0_0_1 : S32x1x1000x481x2.Slices ![0, 0, 0, 0, 1] S32x1x1000x96x1
  pads_S32x1000x96_S32x1004x96_000_220_000 : S32x1000x96.Pads (![0, 2, 0] : Fin 3 → Nat) ![0, 2, 0] ![0, 0, 0] S32x1004x96
  h_S_ : 0 < S_.numel
  slices_S32x1000x5x96x2_S32x1000x5x96x1_0_0_0_0_0 : S32x1000x5x96x2.Slices ![0, 0, 0, 0, 0] S32x1000x5x96x1
  shapeCasts_S32x1000x5x96x1_S32x1000x5x96 : S32x1000x5x96x1.ShapeCasts S32x1000x5x96
  slices_S32x1000x5x96x2_S32x1000x5x96x1_0_0_0_0_1 : S32x1000x5x96x2.Slices ![0, 0, 0, 0, 1] S32x1000x5x96x1
  inb_S1x1000x1_S1x1000x1_0_0_0 : ∀ a, (![0, 0, 0] : Fin 3 → Nat) a + S1x1000x1.size a ≤ S1x1000x1.size a
  h_S1x1000x1 : 0 < S1x1000x1.numel
  shapeCasts_S1x1000x1_S1000x1 : S1x1000x1.ShapeCasts S1000x1
  shapeCasts_S1000x1_S1000x1 : S1000x1.ShapeCasts S1000x1
  broadcasts_S1000x1_S1000x96 : S1000x1.Broadcasts S1000x96
  inb_S1x1004x96_S1x1000x96_0_0_0 : ∀ a, (![0, 0, 0] : Fin 3 → Nat) a + S1x1000x96.size a ≤ S1x1004x96.size a
  h_S1x1000x96 : 0 < S1x1000x96.numel
  shapeCasts_S1x1000x96_S1000x96 : S1x1000x96.ShapeCasts S1000x96
  inb_S1x1000x5x96_S1x1000x1x96_0_0_0_0 : ∀ a, (![0, 0, 0, 0] : Fin 4 → Nat) a + S1x1000x1x96.size a ≤ S1x1000x5x96.size a
  h_S1x1000x1x96 : 0 < S1x1000x1x96.numel
  shapeCasts_S1x1000x1x96_S1000x96 : S1x1000x1x96.ShapeCasts S1000x96
  inb_S1x1004x96_S1x1000x96_0_1_0 : ∀ a, (![0, 1, 0] : Fin 3 → Nat) a + S1x1000x96.size a ≤ S1x1004x96.size a
  inb_S1x1000x5x96_S1x1000x1x96_0_0_1_0 : ∀ a, (![0, 0, 1, 0] : Fin 4 → Nat) a + S1x1000x1x96.size a ≤ S1x1000x5x96.size a
  inb_S1x1004x96_S1x1000x96_0_2_0 : ∀ a, (![0, 2, 0] : Fin 3 → Nat) a + S1x1000x96.size a ≤ S1x1004x96.size a
  inb_S1x1000x5x96_S1x1000x1x96_0_0_2_0 : ∀ a, (![0, 0, 2, 0] : Fin 4 → Nat) a + S1x1000x1x96.size a ≤ S1x1000x5x96.size a
  inb_S1x1004x96_S1x1000x96_0_3_0 : ∀ a, (![0, 3, 0] : Fin 3 → Nat) a + S1x1000x96.size a ≤ S1x1004x96.size a
  inb_S1x1000x5x96_S1x1000x1x96_0_0_3_0 : ∀ a, (![0, 0, 3, 0] : Fin 4 → Nat) a + S1x1000x1x96.size a ≤ S1x1000x5x96.size a
  inb_S1x1004x96_S1x1000x96_0_4_0 : ∀ a, (![0, 4, 0] : Fin 3 → Nat) a + S1x1000x96.size a ≤ S1x1004x96.size a
  inb_S1x1000x5x96_S1x1000x1x96_0_0_4_0 : ∀ a, (![0, 0, 4, 0] : Fin 4 → Nat) a + S1x1000x1x96.size a ≤ S1x1000x5x96.size a
  inb_S1x1000x96_S1x1000x96_0_0_0 : ∀ a, (![0, 0, 0] : Fin 3 → Nat) a + S1x1000x96.size a ≤ S1x1000x96.size a
  shapeCasts_S1000x96_S1x1000x96 : S1000x96.ShapeCasts S1x1000x96
  bcast_S32x1000x96_S32x1000x96x1_0_1_2 : S32x1000x96.BroadcastsInDim S32x1000x96x1 (![0, 1, 2] : Fin 3 → Fin S32x1000x96x1.rank)
  concatenates_S32x1000x96x1_S32x1000x96x1_S32x1000x96x2_d3 : Shape.Concatenates [S32x1000x96x1, S32x1000x96x1] S32x1000x96x2 3
  bcast_S_S1 : S_.BroadcastsInDim S1 (![] : Fin 0 → Fin S1.rank)
  concatenates_S1_S1_S2_d0 : Shape.Concatenates [S1, S1] S2 0
  scatter_S32x1x1000x481x2_S2_S32x1000x96x2_0123_1_13_0_wf : ScatterDims.WF S32x1x1000x481x2 S2 S32x1000x96x2 [0, 1, 2, 3] [1] [1, 3] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1004x96.size a ≤ S32x1004x96.size a
  hwx0_0 : ∀ i : grid0.Coords, EltTy.bits .f32 = 32 ∨ (Rect.block (s := S32x1004x96) S1x1004x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1004x96.size a ≤ S32x1004x96.size a
  hwx0_1 : ∀ i : grid0.Coords, EltTy.bits .f32 = 32 ∨ (Rect.block (s := S32x1004x96) S1x1004x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1000x5x96.size a ≤ S32x1000x5x96.size a
  hwx0_2 : ∀ i : grid0.Coords, EltTy.bits .f32 = 32 ∨ (Rect.block (s := S32x1000x5x96) S1x1000x5x96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1000x5x96.size a ≤ S32x1000x5x96.size a
  hwx0_3 : ∀ i : grid0.Coords, EltTy.bits .f32 = 32 ∨ (Rect.block (s := S32x1000x5x96) S1x1000x5x96.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1000x1.size a ≤ S32x1000x1.size a
  hwx0_4 : ∀ i : grid0.Coords, EltTy.bits .f32 = 32 ∨ (Rect.block (s := S32x1000x1) S1x1000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1000x96.size a ≤ S32x1000x96.size a
  hwx0_5 : ∀ i : grid0.Coords, EltTy.bits .f32 = 32 ∨ (Rect.block (s := S32x1000x96) S1x1000x96.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1000x96.size a ≤ S32x1000x96.size a
  hwx0_6 : ∀ i : grid0.Coords, EltTy.bits .f32 = 32 ∨ (Rect.block (s := S32x1000x96) S1x1000x96.size (cc0_transform_6 i) (hinb0_6 i)).WholeWords (EltTy.packing .f32)

variable [Facts₀]

def scatter_S32x1x1000x481x2_S2_S32x1000x96x2_0123_1_13_0 : ScatterDims S32x1x1000x481x2 S2 S32x1000x96x2 where
  updateWindowDims := [0, 1, 2, 3]
  insertedWindowDims := [1]
  scatterDimsToOperandDims := [1, 3]
  indexVectorDim := 0
  wf := scatter_S32x1x1000x481x2_S2_S32x1000x96x2_0123_1_13_0_wf

abbrev win0_0 : Pipeline.Window sig grid0 :=
  Pipeline.Window.ofSpec (Memref.whole main_v4) S1x1004x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x1004x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1000x5x96.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1000x5x96.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x1000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_0) S1x1000x96.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_1) S1x1000x96.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x1x1000x481x2 : Shape := ⟨5, ![32, 1, 1000, 481, 2]⟩
abbrev S32x1000x5x96x2 : Shape := ⟨5, ![32, 1000, 5, 96, 2]⟩
abbrev S32x1000x1 : Shape := ⟨3, ![32, 1000, 1]⟩
abbrev S32x1x1000x96x2 : Shape := ⟨5, ![32, 1, 1000, 96, 2]⟩
abbrev S32x1000x96x2 : Shape := ⟨4, ![32, 1000, 96, 2]⟩
abbrev S_ : Shape := ⟨0, ![]⟩
abbrev S32x1004x96x2 : Shape := ⟨4, ![32, 1004, 96, 2]⟩
abbrev S32x5x1000x96x2 : Shape := ⟨5, ![32, 5, 1000, 96, 2]⟩
abbrev S32x5x1000x96x1 : Shape := ⟨5, ![32, 5, 1000, 96, 1]⟩
abbrev S32x5x1000x96 : Shape := ⟨4, ![32, 5, 1000, 96]⟩
abbrev S32x1000x96 : Shape := ⟨3, ![32, 1000, 96]⟩
abbrev S32x1000x96x1 : Shape := ⟨4, ![32, 1000, 96, 1]⟩
abbrev S32x1x1000x1x1 : Shape := ⟨5, ![32, 1, 1000, 1, 1]⟩
abbrev S1 : Shape := ⟨1, ![1]⟩

abbrev nBuf : Space → Nat
  | .hbm => 83
  | .vmem => 0
  | .smem => 0
  | _ => 0

abbrev bufTy : (tb : Table) → Fin (tcTables nBuf tb) → BufTy
  | .hbm, ⟨0, _⟩ => ⟨S32x1x1000x481x2, .f32⟩
  | .hbm, ⟨1, _⟩ => ⟨S32x1000x5x96x2, .f32⟩
  | .hbm, ⟨2, _⟩ => ⟨S32x1000x1, .f32⟩
  | .hbm, ⟨3, _⟩ => ⟨S32x1x1000x96x2, .f32⟩
  | .hbm, ⟨4, _⟩ => ⟨S32x1000x96x2, .f32⟩
  | .hbm, ⟨5, _⟩ => ⟨S_, .i32⟩
  | .hbm, ⟨6, _⟩ => ⟨S_, .f32⟩
  | .hbm, ⟨7, _⟩ => ⟨S32x1004x96x2, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S32x1000x96x2, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S32x1000x96x2, .f32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S32x1000x96x2, .f32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S32x1000x96x2, .f32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S32x1000x96x2, .f32⟩
  | .hbm, ⟨33, _⟩ => ⟨S32x1x1000x96x2, .f32⟩
  | .hbm, ⟨34, _⟩ => ⟨S32x1x1000x96x2, .f32⟩
  | .hbm, ⟨35, _⟩ => ⟨S32x1x1000x96x2, .f32⟩
  | .hbm, ⟨36, _⟩ => ⟨S32x1x1000x96x2, .f32⟩
  | .hbm, ⟨37, _⟩ => ⟨S32x1x1000x96x2, .f32⟩
  | .hbm, ⟨38, _⟩ => ⟨S32x5x1000x96x2, .f32⟩
  | .hbm, ⟨39, _⟩ => ⟨S32x5x1000x96x2, .f32⟩
  | .hbm, ⟨40, _⟩ => ⟨S32x5x1000x96x1, .f32⟩
  | .hbm, ⟨41, _⟩ => ⟨S32x5x1000x96, .f32⟩
  | .hbm, ⟨42, _⟩ => ⟨S32x5x1000x96x1, .f32⟩
  | .hbm, ⟨43, _⟩ => ⟨S32x5x1000x96, .f32⟩
  | .hbm, ⟨44, _⟩ => ⟨S32x5x1000x96, .f32⟩
  | .hbm, ⟨45, _⟩ => ⟨S32x5x1000x96x1, .f32⟩
  | .hbm, ⟨46, _⟩ => ⟨S32x5x1000x96, .f32⟩
  | .hbm, ⟨47, _⟩ => ⟨S32x5x1000x96x1, .f32⟩
  | .hbm, ⟨48, _⟩ => ⟨S32x5x1000x96, .f32⟩
  | .hbm, ⟨49, _⟩ => ⟨S32x5x1000x96, .f32⟩
  | .hbm, ⟨50, _⟩ => ⟨S32x5x1000x96, .f32⟩
  | .hbm, ⟨51, _⟩ => ⟨S_, .f32⟩
  | .hbm, ⟨52, _⟩ => ⟨S32x1000x96, .f32⟩
  | .hbm, ⟨53, _⟩ => ⟨S32x5x1000x96x1, .f32⟩
  | .hbm, ⟨54, _⟩ => ⟨S32x5x1000x96, .f32⟩
  | .hbm, ⟨55, _⟩ => ⟨S32x5x1000x96x1, .f32⟩
  | .hbm, ⟨56, _⟩ => ⟨S32x5x1000x96, .f32⟩
  | .hbm, ⟨57, _⟩ => ⟨S32x5x1000x96, .f32⟩
  | .hbm, ⟨58, _⟩ => ⟨S32x5x1000x96x1, .f32⟩
  | .hbm, ⟨59, _⟩ => ⟨S32x5x1000x96, .f32⟩
  | .hbm, ⟨60, _⟩ => ⟨S32x5x1000x96x1, .f32⟩
  | .hbm, ⟨61, _⟩ => ⟨S32x5x1000x96, .f32⟩
  | .hbm, ⟨62, _⟩ => ⟨S32x5x1000x96, .f32⟩
  | .hbm, ⟨63, _⟩ => ⟨S32x5x1000x96, .f32⟩
  | .hbm, ⟨64, _⟩ => ⟨S_, .f32⟩
  | .hbm, ⟨65, _⟩ => ⟨S32x1000x96, .f32⟩
  | .hbm, ⟨66, _⟩ => ⟨S32x1000x96x1, .f32⟩
  | .hbm, ⟨67, _⟩ => ⟨S32x1000x96x1, .f32⟩
  | .hbm, ⟨68, _⟩ => ⟨S32x1000x96x2, .f32⟩
  | .hbm, ⟨69, _⟩ => ⟨S32x1x1000x96x2, .f32⟩
  | .hbm, ⟨70, _⟩ => ⟨S32x1x1000x1x1, .f32⟩
  | .hbm, ⟨71, _⟩ => ⟨S32x1x1000x96x2, .f32⟩
  | .hbm, ⟨72, _⟩ => ⟨S32x1x1000x96x2, .f32⟩
  | .hbm, ⟨73, _⟩ => ⟨S32x1x1000x96x2, .f32⟩
  | .hbm, ⟨74, _⟩ => ⟨S_, .f32⟩
  | .hbm, ⟨75, _⟩ => ⟨S32x1x1000x1x1, .f32⟩
  | .hbm, ⟨76, _⟩ => ⟨S32x1x1000x1x1, .f32⟩
  | .hbm, ⟨77, _⟩ => ⟨S32x1x1000x96x2, .f32⟩
  | .hbm, ⟨78, _⟩ => ⟨S32x1x1000x96x2, .f32⟩
  | .hbm, ⟨79, _⟩ => ⟨S32x1x1000x96x2, .f32⟩
  | .hbm, ⟨80, _⟩ => ⟨S_, .i32⟩
  | .hbm, ⟨81, _⟩ => ⟨S1, .i32⟩
  | .hbm, ⟨82, _⟩ => ⟨S32x1x1000x481x2, .f32⟩
  | _, _ => ⟨S32x1x1000x481x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_c_3 : Ref sig .tc := ⟨.hbm, 11, rfl⟩
abbrev main_v3 : Ref sig .tc := ⟨.hbm, 12, rfl⟩
abbrev main_c_4 : Ref sig .tc := ⟨.hbm, 13, rfl⟩
abbrev main_c_5 : Ref sig .tc := ⟨.hbm, 14, rfl⟩
abbrev main_c_6 : Ref sig .tc := ⟨.hbm, 15, rfl⟩
abbrev main_c_7 : Ref sig .tc := ⟨.hbm, 16, rfl⟩
abbrev main_v4 : Ref sig .tc := ⟨.hbm, 17, rfl⟩
abbrev main_c_8 : Ref sig .tc := ⟨.hbm, 18, rfl⟩
abbrev main_c_9 : Ref sig .tc := ⟨.hbm, 19, rfl⟩
abbrev main_c_10 : Ref sig .tc := ⟨.hbm, 20, rfl⟩
abbrev main_c_11 : Ref sig .tc := ⟨.hbm, 21, rfl⟩
abbrev main_v5 : Ref sig .tc := ⟨.hbm, 22, rfl⟩
abbrev main_c_12 : Ref sig .tc := ⟨.hbm, 23, rfl⟩
abbrev main_c_13 : Ref sig .tc := ⟨.hbm, 24, rfl⟩
abbrev main_c_14 : Ref sig .tc := ⟨.hbm, 25, rfl⟩
abbrev main_c_15 : Ref sig .tc := ⟨.hbm, 26, rfl⟩
abbrev main_v6 : Ref sig .tc := ⟨.hbm, 27, rfl⟩
abbrev main_c_16 : Ref sig .tc := ⟨.hbm, 28, rfl⟩
abbrev main_c_17 : Ref sig .tc := ⟨.hbm, 29, rfl⟩
abbrev main_c_18 : Ref sig .tc := ⟨.hbm, 30, rfl⟩
abbrev main_c_19 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_20 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_21 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_22 : Ref sig .tc := ⟨.hbm, 80, rfl⟩
abbrev main_v52 : Ref sig .tc := ⟨.hbm, 81, rfl⟩
abbrev main_v53 : Ref sig .tc := ⟨.hbm, 82, rfl⟩

abbrev nD : Nat := 1
abbrev τ : Topo := Topo.v7x

variable {F : FTy → Type} [FloatOps F]

class Facts₀ : Prop where
  slices_S32x1x1000x481x2_S32x1x1000x96x2_0_0_0_0_0 : S32x1x1000x481x2.Slices ![0, 0, 0, 0, 0] S32x1x1000x96x2
  shapeCasts_S32x1x1000x96x2_S32x1000x96x2 : S32x1x1000x96x2.ShapeCasts S32x1000x96x2
  pads_S32x1000x96x2_S32x1004x96x2_000_220_000_000 : S32x1000x96x2.Pads (![0, 2, 0, 0] : Fin 4 → Nat) ![0, 2, 0, 0] ![0, 0, 0, 0] S32x1004x96x2
  h_S_ : 0 < S_.numel
  sliceFits_S32x1004x96x2_S32x1000x96x2 : S32x1004x96x2.Slices (fun _ => 0) S32x1000x96x2
  bcast_S32x1000x96x2_S32x1x1000x96x2_0_2_3_4 : S32x1000x96x2.BroadcastsInDim S32x1x1000x96x2 (![0, 2, 3, 4] : Fin 4 → Fin S32x1x1000x96x2.rank)
  concatenates_S32x1x1000x96x2_S32x1x1000x96x2_S32x1x1000x96x2_S32x1x1000x96x2_S32x1x1000x96x2_S32x5x1000x96x2_d1 : Shape.Concatenates [S32x1x1000x96x2, S32x1x1000x96x2, S32x1x1000x96x2, S32x1x1000x96x2, S32x1x1000x96x2] S32x5x1000x96x2 1
  transposes_S32x1000x5x96x2_S32x5x1000x96x2_0_2_1_3_4 : S32x1000x5x96x2.Transposes [0, 2, 1, 3, 4] S32x5x1000x96x2
  slices_S32x5x1000x96x2_S32x5x1000x96x1_0_0_0_0_0 : S32x5x1000x96x2.Slices ![0, 0, 0, 0, 0] S32x5x1000x96x1
  shapeCasts_S32x5x1000x96x1_S32x5x1000x96 : S32x5x1000x96x1.ShapeCasts S32x5x1000x96
  slices_S32x5x1000x96x2_S32x5x1000x96x1_0_0_0_0_1 : S32x5x1000x96x2.Slices ![0, 0, 0, 0, 1] S32x5x1000x96x1
  reducesTo_S32x5x1000x96_S32x1000x96_d1 : S32x5x1000x96.ReducesTo [1] S32x1000x96
  bcast_S32x1000x96_S32x1000x96x1_0_1_2 : S32x1000x96.BroadcastsInDim S32x1000x96x1 (![0, 1, 2] : Fin 3 → Fin S32x1000x96x1.rank)
  concatenates_S32x1000x96x1_S32x1000x96x1_S32x1000x96x2_d3 : Shape.Concatenates [S32x1000x96x1, S32x1000x96x1] S32x1000x96x2 3
  shapeCasts_S32x1000x1_S32x1x1000x1x1 : S32x1000x1.ShapeCasts S32x1x1000x1x1
  bcast_S32x1x1000x1x1_S32x1x1000x96x2_0_1_2_3_4 : S32x1x1000x1x1.BroadcastsInDim S32x1x1000x96x2 (![0, 1, 2, 3, 4] : Fin 5 → Fin S32x1x1000x96x2.rank)
  bcast_S_S32x1x1000x1x1 : S_.BroadcastsInDim S32x1x1000x1x1 (![] : Fin 0 → Fin S32x1x1000x1x1.rank)
  bcast_S_S1 : S_.BroadcastsInDim S1 (![] : Fin 0 → Fin S1.rank)
  scatter_S32x1x1000x481x2_S1_S32x1x1000x96x2_01234_n_3_0_wf : ScatterDims.WF S32x1x1000x481x2 S1 S32x1x1000x96x2 [0, 1, 2, 3, 4] [] [3] 0

variable [Facts₀]

def scatter_S32x1x1000x481x2_S1_S32x1x1000x96x2_01234_n_3_0 : ScatterDims S32x1x1000x481x2 S1 S32x1x1000x96x2 where
  updateWindowDims := [0, 1, 2, 3, 4]
  insertedWindowDims := []
  scatterDimsToOperandDims := [3]
  indexVectorDim := 0
  wf := scatter_S32x1x1000x481x2_S1_S32x1x1000x96x2_01234_n_3_0_wf

class Facts : Prop extends Facts₀ where

variable [Facts]
-- ==== Proof.Spec.lean ====
/-
  The deep-filter step as one function of the three argument arrays, on the extended reals.

  A spectrogram `spec[b, 0, t, f, c]` (`c = 0` the real part, `c = 1` the imaginary part) is filtered along time on
  its first 96 frequency bins by a 5-tap complex filter `coefs[b, t, k, f, c]` whose taps look two frames back and two
  frames ahead: with `frame s` the spectrogram's frame `s - 2` (the padding value where `s - 2` is not a frame),
      re[b, t, f] = z + Σ_k (frame(t + k)_re · coef_re − frame(t + k)_im · coef_im)
      im[b, t, f] = z + Σ_k (frame(t + k)_im · coef_re + frame(t + k)_re · coef_im)
  and the result is blended with the unfiltered bin by the gain `alpha[b, t, 0]`:
      out = filtered · alpha + spec · (one − alpha)
  on the first 96 bins, and the spectrogram itself on the others. The literals `z`, `one` and the padding value are kept
  as the words the programs spell, the same on both sides, so none is ever evaluated; only `z` being zero is used, to
  start a sum.
-/
import Idealize.ShloMosaic.PureOps.Ideal
import Idealize.ShloMosaic.Lib.ValueIdx
import Mathlib.Algebra.BigOperators.Fin

noncomputable section

namespace Cert.DeepFilter

open Idealize.ShloMosaic Idealize.ShloMosaic.ValueIdx

abbrev SSpec : Shape := ⟨5, ![32, 1, 1000, 481, 2]⟩
abbrev SCoef : Shape := ⟨5, ![32, 1000, 5, 96, 2]⟩
abbrev SGain : Shape := ⟨3, ![32, 1000, 1]⟩
abbrev SPlane : Shape := ⟨3, ![32, 1000, 96]⟩

/-- The word the sums start from: zero. -/
abbrev zeroW : EReal := Ideal.ofBits .f32 0x00000000#32
/-- The word the gain is taken from: one. -/
abbrev oneW : EReal := Ideal.ofBits .f32 0x3F800000#32
/-- The value the time axis is padded with: the integer zero converted. -/
abbrev padW : EReal := FloatOps.sitofp (F := Ideal) .f32 (0#32 : BitVec 32)

/-- A filtered bin as a bin of the whole spectrogram. -/
abbrev bin (f : Fin 96) : Fin 481 := f.castLE (by decide)

variable (spec : SSpec.Idx → EReal) (coefs : SCoef.Idx → EReal) (gain : SGain.Idx → EReal)

/-- Position `s` of the time axis padded by two frames on either side: frame `s - 2`, the padding value outside. -/
def frameAt (b : Fin 32) (s : Nat) (f : Fin 96) (c : Fin 2) : EReal :=
  if h : 2 ≤ s ∧ s - 2 < 1000 then spec (ix5 b 0 ⟨s - 2, h.2⟩ (bin f) c) else padW

/-- Tap `k` of the real part: the real part of a complex product. -/
def tapRe (b : Fin 32) (t : Fin 1000) (f : Fin 96) (k : Fin 5) : EReal :=
  frameAt spec b (t.val + k.val) f 0 * coefs (ix5 b t k f 0) - frameAt spec b (t.val + k.val) f 1 * coefs (ix5 b t k f 1)

/-- Tap `k` of the imaginary part. -/
def tapIm (b : Fin 32) (t : Fin 1000) (f : Fin 96) (k : Fin 5) : EReal :=
  frameAt spec b (t.val + k.val) f 1 * coefs (ix5 b t k f 0) + frameAt spec b (t.val + k.val) f 0 * coefs (ix5 b t k f 1)

/-- The blend of a filtered value `y` with the unfiltered `x` by the gain `a`. -/
def blend (y x a : EReal) : EReal := y * a + x * (oneW - a)

/-- The blended real parts of the first 96 bins. -/
def planeRe : SPlane.Idx → EReal := fun j =>
  blend (zeroW + ∑ k : Fin 5, tapRe spec coefs (j 0) (j 1) (j 2) k) (spec (ix5 (j 0) 0 (j 1) (bin (j 2)) 0)) (gain (ix3 (j 0) (j 1) 0))

/-- The blended imaginary parts of the first 96 bins. -/
def planeIm : SPlane.Idx → EReal := fun j =>
  blend (zeroW + ∑ k : Fin 5, tapIm spec coefs (j 0) (j 1) (j 2) k) (spec (ix5 (j 0) 0 (j 1) (bin (j 2)) 1)) (gain (ix3 (j 0) (j 1) 0))

/-- The result: the blended planes on the first 96 bins, the spectrogram elsewhere. -/
def G : SSpec.Idx → EReal := fun i =>
  if h : (i 3).val < 96 then
    (if (i 4).val = 0 then planeRe spec coefs gain (ix3 (i 0) (i 2) ⟨(i 3).val, h⟩)
     else planeIm spec coefs gain (ix3 (i 0) (i 2) ⟨(i 3).val, h⟩))
  else spec i

/-- Five terms added one after the other onto a start value are the start value plus their sum: addition on the
    extended reals is associative (no finiteness is needed). -/
theorem fold5 (z : EReal) (a : Fin 5 → EReal) :
    z + a 0 + a 1 + a 2 + a 3 + a 4 = z + ∑ k : Fin 5, a k := by
  rw [Fin.sum_univ_five]
  simp only [add_assoc]

end Cert.DeepFilter

end
-- ==== Proof.KerBody.lean ====
/-
  What the kernel body leaves in its two output blocks, read at an index, over arbitrary input blocks.

  At a grid point the body holds one batch entry: the two padded planes `x0`, `x1` (real and imaginary parts, 1004 padded
  frames by 96 bins), the two coefficient blocks `x2`, `x3` (1000 frames, 5 taps, 96 bins) and the gain `x4` (1000 frames).
  It loads the five windows of 1000 consecutive frames starting at padded frames 0 … 4, multiplies each by its tap of
  the coefficients as complex numbers, adds the five products one after the other onto zero, and blends the sum with the
  window starting at padded frame 2 (the unshifted frames) by the gain. Every operation is pointwise once the loads and
  the changes of shape are read at an index, so the block at frame `t`, bin `f` is a term in ten numbers per tap.
-/
import proofs.«117574_j30185030156317_2_alg».proof.Proof.Gen.KernelIdeal.Frame
import Idealize.ShloMosaic.Lib.ValueIdx
import Idealize.ShloMosaic.Lib.ValueLayout
import Idealize.ShloMosaic.Lib.Pipeline.Value

noncomputable section

namespace Cert.KernelIdeal.KerValue

open Cert.KernelIdeal Cert.KernelIdeal.Gen Idealize.ShloMosaic Idealize.ShloMosaic.ValueIdx Idealize.ShloMosaic.TcCoe

theorem hz3 : (![0, 0, 0] : Fin 3 → Nat) = fun _ => 0 := funext fun a => by fin_cases a <;> rfl

/-! ## Loads and changes of shape at an index -/

/-- A window of 1000 frames that fits in the 1004 padded frames starts at most at frame 4. -/
theorem frame_lt {k : Nat} (inb : ∀ a, (![0, k, 0] : Fin 3 → Nat) a + (![1, 1000, 96] : Fin 3 → Nat) a ≤ S1x1004x96.size a) (t : Fin 1000) :
    t.val + k < 1004 := by
  have h : k + 1000 ≤ 1004 := inb 1
  omega

/-- A tap's position among the five. -/
theorem tap_lt {k : Nat} (inb : ∀ a, (![0, 0, k, 0] : Fin 4 → Nat) a + (![1, 1000, 1, 96] : Fin 4 → Nat) a ≤ S1x1000x5x96.size a) : k < 5 := by
  have h : k + 1 ≤ 5 := inb 2
  omega

/-- A window of 1000 consecutive padded frames starting at frame `k`, at frame `t`: padded frame `t + k`. -/
theorem ld_frames (x : Vec Ideal S1x1004x96 .f32) (k : Nat)
    (inb : ∀ a, (![0, k, 0] : Fin 3 → Nat) a + (![1, 1000, 96] : Fin 3 → Nat) a ≤ S1x1004x96.size a)
    (u : Fin 1) (t : Fin 1000) (f : Fin 96) :
    View.ld x (Rect.unit (s := S1x1004x96) ![0, k, 0] ![1, 1000, 96] inb) (ix3 u t f) = x (ix3 0 ⟨t.val + k, frame_lt inb t⟩ f) := by
  show x ((Rect.unit (s := S1x1004x96) ![0, k, 0] ![1, 1000, 96] inb).idx (ix3 u t f)) = _
  refine congrArg x (funext fun a => Fin.ext ?_)
  have hu : u.val = 0 := by omega
  match a with
  | ⟨0, _⟩ => show 0 + 1 * u.val = 0; omega
  | ⟨1, _⟩ => show k + 1 * t.val = t.val + k; omega
  | ⟨2, _⟩ => show 0 + 1 * f.val = f.val; omega

/-- Tap `k` of a coefficient block, at frame `t`, bin `f`. -/
theorem ld_taps (x : Vec Ideal S1x1000x5x96 .f32) (k : Nat)
    (inb : ∀ a, (![0, 0, k, 0] : Fin 4 → Nat) a + (![1, 1000, 1, 96] : Fin 4 → Nat) a ≤ S1x1000x5x96.size a)
    (u : Fin 1) (t : Fin 1000) (z : Fin 1) (f : Fin 96) :
    View.ld x (Rect.unit (s := S1x1000x5x96) ![0, 0, k, 0] ![1, 1000, 1, 96] inb) (ix4 u t z f) = x (ix4 0 t ⟨k, tap_lt inb⟩ f) := by
  show x ((Rect.unit (s := S1x1000x5x96) ![0, 0, k, 0] ![1, 1000, 1, 96] inb).idx (ix4 u t z f)) = _
  refine congrArg x (funext fun a => Fin.ext ?_)
  have hu : u.val = 0 := by omega
  have hz : z.val = 0 := by omega
  match a with
  | ⟨0, _⟩ => show 0 + 1 * u.val = 0; omega
  | ⟨1, _⟩ => show 0 + 1 * t.val = t.val; omega
  | ⟨2, _⟩ => show k + 1 * z.val = k; omega
  | ⟨3, _⟩ => show 0 + 1 * f.val = f.val; omega

/-- A tap `[1, 1000, 1, 96]` recast as a plane `[1000, 96]`. -/
theorem cast_tap (v : S1x1000x1x96.Idx → EReal) (h : S1x1000x1x96.ShapeCasts S1000x96) (t : Fin 1000) (f : Fin 96) :
    shapeCast S1000x96 v h (ix2 t f) = v (ix4 0 t 0 f) :=
  shapeCast_apply v h _ _ (by
    rw [Shape.rowMajor_val_four, Shape.rowMajor_val_two]
    show ((0 * 1000 + t.val) * 1 + 0) * 96 + f.val = t.val * 96 + f.val
    omega)

/-- The gain `[1, 1000, 1]` recast as a column and spread over the 96 bins. -/
theorem spread_gain (v : S1x1000x1.Idx → EReal) (h1 : S1x1000x1.ShapeCasts S1000x1) (h2 : S1000x1.ShapeCasts S1000x1)
    (hb : S1000x1.Broadcasts S1000x96) (t : Fin 1000) (f : Fin 96) :
    broadcastTo S1000x96 (shapeCast S1000x1 (shapeCast S1000x1 v h1) h2) hb (ix2 t f) = v (ix3 0 t 0) := by
  rw [shapeCast_self]
  refine (broadcastTo_apply _ hb (ix2 t f) (ix2 t 0) (fun a => ?_)).trans (shapeCast_1ab_ab_apply v h1 t 0)
  match a with
  | ⟨0, _⟩ => show t.val = if (1000 : Nat) = 1 then 0 else t.val; rw [if_neg (by decide)]
  | ⟨1, _⟩ => show (0 : Nat) = if (1 : Nat) = 1 then 0 else f.val; rw [if_pos rfl]

/-! ## The two output blocks at an index -/

section Payload
variable (x0 x1 : Vec Ideal S1x1004x96 .f32) (x2 x3 : Vec Ideal S1x1000x5x96 .f32) (x4 : Vec Ideal S1x1000x1 .f32)

/-- Padded frame `t + k` of a plane, bin `f`. -/
def fr (x : Vec Ideal S1x1004x96 .f32) (t : Fin 1000) (f : Fin 96) (k : Fin 5) : EReal :=
  x (ix3 0 ⟨t.val + k.val, by omega⟩ f)

/-- Tap `k` of a coefficient block at frame `t`, bin `f`. -/
def tp (x : Vec Ideal S1x1000x5x96 .f32) (t : Fin 1000) (f : Fin 96) (k : Fin 5) : EReal := x (ix4 0 t k f)

/-- Tap `k`'s real part. -/
def bRe (t : Fin 1000) (f : Fin 96) (k : Fin 5) : EReal := fr x0 t f k * tp x2 t f k - fr x1 t f k * tp x3 t f k

/-- Tap `k`'s imaginary part. -/
def bIm (t : Fin 1000) (f : Fin 96) (k : Fin 5) : EReal := fr x1 t f k * tp x2 t f k + fr x0 t f k * tp x3 t f k

/-- The real output block: the five real taps added one after the other onto zero, blended with the unshifted real
    frame by the gain. -/
theorem out_re (u : Fin 1) (t : Fin 1000) (f : Fin 96) :
    out0_5 x0 x1 x2 x3 x4 (ix3 u t f)
      = (Ideal.ofBits .f32 0x00000000#32 + bRe x0 x1 x2 x3 t f 0 + bRe x0 x1 x2 x3 t f 1 + bRe x0 x1 x2 x3 t f 2
            + bRe x0 x1 x2 x3 t f 3 + bRe x0 x1 x2 x3 t f 4) * x4 (ix3 0 t 0)
          + fr x0 t f 2 * (Ideal.ofBits .f32 0x3F800000#32 - x4 (ix3 0 t 0)) := by
  unfold out0_5
  rw [View.canon_unit_zero hz3]
  simp only [k0_pay29, k0_pay2, k0_pay3, k0_pay14, k0_pay18, k0_pay8, k0_pay10, k0_pay11, k0_pay20, k0_pay21, k0_pay4, k0_pay5,
    k0_pay6, k0_pay7, k0_pay12, k0_pay13, k0_pay15, k0_pay16, k0_pay17, k0_pay22, k0_pay23, k0_pay24, k0_pay25, k0_pay26, k0_pay27,
    shapeCast_ab_1ab_apply, mulf_apply, addf_apply, subf_apply, broadcast_apply, shapeCast_1ab_ab_apply, cast_tap, spread_gain,
    r0_0, r0_1, r0_2, r0_3, r0_4, r0_5, r0_6, r0_7, r0_8, r0_9, r0_10, View.ld_unit_zero (S := S1x1000x1) hz3]
  rw [ld_frames x0 0, ld_frames x1 0, ld_frames x0 1, ld_frames x1 1, ld_frames x0 2, ld_frames x1 2, ld_frames x0 3, ld_frames x1 3,
    ld_frames x0 4, ld_frames x1 4, ld_taps x2 0, ld_taps x3 0, ld_taps x2 1, ld_taps x3 1, ld_taps x2 2, ld_taps x3 2, ld_taps x2 3,
    ld_taps x3 3, ld_taps x2 4, ld_taps x3 4]
  rfl

/-- The imaginary output block. -/
theorem out_im (u : Fin 1) (t : Fin 1000) (f : Fin 96) :
    out0_6 x0 x1 x2 x3 x4 (ix3 u t f)
      = (Ideal.ofBits .f32 0x00000000#32 + bIm x0 x1 x2 x3 t f 0 + bIm x0 x1 x2 x3 t f 1 + bIm x0 x1 x2 x3 t f 2
            + bIm x0 x1 x2 x3 t f 3 + bIm x0 x1 x2 x3 t f 4) * x4 (ix3 0 t 0)
          + fr x1 t f 2 * (Ideal.ofBits .f32 0x3F800000#32 - x4 (ix3 0 t 0)) := by
  unfold out0_6
  rw [View.canon_unit_zero hz3]
  simp only [k0_pay1, k0_pay28, k0_pay2, k0_pay3, k0_pay14, k0_pay19, k0_pay9, k0_pay10, k0_pay11, k0_pay20, k0_pay21, k0_pay4, k0_pay5,
    k0_pay6, k0_pay7, k0_pay12, k0_pay13, k0_pay15, k0_pay16, k0_pay17, k0_pay22, k0_pay23, k0_pay24, k0_pay25, k0_pay26, k0_pay27,
    shapeCast_ab_1ab_apply, mulf_apply, addf_apply, subf_apply, broadcast_apply, shapeCast_1ab_ab_apply, cast_tap, spread_gain,
    r0_0, r0_1, r0_2, r0_3, r0_4, r0_5, r0_6, r0_7, r0_8, r0_9, r0_10, View.ld_unit_zero (S := S1x1000x1) hz3]
  rw [ld_frames x0 0, ld_frames x1 0, ld_frames x0 1, ld_frames x1 1, ld_frames x0 2, ld_frames x1 2, ld_frames x0 3, ld_frames x1 3,
    ld_frames x0 4, ld_frames x1 4, ld_taps x2 0, ld_taps x3 0, ld_taps x2 1, ld_taps x3 1, ld_taps x2 2, ld_taps x3 2, ld_taps x2 3,
    ld_taps x3 3, ld_taps x2 4, ld_taps x3 4]
  rfl

end Payload

end Cert.KernelIdeal.KerValue

end
-- ==== Proof.KerArrays.lean ====
/-
  The arrays the kernel's region is launched on, as functions of the arguments, read at an index.

  Before the region the host splits the spectrogram's first 96 bins into a real and an imaginary plane
  `[32, 1000, 96]` (a slice of one channel, the unit axes dropped), pads each plane's time axis with two frames of the
  padding value at either end, `[32, 1004, 96]`, and splits the coefficients into a real and an imaginary block
  `[32, 1000, 5, 96]`. Read at an index: padded frame `s` of a plane is the spectrogram's frame `s - 2` where that is a
  frame and the padding value elsewhere; a coefficient block is the coefficients at the same index with the channel
  put back.
-/
import proofs.«117574_j30185030156317_2_alg».proof.Proof.Gen.KernelIdeal.Frame
import Idealize.ShloMosaic.Lib.StableHlo.Run
import Idealize.ShloMosaic.Lib.KernelVsHost
import Idealize.ShloMosaic.Lib.Pipeline.Value
import Idealize.ShloMosaic.Lib.ValueIdx
import Idealize.ShloMosaic.PureOps.Ideal

noncomputable section

namespace Cert.KernelIdeal.KerValue

open Cert.KernelIdeal Cert.KernelIdeal.Gen Idealize.ShloMosaic Idealize.ShloMosaic.ValueIdx Idealize.ShloMosaic.TcCoe
open Idealize.SL.Sem Idealize.ShloMosaic.StableHlo

/-! ## The host's layout operations at an index, over any spectrogram and any coefficients -/

/-- One channel of the first 96 bins as a plane, its time axis padded by two frames at either end, read at padded
    frame `s`: frame `s - 2` of that channel where `s - 2` is a frame, the padding value elsewhere. -/
theorem padded_plane_apply (x : S32x1x1000x481x2.Idx → EReal) (ch : Nat) (hch : ch < 2)
    (hs : S32x1x1000x481x2.Slices ![0, 0, 0, 0, ch] S32x1x1000x96x1) (hc : S32x1x1000x96x1.ShapeCasts S32x1000x96)
    (pv : S_.Idx → EReal) (hp : S32x1000x96.Pads (![0, 2, 0] : Fin 3 → Nat) ![0, 2, 0] ![0, 0, 0] S32x1004x96) (hS : 0 < S_.numel)
    (b : Fin 32) (s : Fin 1004) (f : Fin 96) :
    pad S32x1004x96 ![0, 2, 0] ![0, 2, 0] ![0, 0, 0] (shapeCast S32x1000x96 (extractStridedSlice S32x1x1000x96x1 ![0, 0, 0, 0, ch] x hs) hc) pv hp hS
        (ix3 b s f)
      = if h : 2 ≤ s.val ∧ s.val - 2 < 1000 then x (ix5 b 0 ⟨s.val - 2, h.2⟩ (f.castLE (by decide)) ⟨ch, hch⟩)
        else pv (Shape.Idx.first hS) := by
  split
  · rename_i h
    refine (pad_apply_of_inside _ _ _ _ pv hp hS (ix3 b s f) (ix3 b ⟨s.val - 2, h.2⟩ f) (fun a => ?_)).trans ?_
    · match a with
      | ⟨0, _⟩ => show b.val = 0 + b.val * (0 + 1); omega
      | ⟨1, _⟩ => show s.val = 2 + (s.val - 2) * (0 + 1); omega
      | ⟨2, _⟩ => show f.val = 0 + f.val * (0 + 1); omega
    · refine (shapeCast_apply _ hc (ix3 b ⟨s.val - 2, h.2⟩ f) (ix5 b 0 ⟨s.val - 2, h.2⟩ f 0) ?_).trans ?_
      · rw [Shape.rowMajor_val_five, Shape.rowMajor_val_three]
        show (((b.val * 1 + 0) * 1000 + (s.val - 2)) * 96 + f.val) * 1 + 0 = (b.val * 1000 + (s.val - 2)) * 96 + f.val
        omega
      · refine extractStridedSlice_apply _ x hs _ _ (fun a => ?_)
        match a with
        | ⟨0, _⟩ => show b.val = 0 + b.val; omega
        | ⟨1, _⟩ => show (0 : Nat) = 0 + 0; rfl
        | ⟨2, _⟩ => show s.val - 2 = 0 + (s.val - 2); omega
        | ⟨3, _⟩ => show f.val = 0 + f.val; omega
        | ⟨4, _⟩ => show ch = ch + 0; rfl
  · rename_i h
    refine pad_apply_of_not_inside _ _ _ _ pv hp hS (ix3 b s f) ⟨1, by decide⟩ (fun hin => h ?_)
    have h1 : 2 ≤ s.val := hin.1
    have h2 : (s.val - 2) / (0 + 1) < 1000 := hin.2.2
    rw [Nat.zero_add, Nat.div_one] at h2
    exact ⟨h1, h2⟩

/-- One channel of the coefficients as a block `[32, 1000, 5, 96]`, read at an index. -/
theorem coef_block_apply (x : S32x1000x5x96x2.Idx → EReal) (ch : Nat) (hch : ch < 2)
    (hs : S32x1000x5x96x2.Slices ![0, 0, 0, 0, ch] S32x1000x5x96x1) (hc : S32x1000x5x96x1.ShapeCasts S32x1000x5x96)
    (b : Fin 32) (t : Fin 1000) (k : Fin 5) (f : Fin 96) :
    shapeCast S32x1000x5x96 (extractStridedSlice S32x1000x5x96x1 ![0, 0, 0, 0, ch] x hs) hc (ix4 b t k f)
      = x (ix5 b t k f ⟨ch, hch⟩) := by
  refine (shapeCast_apply _ hc (ix4 b t k f) (ix5 b t k f 0) ?_).trans ?_
  · rw [Shape.rowMajor_val_five, Shape.rowMajor_val_four]
    show (((b.val * 1000 + t.val) * 5 + k.val) * 96 + f.val) * 1 + 0 = ((b.val * 1000 + t.val) * 5 + k.val) * 96 + f.val
    omega
  · refine extractStridedSlice_apply _ x hs _ _ (fun a => ?_)
    match a with
    | ⟨0, _⟩ => show b.val = 0 + b.val; omega
    | ⟨1, _⟩ => show t.val = 0 + t.val; omega
    | ⟨2, _⟩ => show k.val = 0 + k.val; omega
    | ⟨3, _⟩ => show f.val = 0 + f.val; omega
    | ⟨4, _⟩ => show ch = ch + 0; rfl

/-! ## The staged arrays as the region finds them -/

variable (m : (ℓ : Loc nD τ sig) → Buf (Elt Ideal) ℓ) (c : Dev nD)

/-- The real plane, padded. -/
theorem V_plane_re : (V m c main_v4 : S32x1004x96.Idx → EReal)
    = pad S32x1004x96 ![0, 2, 0] ![0, 2, 0] ![0, 0, 0]
        (shapeCast S32x1000x96 (extractStridedSlice S32x1x1000x96x1 ![0, 0, 0, 0, 0] (m ((c : Thread nD τ).loc main_arg0))
          slices_S32x1x1000x481x2_S32x1x1000x96x1_0_0_0_0_0) shapeCasts_S32x1x1000x96x1_S32x1000x96)
        (sitofp (F := Ideal) .f32 (constantI S_ 32 0#32)) pads_S32x1000x96_S32x1004x96_000_220_000 h_S_ := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The imaginary plane, padded. -/
theorem V_plane_im : (V m c main_v5 : S32x1004x96.Idx → EReal)
    = pad S32x1004x96 ![0, 2, 0] ![0, 2, 0] ![0, 0, 0]
        (shapeCast S32x1000x96 (extractStridedSlice S32x1x1000x96x1 ![0, 0, 0, 0, 1] (m ((c : Thread nD τ).loc main_arg0))
          slices_S32x1x1000x481x2_S32x1x1000x96x1_0_0_0_0_1) shapeCasts_S32x1x1000x96x1_S32x1000x96)
        (sitofp (F := Ideal) .f32 (constantI S_ 32 0#32)) pads_S32x1000x96_S32x1004x96_000_220_000 h_S_ := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The real coefficients. -/
theorem V_coef_re : (V m c main_v7 : S32x1000x5x96.Idx → EReal)
    = shapeCast S32x1000x5x96 (extractStridedSlice S32x1000x5x96x1 ![0, 0, 0, 0, 0] (m ((c : Thread nD τ).loc main_arg1))
        slices_S32x1000x5x96x2_S32x1000x5x96x1_0_0_0_0_0) shapeCasts_S32x1000x5x96x1_S32x1000x5x96 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The imaginary coefficients. -/
theorem V_coef_im : (V m c main_v9 : S32x1000x5x96.Idx → EReal)
    = shapeCast S32x1000x5x96 (extractStridedSlice S32x1000x5x96x1 ![0, 0, 0, 0, 1] (m ((c : Thread nD τ).loc main_arg1))
        slices_S32x1000x5x96x2_S32x1000x5x96x1_0_0_0_0_1) shapeCasts_S32x1000x5x96x1_S32x1000x5x96 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

end Cert.KernelIdeal.KerValue

end
-- ==== Proof.KerBlocks.lean ====
/-
  Each grid point writes back one batch entry of the blended planes.

  Grid point `t` stages batch entry `t` of every array: its block of each padded plane is the whole `[1004, 96]` plane of
  entry `t`, of each coefficient block the whole `[1000, 5, 96]` block, of the gain the whole column, and it writes back
  the whole `[1000, 96]` plane of entry `t` of either result. So the body's two output blocks, read at frame `t'` and
  bin `f` over these input blocks, are the blended real and imaginary parts of the specification at `(t, t', f)`: the
  body's five taps added one after the other onto zero are zero plus their sum, and the window starting at padded frame 2
  is the unpadded plane.
-/
import proofs.«117574_j30185030156317_2_alg».proof.Proof.Spec
import proofs.«117574_j30185030156317_2_alg».proof.Proof.KerBody
import proofs.«117574_j30185030156317_2_alg».proof.Proof.KerArrays

noncomputable section

namespace Cert.KernelIdeal.KerValue

open Cert.KernelIdeal Cert.KernelIdeal.Gen Idealize.ShloMosaic Idealize.ShloMosaic.ValueIdx Idealize.ShloMosaic.TcCoe
open Idealize.SL.Sem Cert.DeepFilter

/-! ## The body's blocks against the specification, over arbitrary blocks that hold one batch entry -/

section Entry
variable (spec : SSpec.Idx → EReal) (coefs : SCoef.Idx → EReal) (gain : SGain.Idx → EReal)
variable (x0 x1 : Vec Ideal S1x1004x96 .f32) (x2 x3 : Vec Ideal S1x1000x5x96 .f32) (x4 : Vec Ideal S1x1000x1 .f32)
variable (b : Fin 32)
variable (h0 : ∀ (s : Fin 1004) (f : Fin 96), x0 (ix3 0 s f) = frameAt spec b s.val f 0)
variable (h1 : ∀ (s : Fin 1004) (f : Fin 96), x1 (ix3 0 s f) = frameAt spec b s.val f 1)
variable (h2 : ∀ (t : Fin 1000) (k : Fin 5) (f : Fin 96), x2 (ix4 0 t k f) = coefs (ix5 b t k f 0))
variable (h3 : ∀ (t : Fin 1000) (k : Fin 5) (f : Fin 96), x3 (ix4 0 t k f) = coefs (ix5 b t k f 1))
variable (h4 : ∀ t : Fin 1000, x4 (ix3 0 t 0) = gain (ix3 b t 0))

include h0 h1 h2 h3 in
theorem bRe_eq (t : Fin 1000) (f : Fin 96) (k : Fin 5) : bRe x0 x1 x2 x3 t f k = tapRe spec coefs b t f k := by
  unfold bRe tapRe fr tp
  rw [h0, h1, h2, h3]

include h0 h1 h2 h3 in
theorem bIm_eq (t : Fin 1000) (f : Fin 96) (k : Fin 5) : bIm x0 x1 x2 x3 t f k = tapIm spec coefs b t f k := by
  unfold bIm tapIm fr tp
  rw [h0, h1, h2, h3]

/-- Padded frame `t + 2` is frame `t`. -/
theorem frame_centre (t : Fin 1000) (f : Fin 96) (ch : Fin 2) :
    frameAt spec b (t.val + 2) f ch = spec (ix5 b 0 t (bin f) ch) := by
  have ht : t.val < 1000 := t.isLt
  have hcond : 2 ≤ t.val + 2 ∧ t.val + 2 - 2 < 1000 := ⟨by omega, by omega⟩
  unfold frameAt
  rw [dif_pos hcond]
  exact congrArg spec (funext fun a => by
    match a with
    | ⟨0, _⟩ => rfl
    | ⟨1, _⟩ => rfl
    | ⟨2, _⟩ => exact Fin.ext (by show t.val + 2 - 2 = t.val; omega)
    | ⟨3, _⟩ => rfl
    | ⟨4, _⟩ => rfl)

include h0 h1 h2 h3 h4 in
/-- The real output block is batch entry `b` of the blended real parts. -/
theorem block_re (u : Fin 1) (t : Fin 1000) (f : Fin 96) :
    out0_5 x0 x1 x2 x3 x4 (ix3 u t f) = planeRe spec coefs gain (ix3 b t f) := by
  rw [out_re, bRe_eq spec coefs x0 x1 x2 x3 b h0 h1 h2 h3, bRe_eq spec coefs x0 x1 x2 x3 b h0 h1 h2 h3,
    bRe_eq spec coefs x0 x1 x2 x3 b h0 h1 h2 h3, bRe_eq spec coefs x0 x1 x2 x3 b h0 h1 h2 h3,
    bRe_eq spec coefs x0 x1 x2 x3 b h0 h1 h2 h3, fold5 _ (tapRe spec coefs b t f), h4]
  have hc : fr x0 t f 2 = spec (ix5 b 0 t (bin f) 0) := by
    unfold fr
    rw [h0]
    exact frame_centre spec b t f 0
  rw [hc]
  rfl

include h0 h1 h2 h3 h4 in
/-- The imaginary output block is batch entry `b` of the blended imaginary parts. -/
theorem block_im (u : Fin 1) (t : Fin 1000) (f : Fin 96) :
    out0_6 x0 x1 x2 x3 x4 (ix3 u t f) = planeIm spec coefs gain (ix3 b t f) := by
  rw [out_im, bIm_eq spec coefs x0 x1 x2 x3 b h0 h1 h2 h3, bIm_eq spec coefs x0 x1 x2 x3 b h0 h1 h2 h3,
    bIm_eq spec coefs x0 x1 x2 x3 b h0 h1 h2 h3, bIm_eq spec coefs x0 x1 x2 x3 b h0 h1 h2 h3,
    bIm_eq spec coefs x0 x1 x2 x3 b h0 h1 h2 h3, fold5 _ (tapIm spec coefs b t f), h4]
  have hc : fr x1 t f 2 = spec (ix5 b 0 t (bin f) 1) := by
    unfold fr
    rw [h1]
    exact frame_centre spec b t f 1
  rw [hc]
  rfl

end Entry

/-! ## The blocks of a grid point -/

variable (m : (ℓ : Loc nD τ sig) → Buf (Elt Ideal) ℓ) (c : Dev nD)

/-- The three arguments as arrays of extended reals. -/
abbrev specA : SSpec.Idx → EReal := m ((c : Thread nD τ).loc main_arg0)
abbrev coefA : SCoef.Idx → EReal := m ((c : Thread nD τ).loc main_arg1)
abbrev gainA : SGain.Idx → EReal := m ((c : Thread nD τ).loc main_arg2)

/-- A grid point as a batch entry: there are 32 of either. -/
def entry (t : Fin cfg0.N) : Fin 32 := ⟨t.val, by have h := t.isLt; have e : cfg0.N = 32 := N_0; omega⟩

/-- Each window's block index at point `t`: entry `t` on the batch axis, the whole extent on the others (decided
    over the 32 points). -/
theorem idx0 : ∀ t : Fin cfg0.N, win0_0.index t = ![t.val, 0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![t.val, 0, 0, 0] := (by decide +kernel : ∀ t : Fin grid0.N, _)
theorem idx3 : ∀ t : Fin cfg0.N, win0_3.index t = ![t.val, 0, 0, 0] := (by decide +kernel : ∀ t : Fin grid0.N, _)
theorem idx4 : ∀ t : Fin cfg0.N, win0_4.index t = ![t.val, 0, 0] := (by decide +kernel : ∀ t : Fin grid0.N, _)
theorem idx5 : ∀ t : Fin cfg0.N, win0_5.index t = ![t.val, 0, 0] := (by decide +kernel : ∀ t : Fin grid0.N, _)
theorem idx6 : ∀ t : Fin cfg0.N, win0_6.index t = ![t.val, 0, 0] := (by decide +kernel : ∀ t : Fin grid0.N, _)

/-- Where a block index of a padded plane sits in the array. -/
theorem emb0 (t : Fin cfg0.N) (u : Fin 1) (s : Fin 1004) (f : Fin 96) :
    ((cfg0.win 0).blk t).view.emb (ix3 u s f) = ix3 (entry t) s f := by
  funext a; apply Fin.ext
  have e0 : win0_0.index t (0 : Fin 3) = t.val := congrFun (idx0 t) 0
  have e1 : win0_0.index t (1 : Fin 3) = 0 := congrFun (idx0 t) 1
  have e2 : win0_0.index t (2 : Fin 3) = 0 := congrFun (idx0 t) 2
  have hu : u.val = 0 := by omega
  match a with
  | ⟨0, _⟩ => show win0_0.index t (0 : Fin 3) * 1 + 1 * u.val = t.val; omega
  | ⟨1, _⟩ => show win0_0.index t (1 : Fin 3) * 1004 + 1 * s.val = s.val; omega
  | ⟨2, _⟩ => show win0_0.index t (2 : Fin 3) * 96 + 1 * f.val = f.val; omega

theorem emb1 (t : Fin cfg0.N) (u : Fin 1) (s : Fin 1004) (f : Fin 96) :
    ((cfg0.win 1).blk t).view.emb (ix3 u s f) = ix3 (entry t) s f := by
  funext a; apply Fin.ext
  have e0 : win0_1.index t (0 : Fin 3) = t.val := congrFun (idx1 t) 0
  have e1 : win0_1.index t (1 : Fin 3) = 0 := congrFun (idx1 t) 1
  have e2 : win0_1.index t (2 : Fin 3) = 0 := congrFun (idx1 t) 2
  have hu : u.val = 0 := by omega
  match a with
  | ⟨0, _⟩ => show win0_1.index t (0 : Fin 3) * 1 + 1 * u.val = t.val; omega
  | ⟨1, _⟩ => show win0_1.index t (1 : Fin 3) * 1004 + 1 * s.val = s.val; omega
  | ⟨2, _⟩ => show win0_1.index t (2 : Fin 3) * 96 + 1 * f.val = f.val; omega

theorem emb2 (t : Fin cfg0.N) (u : Fin 1) (t' : Fin 1000) (k : Fin 5) (f : Fin 96) :
    ((cfg0.win 2).blk t).view.emb (ix4 u t' k f) = ix4 (entry t) t' k f := by
  funext a; apply Fin.ext
  have e0 : win0_2.index t (0 : Fin 4) = t.val := congrFun (idx2 t) 0
  have e1 : win0_2.index t (1 : Fin 4) = 0 := congrFun (idx2 t) 1
  have e2 : win0_2.index t (2 : Fin 4) = 0 := congrFun (idx2 t) 2
  have e3 : win0_2.index t (3 : Fin 4) = 0 := congrFun (idx2 t) 3
  have hu : u.val = 0 := by omega
  match a with
  | ⟨0, _⟩ => show win0_2.index t (0 : Fin 4) * 1 + 1 * u.val = t.val; omega
  | ⟨1, _⟩ => show win0_2.index t (1 : Fin 4) * 1000 + 1 * t'.val = t'.val; omega
  | ⟨2, _⟩ => show win0_2.index t (2 : Fin 4) * 5 + 1 * k.val = k.val; omega
  | ⟨3, _⟩ => show win0_2.index t (3 : Fin 4) * 96 + 1 * f.val = f.val; omega

theorem emb3 (t : Fin cfg0.N) (u : Fin 1) (t' : Fin 1000) (k : Fin 5) (f : Fin 96) :
    ((cfg0.win 3).blk t).view.emb (ix4 u t' k f) = ix4 (entry t) t' k f := by
  funext a; apply Fin.ext
  have e0 : win0_3.index t (0 : Fin 4) = t.val := congrFun (idx3 t) 0
  have e1 : win0_3.index t (1 : Fin 4) = 0 := congrFun (idx3 t) 1
  have e2 : win0_3.index t (2 : Fin 4) = 0 := congrFun (idx3 t) 2
  have e3 : win0_3.index t (3 : Fin 4) = 0 := congrFun (idx3 t) 3
  have hu : u.val = 0 := by omega
  match a with
  | ⟨0, _⟩ => show win0_3.index t (0 : Fin 4) * 1 + 1 * u.val = t.val; omega
  | ⟨1, _⟩ => show win0_3.index t (1 : Fin 4) * 1000 + 1 * t'.val = t'.val; omega
  | ⟨2, _⟩ => show win0_3.index t (2 : Fin 4) * 5 + 1 * k.val = k.val; omega
  | ⟨3, _⟩ => show win0_3.index t (3 : Fin 4) * 96 + 1 * f.val = f.val; omega

theorem emb4 (t : Fin cfg0.N) (u : Fin 1) (t' : Fin 1000) (z : Fin 1) :
    ((cfg0.win 4).blk t).view.emb (ix3 u t' z) = ix3 (entry t) t' z := by
  funext a; apply Fin.ext
  have e0 : win0_4.index t (0 : Fin 3) = t.val := congrFun (idx4 t) 0
  have e1 : win0_4.index t (1 : Fin 3) = 0 := congrFun (idx4 t) 1
  have e2 : win0_4.index t (2 : Fin 3) = 0 := congrFun (idx4 t) 2
  have hu : u.val = 0 := by omega
  match a with
  | ⟨0, _⟩ => show win0_4.index t (0 : Fin 3) * 1 + 1 * u.val = t.val; omega
  | ⟨1, _⟩ => show win0_4.index t (1 : Fin 3) * 1000 + 1 * t'.val = t'.val; omega
  | ⟨2, _⟩ => show win0_4.index t (2 : Fin 3) * 1 + 1 * z.val = z.val; omega

theorem emb5 (t : Fin cfg0.N) (u : Fin 1) (t' : Fin 1000) (f : Fin 96) :
    ((cfg0.win 5).blk t).view.emb (ix3 u t' f) = ix3 (entry t) t' f := by
  funext a; apply Fin.ext
  have e0 : win0_5.index t (0 : Fin 3) = t.val := congrFun (idx5 t) 0
  have e1 : win0_5.index t (1 : Fin 3) = 0 := congrFun (idx5 t) 1
  have e2 : win0_5.index t (2 : Fin 3) = 0 := congrFun (idx5 t) 2
  have hu : u.val = 0 := by omega
  match a with
  | ⟨0, _⟩ => show win0_5.index t (0 : Fin 3) * 1 + 1 * u.val = t.val; omega
  | ⟨1, _⟩ => show win0_5.index t (1 : Fin 3) * 1000 + 1 * t'.val = t'.val; omega
  | ⟨2, _⟩ => show win0_5.index t (2 : Fin 3) * 96 + 1 * f.val = f.val; omega

theorem emb6 (t : Fin cfg0.N) (u : Fin 1) (t' : Fin 1000) (f : Fin 96) :
    ((cfg0.win 6).blk t).view.emb (ix3 u t' f) = ix3 (entry t) t' f := by
  funext a; apply Fin.ext
  have e0 : win0_6.index t (0 : Fin 3) = t.val := congrFun (idx6 t) 0
  have e1 : win0_6.index t (1 : Fin 3) = 0 := congrFun (idx6 t) 1
  have e2 : win0_6.index t (2 : Fin 3) = 0 := congrFun (idx6 t) 2
  have hu : u.val = 0 := by omega
  match a with
  | ⟨0, _⟩ => show win0_6.index t (0 : Fin 3) * 1 + 1 * u.val = t.val; omega
  | ⟨1, _⟩ => show win0_6.index t (1 : Fin 3) * 1000 + 1 * t'.val = t'.val; omega
  | ⟨2, _⟩ => show win0_6.index t (2 : Fin 3) * 96 + 1 * f.val = f.val; omega

/-! ## The input blocks of a point hold its batch entry -/

theorem iblk0_apply (t : Fin cfg0.N) (s : Fin 1004) (f : Fin 96) :
    iblk m c 0 t (ix3 0 s f) = frameAt (specA m c) (entry t) s.val f 0 := by
  unfold iblk
  show V m c main_v4 (((cfg0.win 0).blk t).view.emb (ix3 0 s f)) = _
  rw [emb0, V_plane_re]
  exact padded_plane_apply _ 0 (by decide) _ _ _ _ _ (entry t) s f

theorem iblk1_apply (t : Fin cfg0.N) (s : Fin 1004) (f : Fin 96) :
    iblk m c 1 t (ix3 0 s f) = frameAt (specA m c) (entry t) s.val f 1 := by
  unfold iblk
  show V m c main_v5 (((cfg0.win 1).blk t).view.emb (ix3 0 s f)) = _
  rw [emb1, V_plane_im]
  exact padded_plane_apply _ 1 (by decide) _ _ _ _ _ (entry t) s f

theorem iblk2_apply (t : Fin cfg0.N) (t' : Fin 1000) (k : Fin 5) (f : Fin 96) :
    iblk m c 2 t (ix4 0 t' k f) = coefA m c (ix5 (entry t) t' k f 0) := by
  unfold iblk
  show V m c main_v7 (((cfg0.win 2).blk t).view.emb (ix4 0 t' k f)) = _
  rw [emb2, V_coef_re]
  exact coef_block_apply _ 0 (by decide) _ _ (entry t) t' k f

theorem iblk3_apply (t : Fin cfg0.N) (t' : Fin 1000) (k : Fin 5) (f : Fin 96) :
    iblk m c 3 t (ix4 0 t' k f) = coefA m c (ix5 (entry t) t' k f 1) := by
  unfold iblk
  show V m c main_v9 (((cfg0.win 3).blk t).view.emb (ix4 0 t' k f)) = _
  rw [emb3, V_coef_im]
  exact coef_block_apply _ 1 (by decide) _ _ (entry t) t' k f

theorem iblk4_apply (t : Fin cfg0.N) (t' : Fin 1000) :
    iblk m c 4 t (ix3 0 t' 0) = gainA m c (ix3 (entry t) t' 0) := by
  unfold iblk
  show V m c main_arg2 (((cfg0.win 4).blk t).view.emb (ix3 0 t' 0)) = _
  rw [emb4, V_main_arg2]

end Cert.KernelIdeal.KerValue

end
-- ==== Proof.KerFinal.lean ====
/-
  The two result arrays after the region are the specification's blended planes.

  Point `t` writes back, to either result, the whole plane of batch entry `t`, and what it writes is that entry of the
  specification's plane (the body's block over the point's input blocks). The 32 points' blocks cover the array — entry
  `b` lies in point `b`'s block — so after the last point each array is the plane.
-/
import proofs.«117574_j30185030156317_2_alg».proof.Proof.KerBlocks

set_option maxRecDepth 16384

noncomputable section

namespace Cert.KernelIdeal.KerValue

open Cert.KernelIdeal Cert.KernelIdeal.Gen Idealize.ShloMosaic Idealize.ShloMosaic.ValueIdx Idealize.ShloMosaic.TcCoe
open Idealize.SL.Sem Idealize.ShloMosaic.Pipeline Cert.DeepFilter

variable (m : (ℓ : Loc nD τ sig) → Buf (Elt Ideal) ℓ) (c : Dev nD)

/-- What point `t` writes back to the real result is block `t` of the blended real parts. -/
theorem flushed_re (t : Fin cfg0.N) :
    (dats m 0 c).flushed 5 t
      = ((cfg0.win 5).blk t).view.read (Elt Ideal) (planeRe (specA m c) (coefA m c) (gainA m c)) := by
  show (cfg0.win 5).cut (grid0.coords t) ((dats m 0 c).after 5 t) = _
  rw [after0_5]
  funext y
  show out0_5 (iblk m c 0 t) (iblk m c 1 t) (iblk m c 2 t) (iblk m c 3 t) (iblk m c 4 t) y
      = planeRe (specA m c) (coefA m c) (gainA m c) (((cfg0.win 5).blk t).view.emb y)
  obtain ⟨u, t', f, rfl⟩ : ∃ (u : Fin 1) (t' : Fin 1000) (f : Fin 96), y = ix3 u t' f :=
    ⟨⟨(y 0).val, (y 0).isLt⟩, ⟨(y 1).val, (y 1).isLt⟩, ⟨(y 2).val, (y 2).isLt⟩,
      funext fun a => by match a with | ⟨0, _⟩ => rfl | ⟨1, _⟩ => rfl | ⟨2, _⟩ => rfl⟩
  rw [emb5]
  exact block_re (specA m c) (coefA m c) (gainA m c) (iblk m c 0 t) (iblk m c 1 t) (iblk m c 2 t) (iblk m c 3 t)
    (iblk m c 4 t) (entry t) (iblk0_apply m c t) (iblk1_apply m c t) (iblk2_apply m c t) (iblk3_apply m c t)
    (iblk4_apply m c t) u t' f

/-- What point `t` writes back to the imaginary result is block `t` of the blended imaginary parts. -/
theorem flushed_im (t : Fin cfg0.N) :
    (dats m 0 c).flushed 6 t
      = ((cfg0.win 6).blk t).view.read (Elt Ideal) (planeIm (specA m c) (coefA m c) (gainA m c)) := by
  show (cfg0.win 6).cut (grid0.coords t) ((dats m 0 c).after 6 t) = _
  rw [after0_6]
  funext y
  show out0_6 (iblk m c 0 t) (iblk m c 1 t) (iblk m c 2 t) (iblk m c 3 t) (iblk m c 4 t) y
      = planeIm (specA m c) (coefA m c) (gainA m c) (((cfg0.win 6).blk t).view.emb y)
  obtain ⟨u, t', f, rfl⟩ : ∃ (u : Fin 1) (t' : Fin 1000) (f : Fin 96), y = ix3 u t' f :=
    ⟨⟨(y 0).val, (y 0).isLt⟩, ⟨(y 1).val, (y 1).isLt⟩, ⟨(y 2).val, (y 2).isLt⟩,
      funext fun a => by match a with | ⟨0, _⟩ => rfl | ⟨1, _⟩ => rfl | ⟨2, _⟩ => rfl⟩
  rw [emb6]
  exact block_im (specA m c) (coefA m c) (gainA m c) (iblk m c 0 t) (iblk m c 1 t) (iblk m c 2 t) (iblk m c 3 t)
    (iblk m c 4 t) (entry t) (iblk0_apply m c t) (iblk1_apply m c t) (iblk2_apply m c t) (iblk3_apply m c t)
    (iblk4_apply m c t) u t' f

/-- An index of the real result is in point `t`'s block iff each coordinate is in the block's range on its axis. -/
theorem mem_blk_re (t : Fin cfg0.N) (i : S32x1000x96.Idx) :
    i ∈ ((cfg0.win 5).blk t).view.set ↔ ∀ a : Fin 3, win0_5.index t a * S1x1000x96.size a ≤ (i a).val
      ∧ (i a).val < win0_5.index t a * S1x1000x96.size a + S1x1000x96.size a := by
  show i ∈ ((View.whole main_v10_0).slice (win0_5.rect t)).set ↔ _
  rw [View.set_slice_whole, Rect.mem_set_unit]
  exact Iff.rfl

theorem mem_blk_im (t : Fin cfg0.N) (i : S32x1000x96.Idx) :
    i ∈ ((cfg0.win 6).blk t).view.set ↔ ∀ a : Fin 3, win0_6.index t a * S1x1000x96.size a ≤ (i a).val
      ∧ (i a).val < win0_6.index t a * S1x1000x96.size a + S1x1000x96.size a := by
  show i ∈ ((View.whole main_v10_1).slice (win0_6.rect t)).set ↔ _
  rw [View.set_slice_whole, Rect.mem_set_unit]
  exact Iff.rfl

/-- Batch entry `b` is point `b`'s. -/
def pointOf (b : Fin 32) : Fin cfg0.N := ⟨b.val, by have e : cfg0.N = 32 := N_0; have := b.isLt; omega⟩

/-- Every index of the real result lies in the block of the point of its batch entry. -/
theorem cover_re (i : S32x1000x96.Idx) :
    ∃ t : Fin cfg0.N, (cfg0.win 5).flush t = true ∧ i ∈ ((cfg0.win 5).blk t).view.set := by
  have h0 : (i 0).val < 32 := (i 0).isLt
  have h1 : (i 1).val < 1000 := (i 1).isLt
  have h2 : (i 2).val < 96 := (i 2).isLt
  refine ⟨pointOf ⟨(i 0).val, h0⟩, flush0_5 _, ?_⟩
  rw [mem_blk_re]
  have e0 : win0_5.index (pointOf ⟨(i 0).val, h0⟩) (0 : Fin 3) = (i 0).val := congrFun (idx5 _) 0
  have e1 : win0_5.index (pointOf ⟨(i 0).val, h0⟩) (1 : Fin 3) = 0 := congrFun (idx5 _) 1
  have e2 : win0_5.index (pointOf ⟨(i 0).val, h0⟩) (2 : Fin 3) = 0 := congrFun (idx5 _) 2
  intro a
  match a with
  | ⟨0, _⟩ =>
    show win0_5.index (pointOf ⟨(i 0).val, h0⟩) (0 : Fin 3) * 1 ≤ (i 0).val
      ∧ (i 0).val < win0_5.index (pointOf ⟨(i 0).val, h0⟩) (0 : Fin 3) * 1 + 1
    omega
  | ⟨1, _⟩ =>
    show win0_5.index (pointOf ⟨(i 0).val, h0⟩) (1 : Fin 3) * 1000 ≤ (i 1).val
      ∧ (i 1).val < win0_5.index (pointOf ⟨(i 0).val, h0⟩) (1 : Fin 3) * 1000 + 1000
    omega
  | ⟨2, _⟩ =>
    show win0_5.index (pointOf ⟨(i 0).val, h0⟩) (2 : Fin 3) * 96 ≤ (i 2).val
      ∧ (i 2).val < win0_5.index (pointOf ⟨(i 0).val, h0⟩) (2 : Fin 3) * 96 + 96
    omega

theorem cover_im (i : S32x1000x96.Idx) :
    ∃ t : Fin cfg0.N, (cfg0.win 6).flush t = true ∧ i ∈ ((cfg0.win 6).blk t).view.set := by
  have h0 : (i 0).val < 32 := (i 0).isLt
  have h1 : (i 1).val < 1000 := (i 1).isLt
  have h2 : (i 2).val < 96 := (i 2).isLt
  refine ⟨pointOf ⟨(i 0).val, h0⟩, flush0_6 _, ?_⟩
  rw [mem_blk_im]
  have e0 : win0_6.index (pointOf ⟨(i 0).val, h0⟩) (0 : Fin 3) = (i 0).val := congrFun (idx6 _) 0
  have e1 : win0_6.index (pointOf ⟨(i 0).val, h0⟩) (1 : Fin 3) = 0 := congrFun (idx6 _) 1
  have e2 : win0_6.index (pointOf ⟨(i 0).val, h0⟩) (2 : Fin 3) = 0 := congrFun (idx6 _) 2
  intro a
  match a with
  | ⟨0, _⟩ =>
    show win0_6.index (pointOf ⟨(i 0).val, h0⟩) (0 : Fin 3) * 1 ≤ (i 0).val
      ∧ (i 0).val < win0_6.index (pointOf ⟨(i 0).val, h0⟩) (0 : Fin 3) * 1 + 1
    omega
  | ⟨1, _⟩ =>
    show win0_6.index (pointOf ⟨(i 0).val, h0⟩) (1 : Fin 3) * 1000 ≤ (i 1).val
      ∧ (i 1).val < win0_6.index (pointOf ⟨(i 0).val, h0⟩) (1 : Fin 3) * 1000 + 1000
    omega
  | ⟨2, _⟩ =>
    show win0_6.index (pointOf ⟨(i 0).val, h0⟩) (2 : Fin 3) * 96 ≤ (i 2).val
      ∧ (i 2).val < win0_6.index (pointOf ⟨(i 0).val, h0⟩) (2 : Fin 3) * 96 + 96
    omega

/-- The real result after the region. -/
theorem final_re : (dats m 0 c).arrAt 5 cfg0.N = planeRe (specA m c) (coefA m c) (gainA m c) :=
  (dats m 0 c).arrAt_eq_of_cover 5 _ (fun t _ => flushed_re m c t) cover_re

/-- The imaginary result after the region. -/
theorem final_im : (dats m 0 c).arrAt 6 cfg0.N = planeIm (specA m c) (coefA m c) (gainA m c) :=
  (dats m 0 c).arrAt_eq_of_cover 6 _ (fun t _ => flushed_im m c t) cover_im

end Cert.KernelIdeal.KerValue

end
-- ==== Proof.LibScatterSet.lean ====
/-
  Reading a scatter whose body returns the update, at one operand index.

`Host.scatter` is a left fold over the update indices in row-major order, each step overwriting the operand
element at the update's result index. When the body returns the update, the folded function at an operand index
`i` is the update at the ONLY update index landing on `i`, and the operand's own element when no update index
lands on `i`. Both follow from one fact about a left fold over an arbitrary list whose step changes the
accumulator at `i` exactly at the list elements sent to `i`. -/
import Idealize.ShloMosaic.PureOps.Contract

namespace Cert.LibScatterSet
open Idealize.ShloMosaic

section Fold
variable {ι β κ : Type}

/-- A left fold whose step leaves the accumulator's value at `i` alone at every list element not sent to `i`
    keeps the initial value at `i` when no list element is sent to `i`. -/
theorem foldl_apply_of_none (g : ι → Option κ) (step : (κ → β) → ι → κ → β) (i : κ)
    (hmiss : ∀ r n, g n ≠ some i → step r n i = r i) :
    ∀ (l : List ι) (r0 : κ → β), (∀ n ∈ l, g n ≠ some i) → (l.foldl step r0) i = r0 i
  | [], _, _ => rfl
  | a :: l, r0, h => by
      rw [List.foldl_cons, foldl_apply_of_none g step i hmiss l (step r0 a) fun n hn => h n (List.mem_cons_of_mem a hn)]
      exact hmiss r0 a (h a List.mem_cons_self)

/-- A left fold whose step writes `v n` at `i` at every list element `n` sent to `i`, and leaves the value at
    `i` alone at the others, ends with `v n0` at `i` when `n0` is the only list element sent to `i` (or none is
    and the initial value at `i` is already `v n0`). -/
theorem foldl_apply_of_unique (g : ι → Option κ) (v : ι → β) (step : (κ → β) → ι → κ → β) (i : κ) (n0 : ι)
    (hhit : ∀ r n, g n = some i → step r n i = v n) (hmiss : ∀ r n, g n ≠ some i → step r n i = r i) :
    ∀ (l : List ι) (r0 : κ → β), (∀ n ∈ l, g n = some i → n = n0) →
      (r0 i = v n0 ∨ (n0 ∈ l ∧ g n0 = some i)) → (l.foldl step r0) i = v n0
  | [], r0, _, h => by
      rcases h with h | ⟨h, _⟩
      · exact h
      · exact absurd h List.not_mem_nil
  | a :: l, r0, hu, h => by
      rw [List.foldl_cons]
      refine foldl_apply_of_unique g v step i n0 hhit hmiss l (step r0 a)
        (fun n hn => hu n (List.mem_cons_of_mem a hn)) ?_
      by_cases ha : g a = some i
      · left
        rw [hhit r0 a ha, hu a List.mem_cons_self ha]
      · rw [hmiss r0 a ha]
        rcases h with h | ⟨hm, hg⟩
        · exact Or.inl h
        · rcases List.mem_cons.1 hm with rfl | hm
          · exact absurd hg ha
          · exact Or.inr ⟨hm, hg⟩

end Fold

variable {s si u : Shape} {w : Nat} {α : Type}

/-- The scatter whose body returns the update, read at an operand index `i` that exactly one update index `j0`
    lands on: the update's element at `j0`. -/
theorem scatter_set_apply_of_unique (d : ScatterDims s si u) (x : s.Idx → α) (idx : IVec si w) (upd : u.Idx → α)
    (i : s.Idx) (j0 : u.Idx) (h0 : d.resultIdx? j0 idx = some i)
    (huniq : ∀ j, d.resultIdx? j idx = some i → j = j0) :
    Host.scatter d (fun _ b => b) x idx upd i = upd j0 := by
  unfold Host.scatter
  have key := foldl_apply_of_unique (fun n => d.resultIdx? (u.rowMajor.symm n) idx)
    (fun n => upd (u.rowMajor.symm n))
    (fun r n =>
      match d.resultIdx? (u.rowMajor.symm n) idx with
      | some k => fun i' => if i' = k then (fun _ b => b) (r k) (upd (u.rowMajor.symm n)) else r i'
      | none => r)
    i (u.rowMajor j0)
    (fun r n hn => by simp only [hn, if_true])
    (fun r n hn => by
      cases hk : d.resultIdx? (u.rowMajor.symm n) idx with
      | none => rfl
      | some k =>
        have hne : i ≠ k := fun e => hn (by rw [hk, e])
        simp only [if_neg hne])
    (List.finRange u.numel) x
    (fun n _ hn => by
      have := huniq _ hn
      rw [← this, Equiv.apply_symm_apply])
    (Or.inr ⟨List.mem_finRange _, by simpa using h0⟩)
  rw [Equiv.symm_apply_apply] at key
  exact key

/-- The scatter whose body returns the update, read at an operand index `i` no update index lands on: the
    operand's element. -/
theorem scatter_set_apply_of_none (d : ScatterDims s si u) (x : s.Idx → α) (idx : IVec si w) (upd : u.Idx → α)
    (i : s.Idx) (hnone : ∀ j, d.resultIdx? j idx ≠ some i) :
    Host.scatter d (fun _ b => b) x idx upd i = x i := by
  unfold Host.scatter
  exact foldl_apply_of_none (fun n => d.resultIdx? (u.rowMajor.symm n) idx)
    (fun r n =>
      match d.resultIdx? (u.rowMajor.symm n) idx with
      | some k => fun i' => if i' = k then (fun _ b => b) (r k) (upd (u.rowMajor.symm n)) else r i'
      | none => r)
    i
    (fun r n hn => by
      cases hk : d.resultIdx? (u.rowMajor.symm n) idx with
      | none => rfl
      | some k =>
        have hne : i ≠ k := fun e => hn (by rw [hk, e])
        simp only [if_neg hne])
    (List.finRange u.numel) x (fun n _ => hnone _)

end Cert.LibScatterSet
-- ==== Proof.ScatterForms.lean ====
/-
  The two writes of the blended bins into the spectrogram, read at an index of the spectrogram.

  Both programs end by writing an array of blended bins over the first 96 frequency bins of the spectrogram with a
  scatter whose body returns the update and whose start indices are all zero. One spells the update with the
  spectrogram's own five axes, `[32, 1, 1000, 96, 2]`; the other drops the unit axis, `[32, 1000, 96, 2]`, and inserts it
  back. Update index `j` lands on the spectrogram index with the same coordinates (the unit axis at zero), so at an
  index whose bin is below 96 the result is the update at that index's coordinates — exactly one update index lands
  there — and at a bin from 96 on, where none lands, it is the spectrogram's own element.
-/
import proofs.«117574_j30185030156317_2_alg».proof.Proof.LibScatterSet
import proofs.«117574_j30185030156317_2_alg».proof.Proof.Spec

namespace Cert.DeepFilter.Scatter

open Idealize.ShloMosaic Idealize.ShloMosaic.ValueIdx Cert.DeepFilter

abbrev SBins5 : Shape := ⟨5, ![32, 1, 1000, 96, 2]⟩
abbrev SBins4 : Shape := ⟨4, ![32, 1000, 96, 2]⟩
abbrev SIx1 : Shape := ⟨1, ![1]⟩
abbrev SIx2 : Shape := ⟨1, ![2]⟩

variable {α : Type}

/-! ## The update with the spectrogram's five axes -/

section Five
variable (wf : ScatterDims.WF SSpec SIx1 SBins5 [0, 1, 2, 3, 4] [] [3] 0)

/-- The scatter's dimension record, whatever witnesses its well-formedness. -/
abbrev d5 : ScatterDims SSpec SIx1 SBins5 where
  updateWindowDims := [0, 1, 2, 3, 4]
  insertedWindowDims := []
  scatterDimsToOperandDims := [3]
  indexVectorDim := 0
  wf := wf

/-- Where update index `j` lands: the same coordinates. -/
def emb5 (j : SBins5.Idx) : SSpec.Idx := ix5 (j 0) (j 1) (j 2) (bin (j 3)) (j 4)

theorem start5_bin (idx : IVec SIx1 32) (hidx : ∀ k, idx k = 0#32) (j : SBins5.Idx) :
    (d5 wf).start j idx ⟨3, by decide⟩ = 0 := by
  unfold ScatterDims.start
  split
  · rw [hidx]; rfl
  · rfl

theorem coord5 (idx : IVec SIx1 32) (hidx : ∀ k, idx k = 0#32) (j : SBins5.Idx) (a : Fin SSpec.rank) :
    (d5 wf).start j idx a + ((d5 wf).window j a : Int) = ((emb5 j a).val : Int) := by
  match a with
  | ⟨0, _⟩ => show (0 : Int) + (((j 0).val : Nat) : Int) = _; exact zero_add _
  | ⟨1, _⟩ => show (0 : Int) + (((j 1).val : Nat) : Int) = _; exact zero_add _
  | ⟨2, _⟩ => show (0 : Int) + (((j 2).val : Nat) : Int) = _; exact zero_add _
  | ⟨3, _⟩ =>
    rw [start5_bin wf idx hidx j]
    show (0 : Int) + (((j 3).val : Nat) : Int) = _; exact zero_add _
  | ⟨4, _⟩ => show (0 : Int) + (((j 4).val : Nat) : Int) = _; exact zero_add _

theorem lands5 (idx : IVec SIx1 32) (hidx : ∀ k, idx k = 0#32) (j : SBins5.Idx) :
    (d5 wf).resultIdx? j idx = some (emb5 j) := by
  unfold ScatterDims.resultIdx?
  have h : ∀ a, 0 ≤ (d5 wf).start j idx a + ((d5 wf).window j a : Int)
      ∧ (d5 wf).start j idx a + ((d5 wf).window j a : Int) < SSpec.size a := fun a => by
    rw [coord5 wf idx hidx j a]
    exact ⟨Int.natCast_nonneg _, by exact_mod_cast (emb5 j a).isLt⟩
  rw [dif_pos h]
  refine congrArg some (funext fun a => Fin.ext ?_)
  show ((d5 wf).start j idx a + ((d5 wf).window j a : Int)).toNat = (emb5 j a).val
  rw [coord5 wf idx hidx j a]
  exact Int.toNat_natCast _

/-- The five-axis write read at a spectrogram index. -/
theorem scatter5_apply (x : SSpec.Idx → α) (idx : IVec SIx1 32) (hidx : ∀ k, idx k = 0#32) (upd : SBins5.Idx → α)
    (i : SSpec.Idx) :
    Host.scatter (d5 wf) (fun _ b => b) x idx upd i
      = if h : (i 3).val < 96 then upd (ix5 (i 0) (i 1) (i 2) ⟨(i 3).val, h⟩ (i 4)) else x i := by
  split
  · rename_i h
    refine Cert.LibScatterSet.scatter_set_apply_of_unique (d5 wf) x idx upd i _ ?_ ?_
    · rw [lands5 wf idx hidx]
      refine congrArg some (funext fun a => ?_)
      match a with
      | ⟨0, _⟩ => rfl
      | ⟨1, _⟩ => rfl
      | ⟨2, _⟩ => rfl
      | ⟨3, _⟩ => rfl
      | ⟨4, _⟩ => rfl
    · intro j hj
      rw [lands5 wf idx hidx] at hj
      have e : emb5 j = i := Option.some.inj hj
      funext a
      match a with
      | ⟨0, _⟩ => exact Fin.ext (show (j 0).val = (i 0).val from congrArg Fin.val (congrFun e 0))
      | ⟨1, _⟩ => exact Fin.ext (show (j 1).val = (i 1).val from congrArg Fin.val (congrFun e 1))
      | ⟨2, _⟩ => exact Fin.ext (show (j 2).val = (i 2).val from congrArg Fin.val (congrFun e 2))
      | ⟨3, _⟩ => exact Fin.ext (show (j 3).val = (i 3).val from congrArg Fin.val (congrFun e 3))
      | ⟨4, _⟩ => exact Fin.ext (show (j 4).val = (i 4).val from congrArg Fin.val (congrFun e 4))
  · rename_i h
    refine Cert.LibScatterSet.scatter_set_apply_of_none (d5 wf) x idx upd i fun j hj => h ?_
    rw [lands5 wf idx hidx] at hj
    have e : ((emb5 j) 3).val = (i 3).val := congrArg Fin.val (congrFun (Option.some.inj hj) 3)
    rw [← e]
    exact (j 3).isLt

end Five

/-! ## The update without the unit axis -/

section Four
variable (wf : ScatterDims.WF SSpec SIx2 SBins4 [0, 1, 2, 3] [1] [1, 3] 0)

/-- The scatter's dimension record, whatever witnesses its well-formedness. -/
abbrev d4 : ScatterDims SSpec SIx2 SBins4 where
  updateWindowDims := [0, 1, 2, 3]
  insertedWindowDims := [1]
  scatterDimsToOperandDims := [1, 3]
  indexVectorDim := 0
  wf := wf

/-- Where update index `j` lands: the same coordinates, the unit axis at zero. -/
def emb4 (j : SBins4.Idx) : SSpec.Idx := ix5 (j 0) 0 (j 1) (bin (j 2)) (j 3)

theorem start4_unit (idx : IVec SIx2 32) (hidx : ∀ k, idx k = 0#32) (j : SBins4.Idx) :
    (d4 wf).start j idx ⟨1, by decide⟩ = 0 := by
  unfold ScatterDims.start
  split
  · rw [hidx]; rfl
  · rfl

theorem start4_bin (idx : IVec SIx2 32) (hidx : ∀ k, idx k = 0#32) (j : SBins4.Idx) :
    (d4 wf).start j idx ⟨3, by decide⟩ = 0 := by
  unfold ScatterDims.start
  split
  · rw [hidx]; rfl
  · rfl

theorem coord4 (idx : IVec SIx2 32) (hidx : ∀ k, idx k = 0#32) (j : SBins4.Idx) (a : Fin SSpec.rank) :
    (d4 wf).start j idx a + ((d4 wf).window j a : Int) = ((emb4 j a).val : Int) := by
  match a with
  | ⟨0, _⟩ => show (0 : Int) + (((j 0).val : Nat) : Int) = _; exact zero_add _
  | ⟨1, _⟩ =>
    rw [start4_unit wf idx hidx j]
    show (0 : Int) + ((0 : Nat) : Int) = _; rfl
  | ⟨2, _⟩ => show (0 : Int) + (((j 1).val : Nat) : Int) = _; exact zero_add _
  | ⟨3, _⟩ =>
    rw [start4_bin wf idx hidx j]
    show (0 : Int) + (((j 2).val : Nat) : Int) = _; exact zero_add _
  | ⟨4, _⟩ => show (0 : Int) + (((j 3).val : Nat) : Int) = _; exact zero_add _

theorem lands4 (idx : IVec SIx2 32) (hidx : ∀ k, idx k = 0#32) (j : SBins4.Idx) :
    (d4 wf).resultIdx? j idx = some (emb4 j) := by
  unfold ScatterDims.resultIdx?
  have h : ∀ a, 0 ≤ (d4 wf).start j idx a + ((d4 wf).window j a : Int)
      ∧ (d4 wf).start j idx a + ((d4 wf).window j a : Int) < SSpec.size a := fun a => by
    rw [coord4 wf idx hidx j a]
    exact ⟨Int.natCast_nonneg _, by exact_mod_cast (emb4 j a).isLt⟩
  rw [dif_pos h]
  refine congrArg some (funext fun a => Fin.ext ?_)
  show ((d4 wf).start j idx a + ((d4 wf).window j a : Int)).toNat = (emb4 j a).val
  rw [coord4 wf idx hidx j a]
  exact Int.toNat_natCast _

/-- The four-axis write read at a spectrogram index. -/
theorem scatter4_apply (x : SSpec.Idx → α) (idx : IVec SIx2 32) (hidx : ∀ k, idx k = 0#32) (upd : SBins4.Idx → α)
    (i : SSpec.Idx) :
    Host.scatter (d4 wf) (fun _ b => b) x idx upd i
      = if h : (i 3).val < 96 then upd (ix4 (i 0) (i 2) ⟨(i 3).val, h⟩ (i 4)) else x i := by
  split
  · rename_i h
    refine Cert.LibScatterSet.scatter_set_apply_of_unique (d4 wf) x idx upd i _ ?_ ?_
    · rw [lands4 wf idx hidx]
      refine congrArg some (funext fun a => ?_)
      match a with
      | ⟨0, _⟩ => rfl
      | ⟨1, _⟩ =>
        have h1 : (i 1).val < 1 := (i 1).isLt
        exact Fin.ext (show (0 : Nat) = (i 1).val by omega)
      | ⟨2, _⟩ => rfl
      | ⟨3, _⟩ => rfl
      | ⟨4, _⟩ => rfl
    · intro j hj
      rw [lands4 wf idx hidx] at hj
      have e : emb4 j = i := Option.some.inj hj
      funext a
      match a with
      | ⟨0, _⟩ => exact Fin.ext (show (j 0).val = (i 0).val from congrArg Fin.val (congrFun e 0))
      | ⟨1, _⟩ => exact Fin.ext (show (j 1).val = (i 2).val from congrArg Fin.val (congrFun e 2))
      | ⟨2, _⟩ => exact Fin.ext (show (j 2).val = (i 3).val from congrArg Fin.val (congrFun e 3))
      | ⟨3, _⟩ => exact Fin.ext (show (j 3).val = (i 4).val from congrArg Fin.val (congrFun e 4))
  · rename_i h
    refine Cert.LibScatterSet.scatter_set_apply_of_none (d4 wf) x idx upd i fun j hj => h ?_
    rw [lands4 wf idx hidx] at hj
    have e : ((emb4 j) 3).val = (i 3).val := congrArg Fin.val (congrFun (Option.some.inj hj) 3)
    rw [← e]
    exact (j 2).isLt

end Four

end Cert.DeepFilter.Scatter
-- ==== Proof.KerWrite.lean ====
/-
  The host's write of the two result planes into the spectrogram, read at an index.

  After the region the host gives each plane `[32, 1000, 96]` a trailing unit axis, joins the two along it into
  `[32, 1000, 96, 2]` (real part first), and writes that over the first 96 bins of the spectrogram with a scatter whose
  start indices are the two zeros joined into a vector. At a spectrogram index whose bin is below 96 the result is the
  real plane's element where the channel is 0 and the imaginary plane's where it is 1; at a bin from 96 on it is the
  spectrogram's own element.
-/
import proofs.«117574_j30185030156317_2_alg».proof.Proof.Gen.KernelIdeal
import proofs.«117574_j30185030156317_2_alg».proof.Proof.ScatterForms
import Idealize.ShloMosaic.Lib.Pipeline.Value
import Idealize.ShloMosaic.Lib.ValueIdx
import Idealize.ShloMosaic.PureOps.Ideal

noncomputable section

namespace Cert.KernelIdeal.KerValue

open Cert.KernelIdeal Cert.KernelIdeal.Gen Idealize.ShloMosaic Idealize.ShloMosaic.ValueIdx

/-- The start indices: two zeros joined into a vector, zero at either position. -/
theorem start_zero (k : S2.Idx) :
    concatenate S2 0 [⟨S1, broadcastInDim S1 ![] bcast_S_S1 (constantI S_ 32 0#32)⟩,
      ⟨S1, broadcastInDim S1 ![] bcast_S_S1 (constantI S_ 32 0#32)⟩] concatenates_S1_S1_S2_d0 k = 0#32 := by
  have h2 : (k 0).val < 2 := (k 0).isLt
  by_cases hk : (k 0).val < 1
  · exact (concatenate_pair_apply_left 0 _ _ concatenates_S1_S1_S2_d0 k rfl (ix1 ⟨(k 0).val, hk⟩)
      (fun b => by match b with | ⟨0, _⟩ => rfl)).trans rfl
  · exact (concatenate_pair_apply_right 0 _ _ concatenates_S1_S1_S2_d0 k rfl rfl (ix1 ⟨(k 0).val - 1, by omega⟩)
      (fun b hb => absurd (Fin.ext (by match b with | ⟨0, _⟩ => rfl)) hb)
      (by show (k 0).val - 1 + 1 = (k 0).val; omega)).trans rfl

variable (re im : S32x1000x96.Idx → EReal)

/-- The two planes joined along a trailing channel axis: the real plane at channel 0, the imaginary at channel 1. -/
theorem joined_apply (b : Fin 32) (t : Fin 1000) (f : Fin 96) (ch : Fin 2) :
    concatenate S32x1000x96x2 3
        [⟨S32x1000x96x1, broadcastInDim S32x1000x96x1 ![0, 1, 2] bcast_S32x1000x96_S32x1000x96x1_0_1_2 re⟩,
          ⟨S32x1000x96x1, broadcastInDim S32x1000x96x1 ![0, 1, 2] bcast_S32x1000x96_S32x1000x96x1_0_1_2 im⟩]
        concatenates_S32x1000x96x1_S32x1000x96x1_S32x1000x96x2_d3 (ix4 b t f ch)
      = if ch.val = 0 then re (ix3 b t f) else im (ix3 b t f) := by
  have hch : ch.val < 2 := ch.isLt
  split
  · rename_i h0
    refine (concatenate_pair_apply_left 3 _ _ concatenates_S32x1000x96x1_S32x1000x96x1_S32x1000x96x2_d3 (ix4 b t f ch) rfl
      (ix4 b t f 0) (fun a => ?_)).trans ?_
    · match a with
      | ⟨0, _⟩ => rfl
      | ⟨1, _⟩ => rfl
      | ⟨2, _⟩ => rfl
      | ⟨3, _⟩ => show (0 : Nat) = ch.val; omega
    · exact broadcastInDim_apply _ bcast_S32x1000x96_S32x1000x96x1_0_1_2 re (ix4 b t f 0) (ix3 b t f) (fun a => by
        match a with
        | ⟨0, _⟩ => show b.val = if (32 : Nat) = 1 then 0 else b.val; rw [if_neg (by decide)]
        | ⟨1, _⟩ => show t.val = if (1000 : Nat) = 1 then 0 else t.val; rw [if_neg (by decide)]
        | ⟨2, _⟩ => show f.val = if (96 : Nat) = 1 then 0 else f.val; rw [if_neg (by decide)])
  · rename_i h0
    refine (concatenate_pair_apply_right 3 _ _ concatenates_S32x1000x96x1_S32x1000x96x1_S32x1000x96x2_d3 (ix4 b t f ch) rfl rfl
      (ix4 b t f 0) (fun a ha => ?_) ?_).trans ?_
    · match a with
      | ⟨0, _⟩ => rfl
      | ⟨1, _⟩ => rfl
      | ⟨2, _⟩ => rfl
      | ⟨3, _⟩ => exact absurd (Fin.ext rfl) ha
    · show (0 : Nat) + 1 = ch.val; omega
    · exact broadcastInDim_apply _ bcast_S32x1000x96_S32x1000x96x1_0_1_2 im (ix4 b t f 0) (ix3 b t f) (fun a => by
        match a with
        | ⟨0, _⟩ => show b.val = if (32 : Nat) = 1 then 0 else b.val; rw [if_neg (by decide)]
        | ⟨1, _⟩ => show t.val = if (1000 : Nat) = 1 then 0 else t.val; rw [if_neg (by decide)]
        | ⟨2, _⟩ => show f.val = if (96 : Nat) = 1 then 0 else f.val; rw [if_neg (by decide)])

/-- The write of the two planes over the first 96 bins of `x`. -/
def writeBack (x : S32x1x1000x481x2.Idx → EReal) : S32x1x1000x481x2.Idx → EReal :=
  Host.scatter scatter_S32x1x1000x481x2_S2_S32x1000x96x2_0123_1_13_0 (fun _ b => b) x
    (concatenate S2 0 [⟨S1, broadcastInDim S1 ![] bcast_S_S1 (constantI S_ 32 0#32)⟩,
      ⟨S1, broadcastInDim S1 ![] bcast_S_S1 (constantI S_ 32 0#32)⟩] concatenates_S1_S1_S2_d0)
    (concatenate S32x1000x96x2 3
      [⟨S32x1000x96x1, broadcastInDim S32x1000x96x1 ![0, 1, 2] bcast_S32x1000x96_S32x1000x96x1_0_1_2 re⟩,
        ⟨S32x1000x96x1, broadcastInDim S32x1000x96x1 ![0, 1, 2] bcast_S32x1000x96_S32x1000x96x1_0_1_2 im⟩]
      concatenates_S32x1000x96x1_S32x1000x96x1_S32x1000x96x2_d3)

/-- The write read at a spectrogram index. -/
theorem writeBack_apply (x : S32x1x1000x481x2.Idx → EReal) (i : S32x1x1000x481x2.Idx) :
    writeBack re im x i
      = if h : (i 3).val < 96 then
          (if (i 4).val = 0 then re (ix3 (i 0) (i 2) ⟨(i 3).val, h⟩) else im (ix3 (i 0) (i 2) ⟨(i 3).val, h⟩))
        else x i := by
  unfold writeBack
  refine (Cert.DeepFilter.Scatter.scatter4_apply _ x _ start_zero _ i).trans ?_
  split
  · rename_i h
    exact joined_apply re im (i 0) (i 2) ⟨(i 3).val, h⟩ (i 4)
  · rfl

end Cert.KernelIdeal.KerValue

end
-- ==== Proof.KerTail.lean ====
/-
  The kernel program's result is the specification.

  After the region the host writes the two result arrays — the specification's blended planes — over the first 96 bins of
  the spectrogram, which no operation of the program has changed. Read at an index that is the specification: the
  blended real or imaginary part below bin 96, the spectrogram's own element from bin 96 on. The program's run then
  ends with its result at the specification and its three arguments unchanged.
-/
import proofs.«117574_j30185030156317_2_alg».proof.Proof.KerFinal
import proofs.«117574_j30185030156317_2_alg».proof.Proof.KerWrite

noncomputable section

namespace Cert.KernelIdeal.KerValue

open Cert.KernelIdeal Cert.KernelIdeal.Gen Idealize.ShloMosaic Idealize.ShloMosaic.ValueIdx Idealize.ShloMosaic.TcCoe
open Idealize.SL.Sem Idealize.ShloMosaic.StableHlo Cert.DeepFilter

variable (m : (ℓ : Loc nD τ sig) → Buf (Elt Ideal) ℓ) (ρ : Dev nD → PrngReg) (c : Dev nD)

/-- The program's result after the host's last operations. -/
theorem tail_eq :
    (Pipeline.afterTail₀ cfgs (dats m) 0 (V0 m) [hostOps1] c main_v17 : S32x1x1000x481x2.Idx → EReal)
      = G (specA m c) (coefA m c) (gainA m c) := by
  unfold Pipeline.afterTail₀
  show StableHlo.after hostOps1 _ (Proc.devRef .tc main_v17) = _
  after_results
  have hx : (Pipeline.withArrays (cfgs 0).spec c (V0 m c) (fun w => (dats m 0 c).arrAt w (cfgs 0).N)
      (Proc.devRef .tc main_arg0) : S32x1x1000x481x2.Idx → EReal) = specA m c :=
    (Pipeline.withArrays_of_ne _ c (V0 m c) _ main_arg0
      (by exact (by decide : ∀ w, Pipeline.arrRef spec0 w ≠ main_arg0))).trans (V_main_arg0 m c)
  have hre : (Pipeline.withArrays (cfgs 0).spec c (V0 m c) (fun w => (dats m 0 c).arrAt w (cfgs 0).N)
      (Proc.devRef .tc main_v10_0) : S32x1000x96.Idx → EReal) = planeRe (specA m c) (coefA m c) (gainA m c) :=
    (Pipeline.withArrays_arr spec0 launch0.win.arr_inj c _ _ 5).trans (final_re m c)
  have him : (Pipeline.withArrays (cfgs 0).spec c (V0 m c) (fun w => (dats m 0 c).arrAt w (cfgs 0).N)
      (Proc.devRef .tc main_v10_1) : S32x1000x96.Idx → EReal) = planeIm (specA m c) (coefA m c) (gainA m c) :=
    (Pipeline.withArrays_arr spec0 launch0.win.arr_inj c _ _ 6).trans (final_im m c)
  rw [hx, hre, him]
  funext i
  exact writeBack_apply _ _ _ i

/-- Every weakly fair execution of the kernel program terminates with its result at the specification of its
    arguments, and the arguments unchanged. -/
theorem run : θ_run defs (onTc (τ := τ) (main (F := Ideal))) ⟨m, fun _ => 0, ρ⟩ fun r => ∀ c : Dev nD,
      r.2.mem ((c.tc : Thread nD τ).loc main_v17) = G (specA m c) (coefA m c) (gainA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v17 (Pipeline.mem_restRefs_of main_v17 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 4).trans (((dats m 0 c).arrAt_in 4 rfl _).trans ((A_eq m c 4).trans (V_main_arg2 m c)))⟩)
    (run_main m ρ)

end Cert.KernelIdeal.KerValue

end
-- ==== Proof.RefStages.lean ====
/-
  The reference as one function of its three argument arrays: the operations of the printed program composed in the
  program's order and vocabulary, cut into a few named stages — the padded time axis, a shifted window of it, the stack
  of the five windows, the coefficients with the tap axis first, the real and imaginary parts of either, the products
  tap by tap and their sums over the taps, the two sums joined on the last axis, the blend with the unfiltered bins, and
  the final write of the blended bins over the first 96 bins of the spectrogram. Definitions, at any float instance,
  and one remark on a window's start indices.
-/
import proofs.«117574_j30185030156317_2_alg».proof.Proof.Gen.ReferenceIdeal
import Idealize.ShloMosaic.PureOps

noncomputable section

namespace Cert.ReferenceIdeal.RefValue

open Cert.ReferenceIdeal Cert.ReferenceIdeal.Gen
open Idealize.ShloMosaic

variable {F : FTy → Type} [FloatOps F]

/-- The first 96 bins with the unit axis dropped, padded along time by two frames on either side with the integer
    zero converted. -/
def padded (x0 : (⟨S32x1x1000x481x2, .f32⟩ : BufTy).Contents (Elt F)) : (⟨S32x1004x96x2, .f32⟩ : BufTy).Contents (Elt F) :=
  pad S32x1004x96x2 ![0, 2, 0, 0] ![0, 2, 0, 0] ![0, 0, 0, 0]
    (shapeCast S32x1000x96x2
      (extractStridedSlice S32x1x1000x96x2 ![0, 0, 0, 0, 0] x0 slices_S32x1x1000x481x2_S32x1x1000x96x2_0_0_0_0_0)
      shapeCasts_S32x1x1000x96x2_S32x1000x96x2)
    (sitofp .f32 (constantI S_ 32 0#32)) pads_S32x1000x96x2_S32x1004x96x2_000_220_000_000 h_S_

/-- The window of 1000 frames of the padded time axis whose start indices are the words 0, s, 0, 0. -/
def window (x0 : (⟨S32x1x1000x481x2, .f32⟩ : BufTy).Contents (Elt F)) (s : BitVec 32) :
    (⟨S32x1000x96x2, .f32⟩ : BufTy).Contents (Elt F) :=
  Host.dynamicSlice S32x1000x96x2 (padded (F := F) x0)
    (fun k => ((![constantI S_ 32 0#32, constantI S_ 32 s, constantI S_ 32 0#32, constantI S_ 32 0#32] :
      Fin 4 → (⟨S_, .i32⟩ : BufTy).Contents (Elt F)) k (Shape.Idx.first h_S_)).toInt)
    sliceFits_S32x1004x96x2_S32x1000x96x2

/-- A window read with any family of start indices equal, index by index, to the words 0, s, 0, 0 read signed. -/
theorem window_of_start (x0 : (⟨S32x1x1000x481x2, .f32⟩ : BufTy).Contents (Elt F)) (s : BitVec 32) (start : Fin 4 → Int)
    (h : ∀ k : Fin 4, start k = ((![constantI S_ 32 0#32, constantI S_ 32 s, constantI S_ 32 0#32, constantI S_ 32 0#32] :
      Fin 4 → (⟨S_, .i32⟩ : BufTy).Contents (Elt F)) k (Shape.Idx.first h_S_)).toInt) :
    Host.dynamicSlice S32x1000x96x2 (padded (F := F) x0) start sliceFits_S32x1004x96x2_S32x1000x96x2 = window (F := F) x0 s := by
  unfold window
  exact congrArg (fun st => Host.dynamicSlice S32x1000x96x2 (padded (F := F) x0) st sliceFits_S32x1004x96x2_S32x1000x96x2) (funext h)

/-- A window with a unit axis inserted after the first axis. -/
def windowU (x0 : (⟨S32x1x1000x481x2, .f32⟩ : BufTy).Contents (Elt F)) (s : BitVec 32) :
    (⟨S32x1x1000x96x2, .f32⟩ : BufTy).Contents (Elt F) :=
  broadcastInDim S32x1x1000x96x2 ![0, 2, 3, 4] bcast_S32x1000x96x2_S32x1x1000x96x2_0_2_3_4 (window (F := F) x0 s)

/-- The five windows starting at positions 0 to 4, stacked along a new second axis. -/
def stack (x0 : (⟨S32x1x1000x481x2, .f32⟩ : BufTy).Contents (Elt F)) : (⟨S32x5x1000x96x2, .f32⟩ : BufTy).Contents (Elt F) :=
  concatenate S32x5x1000x96x2 1
    [⟨S32x1x1000x96x2, windowU (F := F) x0 0#32⟩, ⟨S32x1x1000x96x2, windowU (F := F) x0 1#32⟩,
     ⟨S32x1x1000x96x2, windowU (F := F) x0 2#32⟩, ⟨S32x1x1000x96x2, windowU (F := F) x0 3#32⟩,
     ⟨S32x1x1000x96x2, windowU (F := F) x0 4#32⟩]
    concatenates_S32x1x1000x96x2_S32x1x1000x96x2_S32x1x1000x96x2_S32x1x1000x96x2_S32x1x1000x96x2_S32x5x1000x96x2_d1

/-- The coefficients with the tap axis moved before the time axis. -/
def coefT (x1 : (⟨S32x1000x5x96x2, .f32⟩ : BufTy).Contents (Elt F)) : (⟨S32x5x1000x96x2, .f32⟩ : BufTy).Contents (Elt F) :=
  transpose S32x5x1000x96x2 [0, 2, 1, 3, 4] x1 transposes_S32x1000x5x96x2_S32x5x1000x96x2_0_2_1_3_4

/-- Entry 0 of the last axis (the real parts), that axis dropped. -/
def part0 (y : (⟨S32x5x1000x96x2, .f32⟩ : BufTy).Contents (Elt F)) : (⟨S32x5x1000x96, .f32⟩ : BufTy).Contents (Elt F) :=
  shapeCast S32x5x1000x96
    (extractStridedSlice S32x5x1000x96x1 ![0, 0, 0, 0, 0] y slices_S32x5x1000x96x2_S32x5x1000x96x1_0_0_0_0_0)
    shapeCasts_S32x5x1000x96x1_S32x5x1000x96

/-- Entry 1 of the last axis (the imaginary parts), that axis dropped. -/
def part1 (y : (⟨S32x5x1000x96x2, .f32⟩ : BufTy).Contents (Elt F)) : (⟨S32x5x1000x96, .f32⟩ : BufTy).Contents (Elt F) :=
  shapeCast S32x5x1000x96
    (extractStridedSlice S32x5x1000x96x1 ![0, 0, 0, 0, 1] y slices_S32x5x1000x96x2_S32x5x1000x96x1_0_0_0_0_1)
    shapeCasts_S32x5x1000x96x1_S32x5x1000x96

/-- The real parts of the complex products, tap by tap: re · re − im · im. -/
def tapsRe (x0 : (⟨S32x1x1000x481x2, .f32⟩ : BufTy).Contents (Elt F)) (x1 : (⟨S32x1000x5x96x2, .f32⟩ : BufTy).Contents (Elt F)) :
    (⟨S32x5x1000x96, .f32⟩ : BufTy).Contents (Elt F) :=
  subf (mulf (part0 (F := F) (stack (F := F) x0)) (part0 (F := F) (coefT (F := F) x1)))
    (mulf (part1 (F := F) (stack (F := F) x0)) (part1 (F := F) (coefT (F := F) x1)))

/-- The real part: the host's sum of the five taps onto the word zero. -/
def sumRe (x0 : (⟨S32x1x1000x481x2, .f32⟩ : BufTy).Contents (Elt F)) (x1 : (⟨S32x1000x5x96x2, .f32⟩ : BufTy).Contents (Elt F)) :
    (⟨S32x1000x96, .f32⟩ : BufTy).Contents (Elt F) :=
  Host.reduceAdd (tapsRe (F := F) x0 x1) (constant S_ .f32 0x00000000#32) reducesTo_S32x5x1000x96_S32x1000x96_d1 h_S_

/-- The imaginary parts of the complex products, tap by tap: im · re + re · im. -/
def tapsIm (x0 : (⟨S32x1x1000x481x2, .f32⟩ : BufTy).Contents (Elt F)) (x1 : (⟨S32x1000x5x96x2, .f32⟩ : BufTy).Contents (Elt F)) :
    (⟨S32x5x1000x96, .f32⟩ : BufTy).Contents (Elt F) :=
  addf (mulf (part1 (F := F) (stack (F := F) x0)) (part0 (F := F) (coefT (F := F) x1)))
    (mulf (part0 (F := F) (stack (F := F) x0)) (part1 (F := F) (coefT (F := F) x1)))

/-- The imaginary part: the host's sum of the five taps onto the word zero. -/
def sumIm (x0 : (⟨S32x1x1000x481x2, .f32⟩ : BufTy).Contents (Elt F)) (x1 : (⟨S32x1000x5x96x2, .f32⟩ : BufTy).Contents (Elt F)) :
    (⟨S32x1000x96, .f32⟩ : BufTy).Contents (Elt F) :=
  Host.reduceAdd (tapsIm (F := F) x0 x1) (constant S_ .f32 0x00000000#32) reducesTo_S32x5x1000x96_S32x1000x96_d1 h_S_

/-- The two sums, each with a unit last axis appended, joined along that axis. -/
def joined (x0 : (⟨S32x1x1000x481x2, .f32⟩ : BufTy).Contents (Elt F)) (x1 : (⟨S32x1000x5x96x2, .f32⟩ : BufTy).Contents (Elt F)) :
    (⟨S32x1000x96x2, .f32⟩ : BufTy).Contents (Elt F) :=
  concatenate S32x1000x96x2 3
    [⟨S32x1000x96x1, broadcastInDim S32x1000x96x1 ![0, 1, 2] bcast_S32x1000x96_S32x1000x96x1_0_1_2 (sumRe (F := F) x0 x1)⟩,
     ⟨S32x1000x96x1, broadcastInDim S32x1000x96x1 ![0, 1, 2] bcast_S32x1000x96_S32x1000x96x1_0_1_2 (sumIm (F := F) x0 x1)⟩]
    concatenates_S32x1000x96x1_S32x1000x96x1_S32x1000x96x2_d3

/-- The gain with two unit axes inserted. -/
def gain5 (x2 : (⟨S32x1000x1, .f32⟩ : BufTy).Contents (Elt F)) : (⟨S32x1x1000x1x1, .f32⟩ : BufTy).Contents (Elt F) :=
  shapeCast S32x1x1000x1x1 x2 shapeCasts_S32x1000x1_S32x1x1000x1x1

/-- The blend on the first 96 bins: filtered · gain + unfiltered · (one − gain). -/
def blended (x0 : (⟨S32x1x1000x481x2, .f32⟩ : BufTy).Contents (Elt F)) (x1 : (⟨S32x1000x5x96x2, .f32⟩ : BufTy).Contents (Elt F))
    (x2 : (⟨S32x1000x1, .f32⟩ : BufTy).Contents (Elt F)) : (⟨S32x1x1000x96x2, .f32⟩ : BufTy).Contents (Elt F) :=
  addf
    (mulf (broadcastInDim S32x1x1000x96x2 ![0, 2, 3, 4] bcast_S32x1000x96x2_S32x1x1000x96x2_0_2_3_4 (joined (F := F) x0 x1))
      (broadcastInDim S32x1x1000x96x2 ![0, 1, 2, 3, 4] bcast_S32x1x1000x1x1_S32x1x1000x96x2_0_1_2_3_4 (gain5 (F := F) x2)))
    (mulf (extractStridedSlice S32x1x1000x96x2 ![0, 0, 0, 0, 0] x0 slices_S32x1x1000x481x2_S32x1x1000x96x2_0_0_0_0_0)
      (broadcastInDim S32x1x1000x96x2 ![0, 1, 2, 3, 4] bcast_S32x1x1000x1x1_S32x1x1000x96x2_0_1_2_3_4
        (subf (broadcastInDim S32x1x1000x1x1 ![] bcast_S_S32x1x1000x1x1 (constant S_ .f32 0x3F800000#32)) (gain5 (F := F) x2))))

/-- The reference's result: the blend written over the first 96 bins of the spectrogram at the index zero. -/
def refResult (x0 : (⟨S32x1x1000x481x2, .f32⟩ : BufTy).Contents (Elt F)) (x1 : (⟨S32x1000x5x96x2, .f32⟩ : BufTy).Contents (Elt F))
    (x2 : (⟨S32x1000x1, .f32⟩ : BufTy).Contents (Elt F)) : (⟨S32x1x1000x481x2, .f32⟩ : BufTy).Contents (Elt F) :=
  Host.scatter scatter_S32x1x1000x481x2_S1_S32x1x1000x96x2_01234_n_3_0 (fun _ b => b) x0
    (broadcastInDim S1 ![] bcast_S_S1 (constantI S_ 32 0#32)) (blended (F := F) x0 x1 x2)

end Cert.ReferenceIdeal.RefValue

end
-- ==== Proof.LibRunFamilies.lean ====
/-
  Reading a straight line of host operations through operations that take a literal family of operands.

  The fold of a host program's operations over the launch contents is read back one operation at a time: an
  operation's result at its own buffer is its function of its operands' contents, and any other buffer is what it was.
  Two kinds of operation hand their function a FAMILY of operands: an operation with index operands (one start index
  per axis), and a join of several pieces. Read generically, the family appears under a binder, `fun k => contents of
  buffer k`, where no further result can be read. Here the family is a literal one, and its contents are stated one
  buffer at a time, so the reading goes on through it:
  * `unaryIndexed4_result'`: an operation with four index operands;
  * `cat2`, `cat5`: a join of two or of five pieces with the pieces as plain arguments — the joined pieces otherwise
    sit in a list of pairs of a shape and an array of that shape, inside which a rewriting pass does not reach —,
    each definitionally the join itself (`cat2_intro`, `cat5_intro`).
  Program-free: nothing here mentions a particular program.
-/
import Idealize.ShloMosaic.Lib.StableHlo.Run

noncomputable section

namespace Cert.LibRunFamilies

open Idealize.ShloMosaic Idealize.ShloMosaic.TcCoe Idealize.SL.Sem Idealize.ShloMosaic.StableHlo

/-! ## An operation over a literal family of operands, each operand's contents at its own buffer -/

section Families
variable {sig : RefSig} {τ : Topo} {Val : EltTy → Type} {a y i0 i1 i2 i3 : Ref sig .tc}

/-- An operation with four index operands: the index family's contents, one buffer at a time. -/
theorem unaryIndexed4_result' (T : BufTy)
    (f : a.ty.Contents Val → (Fin 4 → T.Contents Val) → y.ty.Contents Val) (hT ha hix hy) (F : Valuation τ sig Val) :
    (unaryIndexed (τ := τ) a ![i0, i1, i2, i3] T y f hT ha hix hy).result F (no_index (Proc.devRef .tc y))
      = f (F (Proc.devRef .tc a))
          (Fin.cons (cast (congrArg (fun U : BufTy => U.Contents Val) (hT 0)) (F (Proc.devRef .tc i0)))
            (Fin.cons (cast (congrArg (fun U : BufTy => U.Contents Val) (hT 1)) (F (Proc.devRef .tc i1)))
              (Fin.cons (cast (congrArg (fun U : BufTy => U.Contents Val) (hT 2)) (F (Proc.devRef .tc i2)))
                (Fin.cons (cast (congrArg (fun U : BufTy => U.Contents Val) (hT 3)) (F (Proc.devRef .tc i3)))
                  (fun i => i.elim0))))) := by
  rw [unaryIndexed_result']; congr 1; funext k; fin_cases k <;> rfl

end Families

/-! ## A join of two or of five pieces, its pieces as plain arguments

The joined pieces sit in a list of pairs of a shape and an array of that shape; stated with the arrays as arguments of
their own, the same join lets each piece be rewritten where it stands. -/

section Joins
variable {α : Type}

/-- Two pieces joined along an axis. -/
def cat2 (t : Shape) (ax : Fin t.rank) (s₁ s₂ : Shape) (X₁ : s₁.Idx → α) (X₂ : s₂.Idx → α)
    (h : Shape.Concatenates [s₁, s₂] t ax) : t.Idx → α :=
  concatenate t ax [⟨s₁, X₁⟩, ⟨s₂, X₂⟩] h

theorem cat2_intro (t : Shape) (ax : Fin t.rank) (s₁ s₂ : Shape) (X₁ : s₁.Idx → α) (X₂ : s₂.Idx → α)
    (h : Shape.Concatenates [s₁, s₂] t ax) :
    concatenate t ax [⟨s₁, X₁⟩, ⟨s₂, X₂⟩] h = cat2 t ax s₁ s₂ X₁ X₂ h := rfl

/-- Five pieces joined along an axis. -/
def cat5 (t : Shape) (ax : Fin t.rank) (s₁ s₂ s₃ s₄ s₅ : Shape) (X₁ : s₁.Idx → α) (X₂ : s₂.Idx → α) (X₃ : s₃.Idx → α)
    (X₄ : s₄.Idx → α) (X₅ : s₅.Idx → α) (h : Shape.Concatenates [s₁, s₂, s₃, s₄, s₅] t ax) : t.Idx → α :=
  concatenate t ax [⟨s₁, X₁⟩, ⟨s₂, X₂⟩, ⟨s₃, X₃⟩, ⟨s₄, X₄⟩, ⟨s₅, X₅⟩] h

theorem cat5_intro (t : Shape) (ax : Fin t.rank) (s₁ s₂ s₃ s₄ s₅ : Shape) (X₁ : s₁.Idx → α) (X₂ : s₂.Idx → α)
    (X₃ : s₃.Idx → α) (X₄ : s₄.Idx → α) (X₅ : s₅.Idx → α) (h : Shape.Concatenates [s₁, s₂, s₃, s₄, s₅] t ax) :
    concatenate t ax [⟨s₁, X₁⟩, ⟨s₂, X₂⟩, ⟨s₃, X₃⟩, ⟨s₄, X₄⟩, ⟨s₅, X₅⟩] h = cat5 t ax s₁ s₂ s₃ s₄ s₅ X₁ X₂ X₃ X₄ X₅ h := rfl

end Joins

end Cert.LibRunFamilies

end
-- ==== Proof.RefRun.lean ====
/-
  The reference program's run, read back as the contents of its result.

  The reference is a straight line of 80 host operations. Run from any memory it terminates with every buffer at the
  fold of the operations' results over the launch contents; each operation writes one buffer, once, so the result
  buffer holds the operations' composed term of the three arguments, and no operation writes an argument.
  Two operations take a literal family of operands — the five windows joined into the stack, and each window's four
  start indices —; their results are read with each operand's contents at its own buffer (the general lemmas are in
  LibRunFamilies.lean), so that the reading can go on through them.
-/
import proofs.«117574_j30185030156317_2_alg».proof.Proof.Gen.ReferenceIdeal
import Idealize.ShloMosaic.Lib.StableHlo.Run
import Idealize.ShloMosaic.PureOps.Ideal
import proofs.«117574_j30185030156317_2_alg».proof.Proof.RefStages
import proofs.«117574_j30185030156317_2_alg».proof.Proof.LibRunFamilies

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.LibRunFamilies

variable {F : FTy → Type} [FloatOps F]

/-! ## The stack of the five windows, each window's contents at its own buffer -/

/-- The operation joining the five windows, read at its result: the join of the five windows' buffers. -/
theorem stack_result' (hxs hy) (W : Valuation τ sig (Elt F)) :
    (nary ![main_v8, main_v9, main_v10, main_v11, main_v12] main_v13 (fun u => concatenate S32x5x1000x96x2 1 [⟨S32x1x1000x96x2, u 0⟩, ⟨S32x1x1000x96x2, u 1⟩, ⟨S32x1x1000x96x2, u 2⟩, ⟨S32x1x1000x96x2, u 3⟩, ⟨S32x1x1000x96x2, u 4⟩] concatenates_S32x1x1000x96x2_S32x1x1000x96x2_S32x1x1000x96x2_S32x1x1000x96x2_S32x1x1000x96x2_S32x5x1000x96x2_d1) hxs hy).result W (no_index (Proc.devRef .tc main_v13))
      = cat5 S32x5x1000x96x2 1 S32x1x1000x96x2 S32x1x1000x96x2 S32x1x1000x96x2 S32x1x1000x96x2 S32x1x1000x96x2
          (W (Proc.devRef .tc main_v8)) (W (Proc.devRef .tc main_v9)) (W (Proc.devRef .tc main_v10))
          (W (Proc.devRef .tc main_v11)) (W (Proc.devRef .tc main_v12))
          concatenates_S32x1x1000x96x2_S32x1x1000x96x2_S32x1x1000x96x2_S32x1x1000x96x2_S32x1x1000x96x2_S32x5x1000x96x2_d1 := by
  rw [nary_result']
  rfl

/-! ## The program as a list of operations -/

/-- The reference's 80 operations, in order (the padding function's two operations in its call's place). -/
abbrev ops : List (HloOp τ sig (Elt F)) :=
  [ unary main_arg0 main_v0 ((extractStridedSlice S32x1x1000x96x2 ![0, 0, 0, 0, 0] · slices_S32x1x1000x481x2_S32x1x1000x96x2_0_0_0_0_0) : (⟨S32x1x1000x481x2, .f32⟩ : BufTy).Contents (Elt F) → (⟨S32x1x1000x96x2, .f32⟩ : BufTy).Contents (Elt F)),
    reshape main_v0 main_v1 rfl shapeCasts_S32x1x1000x96x2_S32x1000x96x2,
    nullary main_c (constantI S_ 32 0#32),
    TRef.unary (TRef.of (T := ⟨S_, .i32⟩) main_c) (TRef.of (T := ⟨S_, .f32⟩) main_call0_v0) (sitofp .f32),
    TRef.binary (TRef.of (T := ⟨S32x1000x96x2, .f32⟩) main_v1) (TRef.of (T := ⟨S_, .f32⟩) main_call0_v0) (TRef.of (T := ⟨S32x1004x96x2, .f32⟩) main_v2) (fun x v => pad S32x1004x96x2 ![0, 2, 0, 0] ![0, 2, 0, 0] ![0, 0, 0, 0] x v pads_S32x1000x96x2_S32x1004x96x2_000_220_000_000 h_S_),
    nullary main_c_0 (constantI S_ 32 0#32),
    nullary main_c_1 (constantI S_ 32 0#32),
    nullary main_c_2 (constantI S_ 32 0#32),
    nullary main_c_3 (constantI S_ 32 0#32),
    unaryIndexed main_v2 ![main_c_0, main_c_1, main_c_2, main_c_3] ⟨S_, .i32⟩ main_v3 ((fun x i => Host.dynamicSlice S32x1000x96x2 x (fun k => (i k (Shape.Idx.first h_S_)).toInt) sliceFits_S32x1004x96x2_S32x1000x96x2) : (⟨S32x1004x96x2, .f32⟩ : BufTy).Contents (Elt F) → (Fin 4 → (⟨S_, .i32⟩ : BufTy).Contents (Elt F)) → (⟨S32x1000x96x2, .f32⟩ : BufTy).Contents (Elt F)),
    nullary main_c_4 (constantI S_ 32 0#32),
    nullary main_c_5 (constantI S_ 32 1#32),
    nullary main_c_6 (constantI S_ 32 0#32),
    nullary main_c_7 (constantI S_ 32 0#32),
    unaryIndexed main_v2 ![main_c_4, main_c_5, main_c_6, main_c_7] ⟨S_, .i32⟩ main_v4 ((fun x i => Host.dynamicSlice S32x1000x96x2 x (fun k => (i k (Shape.Idx.first h_S_)).toInt) sliceFits_S32x1004x96x2_S32x1000x96x2) : (⟨S32x1004x96x2, .f32⟩ : BufTy).Contents (Elt F) → (Fin 4 → (⟨S_, .i32⟩ : BufTy).Contents (Elt F)) → (⟨S32x1000x96x2, .f32⟩ : BufTy).Contents (Elt F)),
    nullary main_c_8 (constantI S_ 32 0#32),
    nullary main_c_9 (constantI S_ 32 2#32),
    nullary main_c_10 (constantI S_ 32 0#32),
    nullary main_c_11 (constantI S_ 32 0#32),
    unaryIndexed main_v2 ![main_c_8, main_c_9, main_c_10, main_c_11] ⟨S_, .i32⟩ main_v5 ((fun x i => Host.dynamicSlice S32x1000x96x2 x (fun k => (i k (Shape.Idx.first h_S_)).toInt) sliceFits_S32x1004x96x2_S32x1000x96x2) : (⟨S32x1004x96x2, .f32⟩ : BufTy).Contents (Elt F) → (Fin 4 → (⟨S_, .i32⟩ : BufTy).Contents (Elt F)) → (⟨S32x1000x96x2, .f32⟩ : BufTy).Contents (Elt F)),
    nullary main_c_12 (constantI S_ 32 0#32),
    nullary main_c_13 (constantI S_ 32 3#32),
    nullary main_c_14 (constantI S_ 32 0#32),
    nullary main_c_15 (constantI S_ 32 0#32),
    unaryIndexed main_v2 ![main_c_12, main_c_13, main_c_14, main_c_15] ⟨S_, .i32⟩ main_v6 ((fun x i => Host.dynamicSlice S32x1000x96x2 x (fun k => (i k (Shape.Idx.first h_S_)).toInt) sliceFits_S32x1004x96x2_S32x1000x96x2) : (⟨S32x1004x96x2, .f32⟩ : BufTy).Contents (Elt F) → (Fin 4 → (⟨S_, .i32⟩ : BufTy).Contents (Elt F)) → (⟨S32x1000x96x2, .f32⟩ : BufTy).Contents (Elt F)),
    nullary main_c_16 (constantI S_ 32 0#32),
    nullary main_c_17 (constantI S_ 32 4#32),
    nullary main_c_18 (constantI S_ 32 0#32),
    nullary main_c_19 (constantI S_ 32 0#32),
    unaryIndexed main_v2 ![main_c_16, main_c_17, main_c_18, main_c_19] ⟨S_, .i32⟩ main_v7 ((fun x i => Host.dynamicSlice S32x1000x96x2 x (fun k => (i k (Shape.Idx.first h_S_)).toInt) sliceFits_S32x1004x96x2_S32x1000x96x2) : (⟨S32x1004x96x2, .f32⟩ : BufTy).Contents (Elt F) → (Fin 4 → (⟨S_, .i32⟩ : BufTy).Contents (Elt F)) → (⟨S32x1000x96x2, .f32⟩ : BufTy).Contents (Elt F)),
    unary main_v3 main_v8 (broadcastInDim S32x1x1000x96x2 ![0, 2, 3, 4] bcast_S32x1000x96x2_S32x1x1000x96x2_0_2_3_4 : (⟨S32x1000x96x2, .f32⟩ : BufTy).Contents (Elt F) → (⟨S32x1x1000x96x2, .f32⟩ : BufTy).Contents (Elt F)),
    unary main_v4 main_v9 (broadcastInDim S32x1x1000x96x2 ![0, 2, 3, 4] bcast_S32x1000x96x2_S32x1x1000x96x2_0_2_3_4 : (⟨S32x1000x96x2, .f32⟩ : BufTy).Contents (Elt F) → (⟨S32x1x1000x96x2, .f32⟩ : BufTy).Contents (Elt F)),
    unary main_v5 main_v10 (broadcastInDim S32x1x1000x96x2 ![0, 2, 3, 4] bcast_S32x1000x96x2_S32x1x1000x96x2_0_2_3_4 : (⟨S32x1000x96x2, .f32⟩ : BufTy).Contents (Elt F) → (⟨S32x1x1000x96x2, .f32⟩ : BufTy).Contents (Elt F)),
    unary main_v6 main_v11 (broadcastInDim S32x1x1000x96x2 ![0, 2, 3, 4] bcast_S32x1000x96x2_S32x1x1000x96x2_0_2_3_4 : (⟨S32x1000x96x2, .f32⟩ : BufTy).Contents (Elt F) → (⟨S32x1x1000x96x2, .f32⟩ : BufTy).Contents (Elt F)),
    unary main_v7 main_v12 (broadcastInDim S32x1x1000x96x2 ![0, 2, 3, 4] bcast_S32x1000x96x2_S32x1x1000x96x2_0_2_3_4 : (⟨S32x1000x96x2, .f32⟩ : BufTy).Contents (Elt F) → (⟨S32x1x1000x96x2, .f32⟩ : BufTy).Contents (Elt F)),
    nary ![main_v8, main_v9, main_v10, main_v11, main_v12] main_v13 (fun u => concatenate S32x5x1000x96x2 1 [⟨S32x1x1000x96x2, u 0⟩, ⟨S32x1x1000x96x2, u 1⟩, ⟨S32x1x1000x96x2, u 2⟩, ⟨S32x1x1000x96x2, u 3⟩, ⟨S32x1x1000x96x2, u 4⟩] concatenates_S32x1x1000x96x2_S32x1x1000x96x2_S32x1x1000x96x2_S32x1x1000x96x2_S32x1x1000x96x2_S32x5x1000x96x2_d1),
    unary main_arg1 main_v14 ((transpose S32x5x1000x96x2 [0, 2, 1, 3, 4] · transposes_S32x1000x5x96x2_S32x5x1000x96x2_0_2_1_3_4) : (⟨S32x1000x5x96x2, .f32⟩ : BufTy).Contents (Elt F) → (⟨S32x5x1000x96x2, .f32⟩ : BufTy).Contents (Elt F)),
    unary main_v13 main_v15 ((extractStridedSlice S32x5x1000x96x1 ![0, 0, 0, 0, 0] · slices_S32x5x1000x96x2_S32x5x1000x96x1_0_0_0_0_0) : (⟨S32x5x1000x96x2, .f32⟩ : BufTy).Contents (Elt F) → (⟨S32x5x1000x96x1, .f32⟩ : BufTy).Contents (Elt F)),
    reshape main_v15 main_v16 rfl shapeCasts_S32x5x1000x96x1_S32x5x1000x96,
    unary main_v14 main_v17 ((extractStridedSlice S32x5x1000x96x1 ![0, 0, 0, 0, 0] · slices_S32x5x1000x96x2_S32x5x1000x96x1_0_0_0_0_0) : (⟨S32x5x1000x96x2, .f32⟩ : BufTy).Contents (Elt F) → (⟨S32x5x1000x96x1, .f32⟩ : BufTy).Contents (Elt F)),
    reshape main_v17 main_v18 rfl shapeCasts_S32x5x1000x96x1_S32x5x1000x96,
    binary main_v16 main_v18 main_v19 (mulf : (⟨S32x5x1000x96, .f32⟩ : BufTy).Contents (Elt F) → (⟨S32x5x1000x96, .f32⟩ : BufTy).Contents (Elt F) → (⟨S32x5x1000x96, .f32⟩ : BufTy).Contents (Elt F)),
    unary main_v13 main_v20 ((extractStridedSlice S32x5x1000x96x1 ![0, 0, 0, 0, 1] · slices_S32x5x1000x96x2_S32x5x1000x96x1_0_0_0_0_1) : (⟨S32x5x1000x96x2, .f32⟩ : BufTy).Contents (Elt F) → (⟨S32x5x1000x96x1, .f32⟩ : BufTy).Contents (Elt F)),
    reshape main_v20 main_v21 rfl shapeCasts_S32x5x1000x96x1_S32x5x1000x96,
    unary main_v14 main_v22 ((extractStridedSlice S32x5x1000x96x1 ![0, 0, 0, 0, 1] · slices_S32x5x1000x96x2_S32x5x1000x96x1_0_0_0_0_1) : (⟨S32x5x1000x96x2, .f32⟩ : BufTy).Contents (Elt F) → (⟨S32x5x1000x96x1, .f32⟩ : BufTy).Contents (Elt F)),
    reshape main_v22 main_v23 rfl shapeCasts_S32x5x1000x96x1_S32x5x1000x96,
    binary main_v21 main_v23 main_v24 (mulf : (⟨S32x5x1000x96, .f32⟩ : BufTy).Contents (Elt F) → (⟨S32x5x1000x96, .f32⟩ : BufTy).Contents (Elt F) → (⟨S32x5x1000x96, .f32⟩ : BufTy).Contents (Elt F)),
    binary main_v19 main_v24 main_v25 (subf : (⟨S32x5x1000x96, .f32⟩ : BufTy).Contents (Elt F) → (⟨S32x5x1000x96, .f32⟩ : BufTy).Contents (Elt F) → (⟨S32x5x1000x96, .f32⟩ : BufTy).Contents (Elt F)),
    nullary main_cst (constant S_ .f32 0x00000000#32),
    binary main_v25 main_cst main_v26 ((fun x v => Host.reduceAdd x v reducesTo_S32x5x1000x96_S32x1000x96_d1 h_S_) : (⟨S32x5x1000x96, .f32⟩ : BufTy).Contents (Elt F) → (⟨S_, .f32⟩ : BufTy).Contents (Elt F) → (⟨S32x1000x96, .f32⟩ : BufTy).Contents (Elt F)),
    unary main_v13 main_v27 ((extractStridedSlice S32x5x1000x96x1 ![0, 0, 0, 0, 1] · slices_S32x5x1000x96x2_S32x5x1000x96x1_0_0_0_0_1) : (⟨S32x5x1000x96x2, .f32⟩ : BufTy).Contents (Elt F) → (⟨S32x5x1000x96x1, .f32⟩ : BufTy).Contents (Elt F)),
    reshape main_v27 main_v28 rfl shapeCasts_S32x5x1000x96x1_S32x5x1000x96,
    unary main_v14 main_v29 ((extractStridedSlice S32x5x1000x96x1 ![0, 0, 0, 0, 0] · slices_S32x5x1000x96x2_S32x5x1000x96x1_0_0_0_0_0) : (⟨S32x5x1000x96x2, .f32⟩ : BufTy).Contents (Elt F) → (⟨S32x5x1000x96x1, .f32⟩ : BufTy).Contents (Elt F)),
    reshape main_v29 main_v30 rfl shapeCasts_S32x5x1000x96x1_S32x5x1000x96,
    binary main_v28 main_v30 main_v31 (mulf : (⟨S32x5x1000x96, .f32⟩ : BufTy).Contents (Elt F) → (⟨S32x5x1000x96, .f32⟩ : BufTy).Contents (Elt F) → (⟨S32x5x1000x96, .f32⟩ : BufTy).Contents (Elt F)),
    unary main_v13 main_v32 ((extractStridedSlice S32x5x1000x96x1 ![0, 0, 0, 0, 0] · slices_S32x5x1000x96x2_S32x5x1000x96x1_0_0_0_0_0) : (⟨S32x5x1000x96x2, .f32⟩ : BufTy).Contents (Elt F) → (⟨S32x5x1000x96x1, .f32⟩ : BufTy).Contents (Elt F)),
    reshape main_v32 main_v33 rfl shapeCasts_S32x5x1000x96x1_S32x5x1000x96,
    unary main_v14 main_v34 ((extractStridedSlice S32x5x1000x96x1 ![0, 0, 0, 0, 1] · slices_S32x5x1000x96x2_S32x5x1000x96x1_0_0_0_0_1) : (⟨S32x5x1000x96x2, .f32⟩ : BufTy).Contents (Elt F) → (⟨S32x5x1000x96x1, .f32⟩ : BufTy).Contents (Elt F)),
    reshape main_v34 main_v35 rfl shapeCasts_S32x5x1000x96x1_S32x5x1000x96,
    binary main_v33 main_v35 main_v36 (mulf : (⟨S32x5x1000x96, .f32⟩ : BufTy).Contents (Elt F) → (⟨S32x5x1000x96, .f32⟩ : BufTy).Contents (Elt F) → (⟨S32x5x1000x96, .f32⟩ : BufTy).Contents (Elt F)),
    binary main_v31 main_v36 main_v37 (addf : (⟨S32x5x1000x96, .f32⟩ : BufTy).Contents (Elt F) → (⟨S32x5x1000x96, .f32⟩ : BufTy).Contents (Elt F) → (⟨S32x5x1000x96, .f32⟩ : BufTy).Contents (Elt F)),
    nullary main_cst_20 (constant S_ .f32 0x00000000#32),
    binary main_v37 main_cst_20 main_v38 ((fun x v => Host.reduceAdd x v reducesTo_S32x5x1000x96_S32x1000x96_d1 h_S_) : (⟨S32x5x1000x96, .f32⟩ : BufTy).Contents (Elt F) → (⟨S_, .f32⟩ : BufTy).Contents (Elt F) → (⟨S32x1000x96, .f32⟩ : BufTy).Contents (Elt F)),
    unary main_v26 main_v39 (broadcastInDim S32x1000x96x1 ![0, 1, 2] bcast_S32x1000x96_S32x1000x96x1_0_1_2 : (⟨S32x1000x96, .f32⟩ : BufTy).Contents (Elt F) → (⟨S32x1000x96x1, .f32⟩ : BufTy).Contents (Elt F)),
    unary main_v38 main_v40 (broadcastInDim S32x1000x96x1 ![0, 1, 2] bcast_S32x1000x96_S32x1000x96x1_0_1_2 : (⟨S32x1000x96, .f32⟩ : BufTy).Contents (Elt F) → (⟨S32x1000x96x1, .f32⟩ : BufTy).Contents (Elt F)),
    binary main_v39 main_v40 main_v41 ((fun a b => concatenate S32x1000x96x2 3 [⟨S32x1000x96x1, a⟩, ⟨S32x1000x96x1, b⟩] concatenates_S32x1000x96x1_S32x1000x96x1_S32x1000x96x2_d3) : (⟨S32x1000x96x1, .f32⟩ : BufTy).Contents (Elt F) → (⟨S32x1000x96x1, .f32⟩ : BufTy).Contents (Elt F) → (⟨S32x1000x96x2, .f32⟩ : BufTy).Contents (Elt F)),
    unary main_v41 main_v42 (broadcastInDim S32x1x1000x96x2 ![0, 2, 3, 4] bcast_S32x1000x96x2_S32x1x1000x96x2_0_2_3_4 : (⟨S32x1000x96x2, .f32⟩ : BufTy).Contents (Elt F) → (⟨S32x1x1000x96x2, .f32⟩ : BufTy).Contents (Elt F)),
    reshape main_arg2 main_v43 rfl shapeCasts_S32x1000x1_S32x1x1000x1x1,
    unary main_v43 main_v44 (broadcastInDim S32x1x1000x96x2 ![0, 1, 2, 3, 4] bcast_S32x1x1000x1x1_S32x1x1000x96x2_0_1_2_3_4 : (⟨S32x1x1000x1x1, .f32⟩ : BufTy).Contents (Elt F) → (⟨S32x1x1000x96x2, .f32⟩ : BufTy).Contents (Elt F)),
    binary main_v42 main_v44 main_v45 (mulf : (⟨S32x1x1000x96x2, .f32⟩ : BufTy).Contents (Elt F) → (⟨S32x1x1000x96x2, .f32⟩ : BufTy).Contents (Elt F) → (⟨S32x1x1000x96x2, .f32⟩ : BufTy).Contents (Elt F)),
    unary main_arg0 main_v46 ((extractStridedSlice S32x1x1000x96x2 ![0, 0, 0, 0, 0] · slices_S32x1x1000x481x2_S32x1x1000x96x2_0_0_0_0_0) : (⟨S32x1x1000x481x2, .f32⟩ : BufTy).Contents (Elt F) → (⟨S32x1x1000x96x2, .f32⟩ : BufTy).Contents (Elt F)),
    nullary main_cst_21 (constant S_ .f32 0x3F800000#32),
    unary main_cst_21 main_v47 (broadcastInDim S32x1x1000x1x1 ![] bcast_S_S32x1x1000x1x1 : (⟨S_, .f32⟩ : BufTy).Contents (Elt F) → (⟨S32x1x1000x1x1, .f32⟩ : BufTy).Contents (Elt F)),
    binary main_v47 main_v43 main_v48 (subf : (⟨S32x1x1000x1x1, .f32⟩ : BufTy).Contents (Elt F) → (⟨S32x1x1000x1x1, .f32⟩ : BufTy).Contents (Elt F) → (⟨S32x1x1000x1x1, .f32⟩ : BufTy).Contents (Elt F)),
    unary main_v48 main_v49 (broadcastInDim S32x1x1000x96x2 ![0, 1, 2, 3, 4] bcast_S32x1x1000x1x1_S32x1x1000x96x2_0_1_2_3_4 : (⟨S32x1x1000x1x1, .f32⟩ : BufTy).Contents (Elt F) → (⟨S32x1x1000x96x2, .f32⟩ : BufTy).Contents (Elt F)),
    binary main_v46 main_v49 main_v50 (mulf : (⟨S32x1x1000x96x2, .f32⟩ : BufTy).Contents (Elt F) → (⟨S32x1x1000x96x2, .f32⟩ : BufTy).Contents (Elt F) → (⟨S32x1x1000x96x2, .f32⟩ : BufTy).Contents (Elt F)),
    binary main_v45 main_v50 main_v51 (addf : (⟨S32x1x1000x96x2, .f32⟩ : BufTy).Contents (Elt F) → (⟨S32x1x1000x96x2, .f32⟩ : BufTy).Contents (Elt F) → (⟨S32x1x1000x96x2, .f32⟩ : BufTy).Contents (Elt F)),
    nullary main_c_22 (constantI S_ 32 0#32),
    unary main_c_22 main_v52 (broadcastInDim S1 ![] bcast_S_S1 : (⟨S_, .i32⟩ : BufTy).Contents (Elt F) → (⟨S1, .i32⟩ : BufTy).Contents (Elt F)),
    ternary main_arg0 main_v52 main_v51 main_v53 ((fun x i u => Host.scatter scatter_S32x1x1000x481x2_S1_S32x1x1000x96x2_01234_n_3_0 (fun _ b => b) x i u) : (⟨S32x1x1000x481x2, .f32⟩ : BufTy).Contents (Elt F) → (⟨S1, .i32⟩ : BufTy).Contents (Elt F) → (⟨S32x1x1000x96x2, .f32⟩ : BufTy).Contents (Elt F) → (⟨S32x1x1000x481x2, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., nullary_bufs_sub .., unary_bufs_sub .., binary_bufs_sub .., nullary_bufs_sub .., nullary_bufs_sub .., nullary_bufs_sub .., nullary_bufs_sub .., unaryIndexed_bufs_sub .., nullary_bufs_sub .., nullary_bufs_sub .., nullary_bufs_sub .., nullary_bufs_sub .., unaryIndexed_bufs_sub .., nullary_bufs_sub .., nullary_bufs_sub .., nullary_bufs_sub .., nullary_bufs_sub .., unaryIndexed_bufs_sub .., nullary_bufs_sub .., nullary_bufs_sub .., nullary_bufs_sub .., nullary_bufs_sub .., unaryIndexed_bufs_sub .., nullary_bufs_sub .., nullary_bufs_sub .., nullary_bufs_sub .., nullary_bufs_sub .., unaryIndexed_bufs_sub .., unary_bufs_sub .., unary_bufs_sub .., unary_bufs_sub .., unary_bufs_sub .., unary_bufs_sub .., nary_bufs_sub .., unary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., nullary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., nullary_bufs_sub .., binary_bufs_sub .., unary_bufs_sub .., unary_bufs_sub .., binary_bufs_sub .., unary_bufs_sub .., reshape_bufs_sub .., unary_bufs_sub .., binary_bufs_sub .., unary_bufs_sub .., nullary_bufs_sub .., unary_bufs_sub .., binary_bufs_sub .., unary_bufs_sub .., binary_bufs_sub .., binary_bufs_sub .., nullary_bufs_sub .., unary_bufs_sub .., ternary_bufs_sub ..⟩

/-! ## The result buffer after the 80 operations -/

set_option maxHeartbeats 16000000 in
set_option maxRecDepth 16384 in
/-- The result buffer holds the operations' composed term of the three arguments: the stages of the reference. -/
theorem result_eq (W : Valuation τ sig (Elt F)) :
    after (ops (F := F)) W (Proc.devRef .tc main_v53)
      = Cert.ReferenceIdeal.RefValue.refResult (F := F) (W (Proc.devRef .tc main_arg0)) (W (Proc.devRef .tc main_arg1))
          (W (Proc.devRef .tc main_arg2)) := by
  simp (disch := decide) only [after_cons, after_nil,
      nullary_result', unary_result', binary_result', ternary_result', reshape_result', stack_result', unaryIndexed4_result',
      cat2_intro,
      nullary_result_ne', unary_result_ne', binary_result_ne', ternary_result_ne', reshape_result_ne',
      nary_result_ne', unaryIndexed_result_ne']
  rfl

set_option maxHeartbeats 4000000 in
/-- No operation writes the spectrogram. -/
theorem kept_arg0 (W : Valuation τ sig (Elt F)) :
    after (ops (F := F)) W (Proc.devRef .tc main_arg0) = W (Proc.devRef .tc main_arg0) := by
  after_results_simp

set_option maxHeartbeats 4000000 in
/-- No operation writes the coefficients. -/
theorem kept_arg1 (W : Valuation τ sig (Elt F)) :
    after (ops (F := F)) W (Proc.devRef .tc main_arg1) = W (Proc.devRef .tc main_arg1) := by
  after_results_simp

set_option maxHeartbeats 4000000 in
/-- No operation writes the gain. -/
theorem kept_arg2 (W : Valuation τ sig (Elt F)) :
    after (ops (F := F)) W (Proc.devRef .tc main_arg2) = W (Proc.devRef .tc main_arg2) := by
  after_results_simp

/-! ## The run -/

/-- On every device, from any memory with zero counters: every weakly fair execution of the reference terminates with
    its result at the stages' composed function of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v53)
          = Cert.ReferenceIdeal.RefValue.refResult (F := F) (m ((c.tc : Thread nD τ).loc main_arg0))
              (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v53).trans (result_eq _), (h c main_arg0).trans (kept_arg0 _),
      (h c main_arg1).trans (kept_arg1 _), (h c main_arg2).trans (kept_arg2 _)⟩)
    (run_seq scopedRefs_eq scopedSems_eq defs main (fun _ => ops) main_eq (fun _ => ops_sub) m ρ)

end Cert.ReferenceIdeal.RefRun

end
-- ==== Proof.RefLayout.lean ====
/-
  The reference's layout operations at their literal shapes, each read at an index given by its coordinates: which
  entry of its operand an entry of a slice, a reshape, a pad, a window, a stack, a transpose or a broadcast is; and the
  host's sum over the tap axis at the exact values. Apart from that sum nothing here depends on the values: every array
  is a function of its index into any type.
-/
import proofs.«117574_j30185030156317_2_alg».proof.Proof.Gen.ReferenceIdeal
import Idealize.ShloMosaic.Lib.Pipeline.Value
import Idealize.ShloMosaic.Lib.KernelVsHost
import Idealize.ShloMosaic.Lib.DynamicIndex
import Idealize.ShloMosaic.Lib.ValueIdx
import Idealize.ShloMosaic.PureOps.Ideal.Laws

noncomputable section

namespace Cert.ReferenceIdeal.RefValue

open Cert.ReferenceIdeal Cert.ReferenceIdeal.Gen
open Idealize.ShloMosaic Idealize.ShloMosaic.ValueIdx

variable {α : Type}

/-- The first 96 bins with the unit axis dropped: entry (b, t, f, c) is the array's entry (b, 0, t, f, c). -/
theorem dropUnit_at (x : S32x1x1000x481x2.Idx → α) (b : Fin 32) (t : Fin 1000) (f : Fin 96) (c : Fin 2) :
    shapeCast S32x1000x96x2 (extractStridedSlice S32x1x1000x96x2 ![0, 0, 0, 0, 0] x slices_S32x1x1000x481x2_S32x1x1000x96x2_0_0_0_0_0)
      shapeCasts_S32x1x1000x96x2_S32x1000x96x2 (ix4 b t f c) = x (ix5 b 0 t (f.castLE (by decide)) c) := by
  refine (shapeCast_apply _ shapeCasts_S32x1x1000x96x2_S32x1000x96x2 (ix4 b t f c) (ix5 b (0 : Fin 1) t f c) ?_).trans ?_
  · rewrite [Shape.rowMajor_val_five, Shape.rowMajor_val_four]
    show (((b.val * 1 + 0) * 1000 + t.val) * 96 + f.val) * 2 + c.val = ((b.val * 1000 + t.val) * 96 + f.val) * 2 + c.val
    omega
  · exact extractStridedSlice_apply _ x slices_S32x1x1000x481x2_S32x1x1000x96x2_0_0_0_0_0 (ix5 b (0 : Fin 1) t f c)
      (ix5 b 0 t (f.castLE (by decide)) c) (fun a => match a with
      | ⟨0, _⟩ => by show b.val = 0 + b.val; omega
      | ⟨1, _⟩ => by show 0 = 0 + 0; rfl
      | ⟨2, _⟩ => by show t.val = 0 + t.val; omega
      | ⟨3, _⟩ => by show f.val = 0 + f.val; omega
      | ⟨4, _⟩ => by show c.val = 0 + c.val; omega)

/-- The time axis padded by two entries on either side, read at position s: entry s - 2 of the operand, or the
    padding value. -/
theorem pad_at (y : S32x1000x96x2.Idx → α) (v : S_.Idx → α) (b : Fin 32) (s : Fin 1004) (f : Fin 96) (c : Fin 2) :
    pad S32x1004x96x2 ![0, 2, 0, 0] ![0, 2, 0, 0] ![0, 0, 0, 0] y v pads_S32x1000x96x2_S32x1004x96x2_000_220_000_000 h_S_ (ix4 b s f c)
      = if h : 2 ≤ s.val ∧ s.val - 2 < 1000 then y (ix4 b ⟨s.val - 2, h.2⟩ f c) else v (Shape.Idx.first h_S_) := by
  by_cases h : 2 ≤ s.val ∧ s.val - 2 < 1000
  · rw [dif_pos h]
    refine pad_apply_of_inside _ _ _ y v pads_S32x1000x96x2_S32x1004x96x2_000_220_000_000 h_S_ (ix4 b s f c)
      (ix4 b ⟨s.val - 2, h.2⟩ f c) ?_
    intro a
    match a with
    | ⟨0, _⟩ => show b.val = 0 + b.val * (0 + 1); omega
    | ⟨1, _⟩ => show s.val = 2 + (s.val - 2) * (0 + 1); omega
    | ⟨2, _⟩ => show f.val = 0 + f.val * (0 + 1); omega
    | ⟨3, _⟩ => show c.val = 0 + c.val * (0 + 1); omega
  · rw [dif_neg h]
    refine pad_apply_of_not_inside _ _ _ y v pads_S32x1000x96x2_S32x1004x96x2_000_220_000_000 h_S_ (ix4 b s f c)
      (1 : Fin 4) ?_
    intro hin
    have h1 : 2 ≤ s.val := hin.1
    have h2 : (s.val - 2) / 1 < 1000 := hin.2.2
    exact h ⟨h1, by omega⟩

/-- A window of 1000 entries of the padded time axis whose start is the number k ≤ 4 on that axis and 0 on the others
    (there the clamp of the start is the identity), read at time t: position t + k. -/
theorem window_at (x : S32x1004x96x2.Idx → α) (k : Nat) (hk : k ≤ 4) (start : Fin 4 → Int)
    (hst : ∀ a : Fin 4, start a = (((![0, k, 0, 0] : Fin 4 → Nat) a : Nat) : Int))
    (b : Fin 32) (t : Fin 1000) (f : Fin 96) (c : Fin 2) :
    Host.dynamicSlice S32x1000x96x2 x start sliceFits_S32x1004x96x2_S32x1000x96x2 (ix4 b t f c)
      = x (ix4 b ⟨t.val + k, by have := t.isLt; omega⟩ f c) := by
  have ht := t.isLt
  have hoff : S32x1004x96x2.Slices (![0, k, 0, 0] : Fin 4 → Nat) S32x1000x96x2 :=
    ⟨rfl, fun a => match a with
      | ⟨0, _⟩ => by show 0 + 32 ≤ 32; omega
      | ⟨1, _⟩ => by show k + 1000 ≤ 1004; omega
      | ⟨2, _⟩ => by show 0 + 96 ≤ 96; omega
      | ⟨3, _⟩ => by show 0 + 2 ≤ 2; omega⟩
  rw [Host.dynamicSlice_eq_extractStridedSlice S32x1000x96x2 x start _ sliceFits_S32x1004x96x2_S32x1000x96x2 hoff hst]
  refine extractStridedSlice_apply _ x hoff (ix4 b t f c) (ix4 b (⟨t.val + k, by omega⟩ : Fin 1004) f c) ?_
  intro a
  match a with
  | ⟨0, _⟩ => show b.val = 0 + b.val; omega
  | ⟨1, _⟩ => show t.val + k = k + t.val; omega
  | ⟨2, _⟩ => show f.val = 0 + f.val; omega
  | ⟨3, _⟩ => show c.val = 0 + c.val; omega

/-- A unit axis inserted after the first axis, read at (b, 0, t, f, c): the operand at (b, t, f, c). -/
theorem unitAxis_at (y : S32x1000x96x2.Idx → α) (b : Fin 32) (t : Fin 1000) (f : Fin 96) (c : Fin 2) :
    broadcastInDim S32x1x1000x96x2 ![0, 2, 3, 4] bcast_S32x1000x96x2_S32x1x1000x96x2_0_2_3_4 y (ix5 b 0 t f c) = y (ix4 b t f c) :=
  broadcastInDim_apply _ bcast_S32x1000x96x2_S32x1x1000x96x2_0_2_3_4 y (ix5 b 0 t f c) (ix4 b t f c) (fun a => match a with
    | ⟨0, _⟩ => by show b.val = if (32 : Nat) = 1 then 0 else b.val; rw [if_neg (by decide)]
    | ⟨1, _⟩ => by show t.val = if (1000 : Nat) = 1 then 0 else t.val; rw [if_neg (by decide)]
    | ⟨2, _⟩ => by show f.val = if (96 : Nat) = 1 then 0 else f.val; rw [if_neg (by decide)]
    | ⟨3, _⟩ => by show c.val = if (2 : Nat) = 1 then 0 else c.val; rw [if_neg (by decide)])

/-- Five arrays with a unit second axis joined along that axis, read at (b, k, t, f, c): the k-th array at
    (b, 0, t, f, c). -/
theorem stack_at (y0 y1 y2 y3 y4 : S32x1x1000x96x2.Idx → α) (b : Fin 32) (k : Fin 5) (t : Fin 1000) (f : Fin 96) (c : Fin 2) :
    concatenate S32x5x1000x96x2 1 [⟨S32x1x1000x96x2, y0⟩, ⟨S32x1x1000x96x2, y1⟩, ⟨S32x1x1000x96x2, y2⟩, ⟨S32x1x1000x96x2, y3⟩, ⟨S32x1x1000x96x2, y4⟩]
      concatenates_S32x1x1000x96x2_S32x1x1000x96x2_S32x1x1000x96x2_S32x1x1000x96x2_S32x1x1000x96x2_S32x5x1000x96x2_d1 (ix5 b k t f c)
      = (match k with | ⟨0, _⟩ => y0 | ⟨1, _⟩ => y1 | ⟨2, _⟩ => y2 | ⟨3, _⟩ => y3 | ⟨4, _⟩ => y4) (ix5 b 0 t f c) := by
  have hi : ∀ (j : S32x5x1000x96x2.Idx), j = ix5 b k t f c → ∀ a : Fin 5, a.cast rfl ≠ (1 : Fin 5) →
      ((ix5 b (0 : Fin 1) t f c : S32x1x1000x96x2.Idx) a).val = (j (a.cast rfl)).val := by
    intro j hj a hne
    subst hj
    match a with
    | ⟨0, _⟩ => rfl
    | ⟨1, _⟩ => exact absurd rfl hne
    | ⟨2, _⟩ => rfl
    | ⟨3, _⟩ => rfl
    | ⟨4, _⟩ => rfl
  match k with
  | ⟨0, _⟩ =>
    exact concatenate_apply_piece (t := S32x5x1000x96x2) (1 : Fin 5)
      [⟨S32x1x1000x96x2, y0⟩, ⟨S32x1x1000x96x2, y1⟩, ⟨S32x1x1000x96x2, y2⟩, ⟨S32x1x1000x96x2, y3⟩, ⟨S32x1x1000x96x2, y4⟩] concatenates_S32x1x1000x96x2_S32x1x1000x96x2_S32x1x1000x96x2_S32x1x1000x96x2_S32x1x1000x96x2_S32x5x1000x96x2_d1
      (ix5 b ⟨0, _⟩ t f c) 0 (by show 0 < 5; omega) S32x1x1000x96x2 y0 rfl rfl 0 rfl (ix5 b 0 t f c) (hi _ rfl) rfl
  | ⟨1, _⟩ =>
    exact concatenate_apply_piece (t := S32x5x1000x96x2) (1 : Fin 5)
      [⟨S32x1x1000x96x2, y0⟩, ⟨S32x1x1000x96x2, y1⟩, ⟨S32x1x1000x96x2, y2⟩, ⟨S32x1x1000x96x2, y3⟩, ⟨S32x1x1000x96x2, y4⟩] concatenates_S32x1x1000x96x2_S32x1x1000x96x2_S32x1x1000x96x2_S32x1x1000x96x2_S32x1x1000x96x2_S32x5x1000x96x2_d1
      (ix5 b ⟨1, _⟩ t f c) 1 (by show 1 < 5; omega) S32x1x1000x96x2 y1 rfl rfl 1 rfl (ix5 b 0 t f c) (hi _ rfl) rfl
  | ⟨2, _⟩ =>
    exact concatenate_apply_piece (t := S32x5x1000x96x2) (1 : Fin 5)
      [⟨S32x1x1000x96x2, y0⟩, ⟨S32x1x1000x96x2, y1⟩, ⟨S32x1x1000x96x2, y2⟩, ⟨S32x1x1000x96x2, y3⟩, ⟨S32x1x1000x96x2, y4⟩] concatenates_S32x1x1000x96x2_S32x1x1000x96x2_S32x1x1000x96x2_S32x1x1000x96x2_S32x1x1000x96x2_S32x5x1000x96x2_d1
      (ix5 b ⟨2, _⟩ t f c) 2 (by show 2 < 5; omega) S32x1x1000x96x2 y2 rfl rfl 2 rfl (ix5 b 0 t f c) (hi _ rfl) rfl
  | ⟨3, _⟩ =>
    exact concatenate_apply_piece (t := S32x5x1000x96x2) (1 : Fin 5)
      [⟨S32x1x1000x96x2, y0⟩, ⟨S32x1x1000x96x2, y1⟩, ⟨S32x1x1000x96x2, y2⟩, ⟨S32x1x1000x96x2, y3⟩, ⟨S32x1x1000x96x2, y4⟩] concatenates_S32x1x1000x96x2_S32x1x1000x96x2_S32x1x1000x96x2_S32x1x1000x96x2_S32x1x1000x96x2_S32x5x1000x96x2_d1
      (ix5 b ⟨3, _⟩ t f c) 3 (by show 3 < 5; omega) S32x1x1000x96x2 y3 rfl rfl 3 rfl (ix5 b 0 t f c) (hi _ rfl) rfl
  | ⟨4, _⟩ =>
    exact concatenate_apply_piece (t := S32x5x1000x96x2) (1 : Fin 5)
      [⟨S32x1x1000x96x2, y0⟩, ⟨S32x1x1000x96x2, y1⟩, ⟨S32x1x1000x96x2, y2⟩, ⟨S32x1x1000x96x2, y3⟩, ⟨S32x1x1000x96x2, y4⟩] concatenates_S32x1x1000x96x2_S32x1x1000x96x2_S32x1x1000x96x2_S32x1x1000x96x2_S32x1x1000x96x2_S32x5x1000x96x2_d1
      (ix5 b ⟨4, _⟩ t f c) 4 (by show 4 < 5; omega) S32x1x1000x96x2 y4 rfl rfl 4 rfl (ix5 b 0 t f c) (hi _ rfl) rfl

/-- The last axis cut to its entry 0 and dropped, read at (b, k, t, f): the operand at (b, k, t, f, 0). -/
theorem part0_at (y : S32x5x1000x96x2.Idx → α) (b : Fin 32) (k : Fin 5) (t : Fin 1000) (f : Fin 96) :
    shapeCast S32x5x1000x96 (extractStridedSlice S32x5x1000x96x1 ![0, 0, 0, 0, 0] y slices_S32x5x1000x96x2_S32x5x1000x96x1_0_0_0_0_0)
      shapeCasts_S32x5x1000x96x1_S32x5x1000x96 (ix4 b k t f) = y (ix5 b k t f 0) := by
  refine (shapeCast_apply _ shapeCasts_S32x5x1000x96x1_S32x5x1000x96 (ix4 b k t f) (ix5 b k t f (0 : Fin 1)) ?_).trans ?_
  · rewrite [Shape.rowMajor_val_five, Shape.rowMajor_val_four]
    show (((b.val * 5 + k.val) * 1000 + t.val) * 96 + f.val) * 1 + 0 = ((b.val * 5 + k.val) * 1000 + t.val) * 96 + f.val
    omega
  · exact extractStridedSlice_apply _ y slices_S32x5x1000x96x2_S32x5x1000x96x1_0_0_0_0_0 (ix5 b k t f (0 : Fin 1))
      (ix5 b k t f 0) (fun a => match a with
      | ⟨0, _⟩ => by show b.val = 0 + b.val; omega
      | ⟨1, _⟩ => by show k.val = 0 + k.val; omega
      | ⟨2, _⟩ => by show t.val = 0 + t.val; omega
      | ⟨3, _⟩ => by show f.val = 0 + f.val; omega
      | ⟨4, _⟩ => by show 0 = 0 + 0; rfl)

/-- The last axis cut to its entry 1 and dropped, read at (b, k, t, f): the operand at (b, k, t, f, 1). -/
theorem part1_at (y : S32x5x1000x96x2.Idx → α) (b : Fin 32) (k : Fin 5) (t : Fin 1000) (f : Fin 96) :
    shapeCast S32x5x1000x96 (extractStridedSlice S32x5x1000x96x1 ![0, 0, 0, 0, 1] y slices_S32x5x1000x96x2_S32x5x1000x96x1_0_0_0_0_1)
      shapeCasts_S32x5x1000x96x1_S32x5x1000x96 (ix4 b k t f) = y (ix5 b k t f 1) := by
  refine (shapeCast_apply _ shapeCasts_S32x5x1000x96x1_S32x5x1000x96 (ix4 b k t f) (ix5 b k t f (0 : Fin 1)) ?_).trans ?_
  · rewrite [Shape.rowMajor_val_five, Shape.rowMajor_val_four]
    show (((b.val * 5 + k.val) * 1000 + t.val) * 96 + f.val) * 1 + 0 = ((b.val * 5 + k.val) * 1000 + t.val) * 96 + f.val
    omega
  · exact extractStridedSlice_apply _ y slices_S32x5x1000x96x2_S32x5x1000x96x1_0_0_0_0_1 (ix5 b k t f (0 : Fin 1))
      (ix5 b k t f 1) (fun a => match a with
      | ⟨0, _⟩ => by show b.val = 0 + b.val; omega
      | ⟨1, _⟩ => by show k.val = 0 + k.val; omega
      | ⟨2, _⟩ => by show t.val = 0 + t.val; omega
      | ⟨3, _⟩ => by show f.val = 0 + f.val; omega
      | ⟨4, _⟩ => by show 1 = 1 + 0; rfl)

/-- The second and third axes exchanged, read at (b, k, t, f, c): the operand at (b, t, k, f, c). -/
theorem swap_at (x : S32x1000x5x96x2.Idx → α) (b : Fin 32) (k : Fin 5) (t : Fin 1000) (f : Fin 96) (c : Fin 2) :
    transpose S32x5x1000x96x2 [0, 2, 1, 3, 4] x transposes_S32x1000x5x96x2_S32x5x1000x96x2_0_2_1_3_4 (ix5 b k t f c)
      = x (ix5 b t k f c) :=
  transpose_apply [0, 2, 1, 3, 4] x transposes_S32x1000x5x96x2_S32x5x1000x96x2_0_2_1_3_4 (ix5 b k t f c) (ix5 b t k f c)
    (fun a => match a with
      | ⟨0, _⟩ => rfl
      | ⟨1, _⟩ => rfl
      | ⟨2, _⟩ => rfl
      | ⟨3, _⟩ => rfl
      | ⟨4, _⟩ => rfl)

/-- A unit last axis appended, read at (b, t, f, 0): the operand at (b, t, f). -/
theorem lastUnit_at (y : S32x1000x96.Idx → α) (b : Fin 32) (t : Fin 1000) (f : Fin 96) :
    broadcastInDim S32x1000x96x1 ![0, 1, 2] bcast_S32x1000x96_S32x1000x96x1_0_1_2 y (ix4 b t f 0) = y (ix3 b t f) :=
  broadcastInDim_apply _ bcast_S32x1000x96_S32x1000x96x1_0_1_2 y (ix4 b t f 0) (ix3 b t f) (fun a => match a with
    | ⟨0, _⟩ => by show b.val = if (32 : Nat) = 1 then 0 else b.val; rw [if_neg (by decide)]
    | ⟨1, _⟩ => by show t.val = if (1000 : Nat) = 1 then 0 else t.val; rw [if_neg (by decide)]
    | ⟨2, _⟩ => by show f.val = if (96 : Nat) = 1 then 0 else f.val; rw [if_neg (by decide)])

/-- Two arrays with a unit last axis joined along it, read at (b, t, f, c): the first at (b, t, f, 0) when c = 0,
    the second there otherwise. -/
theorem pair_at (y0 y1 : S32x1000x96x1.Idx → α) (b : Fin 32) (t : Fin 1000) (f : Fin 96) (c : Fin 2) :
    concatenate S32x1000x96x2 3 [⟨S32x1000x96x1, y0⟩, ⟨S32x1000x96x1, y1⟩] concatenates_S32x1000x96x1_S32x1000x96x1_S32x1000x96x2_d3 (ix4 b t f c)
      = if c.val = 0 then y0 (ix4 b t f 0) else y1 (ix4 b t f 0) := by
  match c with
  | ⟨0, _⟩ =>
    rw [if_pos rfl]
    exact concatenate_pair_apply_left (t := S32x1000x96x2) (3 : Fin 4) y0 y1 concatenates_S32x1000x96x1_S32x1000x96x1_S32x1000x96x2_d3 (ix4 b t f ⟨0, _⟩) rfl
      (ix4 b t f 0) (fun a => match a with
        | ⟨0, _⟩ => rfl
        | ⟨1, _⟩ => rfl
        | ⟨2, _⟩ => rfl
        | ⟨3, _⟩ => rfl)
  | ⟨1, h1⟩ =>
    have hc : ¬ ((⟨1, h1⟩ : Fin 2).val = 0) := Nat.one_ne_zero
    rw [if_neg hc]
    exact concatenate_pair_apply_right (t := S32x1000x96x2) (3 : Fin 4) y0 y1 concatenates_S32x1000x96x1_S32x1000x96x1_S32x1000x96x2_d3 (ix4 b t f ⟨1, _⟩) rfl rfl
      (ix4 b t f 0) (fun a hne => match a with
        | ⟨0, _⟩ => rfl
        | ⟨1, _⟩ => rfl
        | ⟨2, _⟩ => rfl
        | ⟨3, _⟩ => absurd rfl hne) rfl

/-- The gain with two unit axes inserted, read at (b, 0, t, 0, 0): the gain at (b, t, 0). -/
theorem gainCast_at (x : S32x1000x1.Idx → α) (b : Fin 32) (t : Fin 1000) :
    shapeCast S32x1x1000x1x1 x shapeCasts_S32x1000x1_S32x1x1000x1x1 (ix5 b 0 t 0 0) = x (ix3 b t 0) := by
  refine shapeCast_apply x shapeCasts_S32x1000x1_S32x1x1000x1x1 (ix5 b 0 t 0 0) (ix3 b t 0) ?_
  rewrite [Shape.rowMajor_val_three, Shape.rowMajor_val_five]
  show (b.val * 1000 + t.val) * 1 + 0 = (((b.val * 1 + 0) * 1000 + t.val) * 1 + 0) * 1 + 0
  omega

/-- An array constant along the bin axis and the last axis, read at (b, 0, t, f, c): the operand at (b, 0, t, 0, 0). -/
theorem spread_at (y : S32x1x1000x1x1.Idx → α) (b : Fin 32) (t : Fin 1000) (f : Fin 96) (c : Fin 2) :
    broadcastInDim S32x1x1000x96x2 ![0, 1, 2, 3, 4] bcast_S32x1x1000x1x1_S32x1x1000x96x2_0_1_2_3_4 y (ix5 b 0 t f c)
      = y (ix5 b 0 t 0 0) :=
  broadcastInDim_apply _ bcast_S32x1x1000x1x1_S32x1x1000x96x2_0_1_2_3_4 y (ix5 b 0 t f c) (ix5 b 0 t 0 0) (fun a => match a with
    | ⟨0, _⟩ => by show b.val = if (32 : Nat) = 1 then 0 else b.val; rw [if_neg (by decide)]
    | ⟨1, _⟩ => by show 0 = if (1 : Nat) = 1 then 0 else 0; rw [if_pos rfl]
    | ⟨2, _⟩ => by show t.val = if (1000 : Nat) = 1 then 0 else t.val; rw [if_neg (by decide)]
    | ⟨3, _⟩ => by show 0 = if (1 : Nat) = 1 then 0 else f.val; rw [if_pos rfl]
    | ⟨4, _⟩ => by show 0 = if (1 : Nat) = 1 then 0 else c.val; rw [if_pos rfl])

/-- A scalar at every entry. -/
theorem splat_at (y : S_.Idx → α) (i : S32x1x1000x1x1.Idx) :
    broadcastInDim S32x1x1000x1x1 ![] bcast_S_S32x1x1000x1x1 y i = y (Shape.Idx.first h_S_) :=
  broadcastInDim_apply _ bcast_S_S32x1x1000x1x1 y i (Shape.Idx.first h_S_) (fun a => a.elim0)

/-- The first 96 bins, read at (b, 0, t, f, c): the array's entry there. -/
theorem bins_at (x : S32x1x1000x481x2.Idx → α) (b : Fin 32) (t : Fin 1000) (f : Fin 96) (c : Fin 2) :
    extractStridedSlice S32x1x1000x96x2 ![0, 0, 0, 0, 0] x slices_S32x1x1000x481x2_S32x1x1000x96x2_0_0_0_0_0 (ix5 b 0 t f c)
      = x (ix5 b 0 t (f.castLE (by decide)) c) :=
  extractStridedSlice_apply _ x slices_S32x1x1000x481x2_S32x1x1000x96x2_0_0_0_0_0 (ix5 b (0 : Fin 1) t f c)
    (ix5 b 0 t (f.castLE (by decide)) c) (fun a => match a with
    | ⟨0, _⟩ => by show b.val = 0 + b.val; omega
    | ⟨1, _⟩ => by show 0 = 0 + 0; rfl
    | ⟨2, _⟩ => by show t.val = 0 + t.val; omega
    | ⟨3, _⟩ => by show f.val = 0 + f.val; omega
    | ⟨4, _⟩ => by show c.val = 0 + c.val; omega)

/-- The host's sum over the tap axis at the exact values, read at (b, t, f): the initial value plus the sum over the
    five taps k of the operand at (b, k, t, f). -/
theorem tapSum_at (y : FVec Ideal S32x5x1000x96 .f32) (v : S_.Idx → Ideal .f32) (b : Fin 32) (t : Fin 1000) (f : Fin 96) :
    Host.reduceAdd y v reducesTo_S32x5x1000x96_S32x1000x96_d1 h_S_ (ix3 b t f)
      = v (Shape.Idx.first h_S_) + ∑ k : Fin 5, y (ix4 b k t f) := by
  have h : S32x5x1000x96.Reduces [1] S32x1000x96 := by decide
  show Ideal.hostReduceAdd reducesTo_S32x5x1000x96_S32x1000x96_d1 y (v (Shape.Idx.first h_S_)) (ix3 b t f) = _
  rw [Ideal.hostReduceAdd_single reducesTo_S32x5x1000x96_S32x1000x96_d1 h]
  refine congrArg (_ + ·) (Finset.sum_congr rfl fun k _ => congrArg y (funext fun a => Fin.ext ?_))
  match a with
  | ⟨0, _⟩ => rfl
  | ⟨1, _⟩ => rfl
  | ⟨2, _⟩ => rfl
  | ⟨3, _⟩ => rfl

end Cert.ReferenceIdeal.RefValue

end
-- ==== Proof.RefFrames.lean ====
/-
  The reference's padded time axis, its five shifted windows, their stack and the transposed coefficients, read at an
  index: the stack's entry (b, k, t, f, c) is the spectrogram's frame at the shifted time t + k - 2, or the padding value
  where that is not a frame.
-/
import proofs.«117574_j30185030156317_2_alg».proof.Proof.RefStages
import proofs.«117574_j30185030156317_2_alg».proof.Proof.RefLayout
import proofs.«117574_j30185030156317_2_alg».proof.Proof.Spec

noncomputable section

namespace Cert.ReferenceIdeal.RefValue

open Cert.ReferenceIdeal Cert.ReferenceIdeal.Gen Cert.DeepFilter
open Idealize.ShloMosaic Idealize.ShloMosaic.ValueIdx

/-- The time axis padded by two frames on either side, read at position s: frame s - 2, or the padding value. -/
theorem padded_at (x0 : (⟨S32x1x1000x481x2, .f32⟩ : BufTy).Contents (Elt Ideal)) (b : Fin 32) (s : Fin 1004) (f : Fin 96) (c : Fin 2) :
    padded (F := Ideal) x0 (ix4 b s f c) = frameAt x0 b s.val f c := by
  unfold padded frameAt
  rw [pad_at]
  by_cases h : 2 ≤ s.val ∧ s.val - 2 < 1000
  · rw [dif_pos h, dif_pos h]
    exact dropUnit_at x0 b ⟨s.val - 2, h.2⟩ f c
  · rw [dif_neg h, dif_neg h]
    rfl

/-- The window starting at position k ≤ 4 of the padded time axis, read at time t: position t + k. -/
theorem window_frame (x0 : (⟨S32x1x1000x481x2, .f32⟩ : BufTy).Contents (Elt Ideal)) (k : Nat) (hk : k ≤ 4) (start : Fin 4 → Int)
    (hst : ∀ a : Fin 4, start a = (((![0, k, 0, 0] : Fin 4 → Nat) a : Nat) : Int))
    (b : Fin 32) (t : Fin 1000) (f : Fin 96) (c : Fin 2) :
    Host.dynamicSlice S32x1000x96x2 (padded (F := Ideal) x0) start sliceFits_S32x1004x96x2_S32x1000x96x2 (ix4 b t f c)
      = frameAt x0 b (t.val + k) f c :=
  (window_at (padded (F := Ideal) x0) k hk start hst b t f c).trans (padded_at x0 b ⟨t.val + k, by have := t.isLt; omega⟩ f c)

/-- The window starting at position 0, read at time t: position t + 0 of the padded time axis. -/
theorem window0_at (x0 : (⟨S32x1x1000x481x2, .f32⟩ : BufTy).Contents (Elt Ideal)) (b : Fin 32) (t : Fin 1000) (f : Fin 96) (c : Fin 2) :
    window (F := Ideal) x0 0#32 (ix4 b t f c) = frameAt x0 b (t.val + 0) f c := by
  unfold window
  refine window_frame x0 0 (by omega) _ ?_ b t f c
  intro a
  match a with
  | ⟨0, _⟩ => rfl
  | ⟨1, _⟩ => rfl
  | ⟨2, _⟩ => rfl
  | ⟨3, _⟩ => rfl

/-- The window starting at position 1, read at time t: position t + 1 of the padded time axis. -/
theorem window1_at (x0 : (⟨S32x1x1000x481x2, .f32⟩ : BufTy).Contents (Elt Ideal)) (b : Fin 32) (t : Fin 1000) (f : Fin 96) (c : Fin 2) :
    window (F := Ideal) x0 1#32 (ix4 b t f c) = frameAt x0 b (t.val + 1) f c := by
  unfold window
  refine window_frame x0 1 (by omega) _ ?_ b t f c
  intro a
  match a with
  | ⟨0, _⟩ => rfl
  | ⟨1, _⟩ => rfl
  | ⟨2, _⟩ => rfl
  | ⟨3, _⟩ => rfl

/-- The window starting at position 2, read at time t: position t + 2 of the padded time axis. -/
theorem window2_at (x0 : (⟨S32x1x1000x481x2, .f32⟩ : BufTy).Contents (Elt Ideal)) (b : Fin 32) (t : Fin 1000) (f : Fin 96) (c : Fin 2) :
    window (F := Ideal) x0 2#32 (ix4 b t f c) = frameAt x0 b (t.val + 2) f c := by
  unfold window
  refine window_frame x0 2 (by omega) _ ?_ b t f c
  intro a
  match a with
  | ⟨0, _⟩ => rfl
  | ⟨1, _⟩ => rfl
  | ⟨2, _⟩ => rfl
  | ⟨3, _⟩ => rfl

/-- The window starting at position 3, read at time t: position t + 3 of the padded time axis. -/
theorem window3_at (x0 : (⟨S32x1x1000x481x2, .f32⟩ : BufTy).Contents (Elt Ideal)) (b : Fin 32) (t : Fin 1000) (f : Fin 96) (c : Fin 2) :
    window (F := Ideal) x0 3#32 (ix4 b t f c) = frameAt x0 b (t.val + 3) f c := by
  unfold window
  refine window_frame x0 3 (by omega) _ ?_ b t f c
  intro a
  match a with
  | ⟨0, _⟩ => rfl
  | ⟨1, _⟩ => rfl
  | ⟨2, _⟩ => rfl
  | ⟨3, _⟩ => rfl

/-- The window starting at position 4, read at time t: position t + 4 of the padded time axis. -/
theorem window4_at (x0 : (⟨S32x1x1000x481x2, .f32⟩ : BufTy).Contents (Elt Ideal)) (b : Fin 32) (t : Fin 1000) (f : Fin 96) (c : Fin 2) :
    window (F := Ideal) x0 4#32 (ix4 b t f c) = frameAt x0 b (t.val + 4) f c := by
  unfold window
  refine window_frame x0 4 (by omega) _ ?_ b t f c
  intro a
  match a with
  | ⟨0, _⟩ => rfl
  | ⟨1, _⟩ => rfl
  | ⟨2, _⟩ => rfl
  | ⟨3, _⟩ => rfl

/-- The stack of the five windows, read at (b, k, t, f, c): position t + k of the padded time axis. -/
theorem stack_frame (x0 : (⟨S32x1x1000x481x2, .f32⟩ : BufTy).Contents (Elt Ideal)) (b : Fin 32) (k : Fin 5) (t : Fin 1000) (f : Fin 96) (c : Fin 2) :
    stack (F := Ideal) x0 (ix5 b k t f c) = frameAt x0 b (t.val + k.val) f c := by
  unfold stack
  rw [stack_at]
  match k with
  | ⟨0, _⟩ => exact (unitAxis_at (window (F := Ideal) x0 0#32) b t f c).trans (window0_at x0 b t f c)
  | ⟨1, _⟩ => exact (unitAxis_at (window (F := Ideal) x0 1#32) b t f c).trans (window1_at x0 b t f c)
  | ⟨2, _⟩ => exact (unitAxis_at (window (F := Ideal) x0 2#32) b t f c).trans (window2_at x0 b t f c)
  | ⟨3, _⟩ => exact (unitAxis_at (window (F := Ideal) x0 3#32) b t f c).trans (window3_at x0 b t f c)
  | ⟨4, _⟩ => exact (unitAxis_at (window (F := Ideal) x0 4#32) b t f c).trans (window4_at x0 b t f c)

/-- The coefficients with the tap axis moved before the time axis, read at (b, k, t, f, c): the coefficients at
    (b, t, k, f, c). -/
theorem coefT_at (x1 : (⟨S32x1000x5x96x2, .f32⟩ : BufTy).Contents (Elt Ideal)) (b : Fin 32) (k : Fin 5) (t : Fin 1000) (f : Fin 96) (c : Fin 2) :
    coefT (F := Ideal) x1 (ix5 b k t f c) = x1 (ix5 b t k f c) := by
  unfold coefT
  exact swap_at x1 b k t f c

end Cert.ReferenceIdeal.RefValue

end
-- ==== Proof.RefTaps.lean ====
/-
  The reference's complex products tap by tap, their sums over the five taps, and the two sums joined on the last
  axis, read at an index.
-/
import proofs.«117574_j30185030156317_2_alg».proof.Proof.RefFrames

noncomputable section

namespace Cert.ReferenceIdeal.RefValue

open Cert.ReferenceIdeal Cert.ReferenceIdeal.Gen Cert.DeepFilter
open Idealize.ShloMosaic Idealize.ShloMosaic.ValueIdx

/-- The real parts of an array with a last axis of two entries, read at (b, k, t, f). -/
theorem part0_apply (y : (⟨S32x5x1000x96x2, .f32⟩ : BufTy).Contents (Elt Ideal)) (b : Fin 32) (k : Fin 5) (t : Fin 1000) (f : Fin 96) :
    part0 (F := Ideal) y (ix4 b k t f) = y (ix5 b k t f 0) := by
  unfold part0
  exact part0_at y b k t f

/-- The imaginary parts of an array with a last axis of two entries, read at (b, k, t, f). -/
theorem part1_apply (y : (⟨S32x5x1000x96x2, .f32⟩ : BufTy).Contents (Elt Ideal)) (b : Fin 32) (k : Fin 5) (t : Fin 1000) (f : Fin 96) :
    part1 (F := Ideal) y (ix4 b k t f) = y (ix5 b k t f 1) := by
  unfold part1
  exact part1_at y b k t f

/-- Tap k of the real part: frame's real part times coefficient's real part less imaginary times imaginary. -/
theorem tapsRe_at (x0 : (⟨S32x1x1000x481x2, .f32⟩ : BufTy).Contents (Elt Ideal)) (x1 : (⟨S32x1000x5x96x2, .f32⟩ : BufTy).Contents (Elt Ideal)) (b : Fin 32) (k : Fin 5) (t : Fin 1000) (f : Fin 96) :
    tapsRe (F := Ideal) x0 x1 (ix4 b k t f) = tapRe x0 x1 b t f k := by
  unfold tapsRe
  rw [subf_apply, mulf_apply, mulf_apply, part0_apply, part0_apply, part1_apply, part1_apply,
    stack_frame, stack_frame, coefT_at, coefT_at]
  rfl

/-- Tap k of the imaginary part: frame's imaginary part times coefficient's real part plus real times imaginary. -/
theorem tapsIm_at (x0 : (⟨S32x1x1000x481x2, .f32⟩ : BufTy).Contents (Elt Ideal)) (x1 : (⟨S32x1000x5x96x2, .f32⟩ : BufTy).Contents (Elt Ideal)) (b : Fin 32) (k : Fin 5) (t : Fin 1000) (f : Fin 96) :
    tapsIm (F := Ideal) x0 x1 (ix4 b k t f) = tapIm x0 x1 b t f k := by
  unfold tapsIm
  rw [addf_apply, mulf_apply, mulf_apply, part0_apply, part0_apply, part1_apply, part1_apply,
    stack_frame, stack_frame, coefT_at, coefT_at]
  rfl

/-- The real part: the sum of its five taps onto zero. -/
theorem sumRe_at (x0 : (⟨S32x1x1000x481x2, .f32⟩ : BufTy).Contents (Elt Ideal)) (x1 : (⟨S32x1000x5x96x2, .f32⟩ : BufTy).Contents (Elt Ideal)) (b : Fin 32) (t : Fin 1000) (f : Fin 96) :
    sumRe (F := Ideal) x0 x1 (ix3 b t f) = zeroW + ∑ k : Fin 5, tapRe x0 x1 b t f k := by
  unfold sumRe
  rw [tapSum_at]
  exact congrArg (zeroW + ·) (Finset.sum_congr rfl fun k _ => tapsRe_at x0 x1 b k t f)

/-- The imaginary part: the sum of its five taps onto zero. -/
theorem sumIm_at (x0 : (⟨S32x1x1000x481x2, .f32⟩ : BufTy).Contents (Elt Ideal)) (x1 : (⟨S32x1000x5x96x2, .f32⟩ : BufTy).Contents (Elt Ideal)) (b : Fin 32) (t : Fin 1000) (f : Fin 96) :
    sumIm (F := Ideal) x0 x1 (ix3 b t f) = zeroW + ∑ k : Fin 5, tapIm x0 x1 b t f k := by
  unfold sumIm
  rw [tapSum_at]
  exact congrArg (zeroW + ·) (Finset.sum_congr rfl fun k _ => tapsIm_at x0 x1 b k t f)

/-- The two parts joined on the last axis: the real sum at c = 0, the imaginary sum at c = 1. -/
theorem joined_at (x0 : (⟨S32x1x1000x481x2, .f32⟩ : BufTy).Contents (Elt Ideal)) (x1 : (⟨S32x1000x5x96x2, .f32⟩ : BufTy).Contents (Elt Ideal)) (b : Fin 32) (t : Fin 1000) (f : Fin 96) (c : Fin 2) :
    joined (F := Ideal) x0 x1 (ix4 b t f c)
      = if c.val = 0 then zeroW + ∑ k : Fin 5, tapRe x0 x1 b t f k else zeroW + ∑ k : Fin 5, tapIm x0 x1 b t f k := by
  unfold joined
  rw [pair_at, lastUnit_at, lastUnit_at, sumRe_at, sumIm_at]

end Cert.ReferenceIdeal.RefValue

end
-- ==== Proof.RefResult.lean ====
/-
  The reference's blend on the first 96 bins and its result: the blended planes written over the first 96 bins of the
  spectrogram, the spectrogram elsewhere. That is the specification's function of the three argument arrays.
-/
import proofs.«117574_j30185030156317_2_alg».proof.Proof.RefTaps
import proofs.«117574_j30185030156317_2_alg».proof.Proof.ScatterForms

noncomputable section

namespace Cert.ReferenceIdeal.RefValue

open Cert.ReferenceIdeal Cert.ReferenceIdeal.Gen Cert.DeepFilter
open Idealize.ShloMosaic Idealize.ShloMosaic.ValueIdx

/-- The blend on the first 96 bins, read at (b, 0, t, f, c): the filtered value (the real sum at c = 0, the imaginary
    sum at c = 1) times the gain plus the unfiltered bin times one minus the gain. -/
theorem blended_at (x0 : (⟨S32x1x1000x481x2, .f32⟩ : BufTy).Contents (Elt Ideal)) (x1 : (⟨S32x1000x5x96x2, .f32⟩ : BufTy).Contents (Elt Ideal)) (x2 : (⟨S32x1000x1, .f32⟩ : BufTy).Contents (Elt Ideal)) (b : Fin 32) (t : Fin 1000) (f : Fin 96) (c : Fin 2) :
    blended (F := Ideal) x0 x1 x2 (ix5 b 0 t f c)
      = blend (if c.val = 0 then zeroW + ∑ k : Fin 5, tapRe x0 x1 b t f k else zeroW + ∑ k : Fin 5, tapIm x0 x1 b t f k)
          (x0 (ix5 b 0 t (bin f) c)) (x2 (ix3 b t 0)) := by
  have hj : broadcastInDim S32x1x1000x96x2 ![0, 2, 3, 4] bcast_S32x1000x96x2_S32x1x1000x96x2_0_2_3_4 (joined (F := Ideal) x0 x1)
      (ix5 b 0 t f c)
      = if c.val = 0 then zeroW + ∑ k : Fin 5, tapRe x0 x1 b t f k else zeroW + ∑ k : Fin 5, tapIm x0 x1 b t f k :=
    (unitAxis_at (joined (F := Ideal) x0 x1) b t f c).trans (joined_at x0 x1 b t f c)
  have hg : gain5 (F := Ideal) x2 (ix5 b 0 t 0 0) = x2 (ix3 b t 0) := by
    unfold gain5
    exact gainCast_at x2 b t
  have hgs : broadcastInDim S32x1x1000x96x2 ![0, 1, 2, 3, 4] bcast_S32x1x1000x1x1_S32x1x1000x96x2_0_1_2_3_4 (gain5 (F := Ideal) x2)
      (ix5 b 0 t f c) = x2 (ix3 b t 0) :=
    (spread_at (gain5 (F := Ideal) x2) b t f c).trans hg
  have hx : extractStridedSlice S32x1x1000x96x2 ![0, 0, 0, 0, 0] x0 slices_S32x1x1000x481x2_S32x1x1000x96x2_0_0_0_0_0 (ix5 b 0 t f c)
      = x0 (ix5 b 0 t (bin f) c) := bins_at x0 b t f c
  have h1 : broadcastInDim S32x1x1000x96x2 ![0, 1, 2, 3, 4] bcast_S32x1x1000x1x1_S32x1x1000x96x2_0_1_2_3_4
      (subf (broadcastInDim S32x1x1000x1x1 ![] bcast_S_S32x1x1000x1x1 (constant (F := Ideal) S_ .f32 0x3F800000#32)) (gain5 (F := Ideal) x2))
      (ix5 b 0 t f c) = oneW - x2 (ix3 b t 0) := by
    refine (spread_at _ b t f c).trans ?_
    rw [subf_apply, splat_at, hg]
    rfl
  unfold blended
  rw [addf_apply, mulf_apply, mulf_apply, hj, hgs, hx, h1]
  rfl

/-- The reference's result at an index given by its coordinates: the specification's function there. The index of
    the final write is zero everywhere, so the write reads, at a bin below 96, the blend at the same coordinates, and
    elsewhere the spectrogram. -/
theorem result_at (x0 : (⟨S32x1x1000x481x2, .f32⟩ : BufTy).Contents (Elt Ideal)) (x1 : (⟨S32x1000x5x96x2, .f32⟩ : BufTy).Contents (Elt Ideal)) (x2 : (⟨S32x1000x1, .f32⟩ : BufTy).Contents (Elt Ideal)) (b : Fin 32) (u : Fin 1) (t : Fin 1000) (g : Fin 481) (c : Fin 2) :
    refResult (F := Ideal) x0 x1 x2 (ix5 b u t g c) = G x0 x1 x2 (ix5 b u t g c) := by
  unfold refResult
  refine (Cert.DeepFilter.Scatter.scatter5_apply scatter_S32x1x1000x481x2_S1_S32x1x1000x96x2_01234_n_3_0_wf x0
    (broadcastInDim S1 ![] bcast_S_S1 (constantI S_ 32 0#32)) (fun k => rfl) (blended (F := Ideal) x0 x1 x2) (ix5 b u t g c)).trans ?_
  unfold G
  show (if h : g.val < 96 then blended (F := Ideal) x0 x1 x2 (ix5 b u t ⟨g.val, h⟩ c) else x0 (ix5 b u t g c))
    = (if h : g.val < 96 then
        (if c.val = 0 then planeRe x0 x1 x2 (ix3 b t ⟨g.val, h⟩) else planeIm x0 x1 x2 (ix3 b t ⟨g.val, h⟩))
       else x0 (ix5 b u t g c))
  by_cases h : g.val < 96
  · rw [dif_pos h, dif_pos h]
    obtain rfl : u = 0 := Subsingleton.elim _ _
    rw [blended_at]
    match c with
    | ⟨0, h0⟩ =>
      have hc : (⟨0, h0⟩ : Fin 2).val = 0 := rfl
      rw [if_pos hc, if_pos hc]
      rfl
    | ⟨1, h1⟩ =>
      have hc : ¬ ((⟨1, h1⟩ : Fin 2).val = 0) := Nat.one_ne_zero
      rw [if_neg hc, if_neg hc]
      rfl
  · rw [dif_neg h, dif_neg h]

/-- The reference's result — the blended planes written over the first 96 bins of the spectrogram, the spectrogram
    elsewhere — is the specification's function of the three argument arrays. -/
theorem result_eq (x0 : SSpec.Idx → EReal) (x1 : SCoef.Idx → EReal) (x2 : SGain.Idx → EReal) :
    refResult (F := Ideal) x0 x1 x2 = G x0 x1 x2 := by
  funext i
  obtain ⟨b, u, t, g, c, rfl⟩ : ∃ (b : Fin 32) (u : Fin 1) (t : Fin 1000) (g : Fin 481) (c : Fin 2), i = ix5 b u t g c :=
    ⟨i 0, i 1, i 2, i 3, i 4, eq_ix5 i⟩
  exact result_at x0 x1 x2 b u t g c

end Cert.ReferenceIdeal.RefValue

end
-- ==== Proof.lean ====
/-
  A deep-filter step: the first 96 frequency bins of a complex spectrogram are filtered along time by a 5-tap complex
  filter that looks two frames back and two frames ahead, and blended with the unfiltered bins by a per-frame gain; the
  other bins pass through.

  The kernel program splits the spectrogram and the coefficients into real and imaginary planes on the host, pads the
  planes' time axis once, runs one grid point per batch entry — each adds the five taps' complex products one after
  the other onto zero and blends — and writes the two result planes back over the first 96 bins. The reference pads the
  complex array, stacks the five shifted windows, sums the products over the stack axis, blends, and writes the result
  back. Both are the one function `Cert.DeepFilter.G` of the three arguments on the extended reals (Proof/Spec.lean): the
  two programs spell the same products, differences, sums and blend at every index, and differ only in how the five taps
  are added — one after the other onto zero against zero plus their sum — which is associativity of addition. No step
  needs the inputs to be finite. The idealization rewrote nothing, so its conjunct is trivial; the two kernel programs' frames are
  the generated ones, and the reference's is its run (Proof/RefRun.lean) with the result dropped.
-/
import proofs.«117574_j30185030156317_2_alg».proof.Defs
import proofs.«117574_j30185030156317_2_alg».proof.Proof.Gen.Kernel
import proofs.«117574_j30185030156317_2_alg».proof.Proof.Gen.Kernel.Skeleton
import proofs.«117574_j30185030156317_2_alg».proof.Proof.Gen.Kernel.Launch
import proofs.«117574_j30185030156317_2_alg».proof.Proof.Gen.Kernel.Points
import proofs.«117574_j30185030156317_2_alg».proof.Proof.Gen.Kernel.Frame
import proofs.«117574_j30185030156317_2_alg».proof.Proof.Gen.KernelIdeal
import proofs.«117574_j30185030156317_2_alg».proof.Proof.Gen.KernelIdeal.Skeleton
import proofs.«117574_j30185030156317_2_alg».proof.Proof.Gen.KernelIdeal.Launch
import proofs.«117574_j30185030156317_2_alg».proof.Proof.Gen.KernelIdeal.Points
import proofs.«117574_j30185030156317_2_alg».proof.Proof.Gen.KernelIdeal.Frame
import proofs.«117574_j30185030156317_2_alg».proof.Proof.Gen.ReferenceIdeal
import proofs.«117574_j30185030156317_2_alg».proof.Proof.Gen.Pre_finite_inputs
import proofs.«117574_j30185030156317_2_alg».proof.Proof.KerTail
import proofs.«117574_j30185030156317_2_alg».proof.Proof.RefRun
import proofs.«117574_j30185030156317_2_alg».proof.Proof.RefResult
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · exact fun m ρ _ =>
      (θ_run Cert.ReferenceIdeal.defs _ _).mono (fun _ h c => (h c).2) (Cert.ReferenceIdeal.RefRun.run (F := Ideal) m ρ)
  · intro m ρ m' ρ' _ hagree
    refine ⟨fun c => Cert.DeepFilter.G (Cert.KernelIdeal.KerValue.specA m c) (Cert.KernelIdeal.KerValue.coefA m c)
      (Cert.KernelIdeal.KerValue.gainA m c), Cert.KernelIdeal.KerValue.run m ρ, ?_⟩
    refine (θ_run Cert.ReferenceIdeal.defs _ _).mono (fun _ h c => ⟨?_, (h c).2⟩)
      (Cert.ReferenceIdeal.RefRun.run (F := Ideal) m' ρ')
    rw [(h c).1, (hagree c).1, (hagree c).2.1, (hagree c).2.2]
    exact Cert.ReferenceIdeal.RefValue.result_eq _ _ _⟩

end Cert.Proof

end
